-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x8192 : Shape := ⟨2, ![4096, 8192]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096x4096 .f32) (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S4096x8192 .f32) (main_arg8 : FVec F S4096 .f32) (main_arg9 : FVec F S4096x8192 .f32) (main_arg10 : FVec F S4096 .f32) (main_arg11 : FVec F S4096x4096 .f32) (main_arg12 : FVec F S4096 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x8192 .f32 := Host.absf main_arg9
  let main_cst_16 : FVec F S_ .f32 := constant S_ .f32 0x7F800000#32
  let main_v45 : FVec F S4096x8192 .f32 := broadcastInDim S4096x8192 ![] bcast_S_S4096x8192 main_cst_16
  let main_v46 : IVec S4096x8192 1 := cmpf .olt main_v44 main_v45
  let main_c_17 : IVec S_ 1 := constantI S_ 1 1#1
  let main_v47 : IVec S_ 1 := (fun x v => Host.reduce IntOp.andi x v reducesTo_S4096x8192_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S4096 .f32) (main_arg5 : FVec F S4096x8192 .f32) (main_arg6 : FVec F S4096 .f32) (main_arg7 : FVec F S4096x8192 .f32) (main_arg8 : FVec F S4096 .f32) (main_arg9 : FVec F S4096x8192 .f32) (main_arg10 : FVec F S4096 .f32) (main_arg11 : FVec F S4096x4096 .f32) (main_arg12 : FVec F S4096 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x4096 .f32) (main_arg1 : FVec F S4096x4096 .f32) (main_arg2 : FVec F S4096x4096 .f32) (main_arg3 : FVec F S4096x8192 .f32) (main_arg4 : FVec F S4096 .f32) (main_arg5 : FVec F S4096x8192 .f32) (main_arg6 : FVec F S4096 .f32) (main_arg7 : FVec F S4096x8192 .f32) (main_arg8 : FVec F S4096 .f32) (main_arg9 : FVec F S4096x8192 .f32) (main_arg10 : FVec F S4096 .f32) (main_arg11 : FVec F S4096x4096 .f32) (main_arg12 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_arg8 main_arg9 main_arg10 main_arg11 main_arg12 main_v13 main_v16
-- ==== Kernel.lean ====
abbrev S4096x4096 : Shape := ⟨2, ![4096, 4096]⟩
abbrev S4096x8192 : Shape := ⟨2, ![4096, 8192]⟩
abbrev S4096 : Shape := ⟨1, ![4096]⟩
abbrev S1x4096 : Shape := ⟨2, ![1, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S256x1024 : Shape := ⟨2, ![256, 1024]⟩
abbrev S4096x1024 : Shape := ⟨2, ![4096, 1024]⟩
abbrev S256x4096 : Shape := ⟨2, ![256, 4096]⟩
abbrev S256 : Shape := ⟨1, ![256]⟩
abbrev S256x1 : Shape := ⟨2, ![256, 1]⟩

abbrev nBuf : Space → Nat
  | .hbm => 28
  | .vmem => 34
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096, .f32⟩
  | .hbm, ⟨5, _⟩ => ⟨S4096x8192, .f32⟩
  | .hbm, ⟨6, _⟩ => ⟨S4096, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4096x4096, .bf16⟩
  | .hbm, ⟨14, _⟩ => ⟨S4096x4096, .bf16⟩
  | .hbm, ⟨15, _⟩ => ⟨S4096x8192, .bf16⟩
  | .hbm, ⟨16, _⟩ => ⟨S4096x8192, .bf16⟩
  | .hbm, ⟨17, _⟩ => ⟨S4096x8192, .bf16⟩
  | .hbm, ⟨18, _⟩ => ⟨S4096x8192, .bf16⟩
  | .hbm, ⟨19, _⟩ => ⟨S4096x8192, .bf16⟩
  | .hbm, ⟨20, _⟩ => ⟨S4096x4096, .bf16⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S4096x4096, .bf16⟩
  | .hbm, ⟨27, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S256x1024, .bf16⟩
  | .local _ .vmem, ⟨27, _⟩ => ⟨S256x1024, .bf16⟩
  | .local _ .vmem, ⟨28, _⟩ => ⟨S4096x1024, .bf16⟩
  | .local _ .vmem, ⟨29, _⟩ => ⟨S4096x1024, .bf16⟩
  | .local _ .vmem, ⟨30, _⟩ => ⟨S1x4096, .f32⟩
  | .local _ .vmem, ⟨31, _⟩ => ⟨S256x4096, .f32⟩
  | .local _ .vmem, ⟨32, _⟩ => ⟨S256x4096, .f32⟩
  | .local _ .vmem, ⟨33, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg3_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  concatenates_S4096x4096_S4096x4096_S4096x8192_d1 : Shape.Concatenates [S4096x4096, S4096x4096] S4096x8192 1
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  dot_S1024x1024_S512x1024_S1024x512_1_1_0_0_n_n_wf : DotDims.WF S1024x1024 S512x1024 S1024x512 [1] [1] [0] [0] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .bf16 = 32 ∨ (Rect.block (s := S4096x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .bf16 = 32 ∨ (Rect.block (s := S4096x8192) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .bf16 = 32 ∨ (Rect.block (s := S4096x8192) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .bf16 = 32 ∨ (Rect.block (s := S4096x8192) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .bf16 = 32 ∨ (Rect.block (s := S4096x8192) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S4096x4096.size a
  hwx0_9 : ∀ i : grid0.Coords, EltTy.bits .f32 = 32 ∨ (Rect.block (s := S4096x4096) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S4096x4096.size a
  hwx0_10 : ∀ i : grid0.Coords, EltTy.bits .bf16 = 32 ∨ (Rect.block (s := S4096x4096) S1024x512.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x4096.size a
  hwx1_0 : ∀ i : grid1.Coords, EltTy.bits .bf16 = 32 ∨ (Rect.block (s := S4096x4096) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v13) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x8192 : Shape := ⟨2, ![4096, 8192]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096, .f32⟩
  | .hbm, ⟨5, _⟩ => ⟨S4096x8192, .f32⟩
  | .hbm, ⟨6, _⟩ => ⟨S4096, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4096x8192, .f32⟩
  | .hbm, ⟨14, _⟩ => ⟨S8192x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S8192x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S8192x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S8192x4096, .f32⟩
  | .hbm, ⟨47, _⟩ => ⟨S4096x4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S1x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x4096, .f32⟩
  | .hbm, ⟨82, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  concatenates_S4096x4096_S4096x4096_S4096x8192_d1 : Shape.Concatenates [S4096x4096, S4096x4096] S4096x8192 1
  transposes_S4096x8192_S8192x4096_1_0 : S4096x8192.Transposes [1, 0] S8192x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x8192_S8192x4096_S4096x4096_1_0_0_1_n_n_wf : DotDims.WF S4096x8192 S8192x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Kernel.Gates.Base.lean ====
/-
  The gate kernel (the first pallas_call): the four gate pre-activations accumulated over eight blocks of the
  concatenated input axis in four scratch buffers carried from one grid point to the next, and at the last block
  the biases added, the gates applied and the new hidden state written out. Shared by the three control cases of
  its body: the two branch conditions in closed form over the grid, where the output window is idle, the staging
  and scratch memrefs the body is called with, and the pipeline's class invariant with the four accumulators opened.
-/
import proofs.«176059_j79517024518378_2_alg».proof.Proof.Gen.Kernel.Launch
import proofs.«176059_j79517024518378_2_alg».proof.Proof.Gen.Kernel.Skeleton
import proofs.«176059_j79517024518378_2_alg».proof.Proof.Gen.Kernel.Points
import Idealize.ShloMosaic.Lib.Pipeline.FrameBody
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulators are reset exactly when the coordinate along the contracted axis is 0. -/
abbrev isFirst (i : grid0.Coords) : Prop :=
  (Scalar.cmpi .ne (Scalar.extui (Scalar.cmpi .eq (BitVec.ofNat 32 (i 2).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The new hidden state is written exactly when that coordinate is 7, the last block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The ten input windows are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
/-- The output window is idle, and not written back, wherever the block is not the last. -/
theorem idle_10 : ∀ t : Fin cfg0.N, ¬isLast (grid0.coords t) → cfg0.idle 10 (grid0.coords t) = true := by decide +kernel
theorem noFlush_10 : ∀ t : Fin cfg0.N, ¬isLast (grid0.coords t) → (cfg0.win 10).flush t = false := by decide +kernel
theorem live_10 : ∀ t : Fin cfg0.N, isLast (grid0.coords t) → cfg0.idle 10 (grid0.coords t) = false := by decide +kernel

/-- The staging memref each window is on at point `t`, as the pipeline passes it, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x512 .bf16 := win0_10.stage (cfg0.slots t 10)
abbrev hs10 (t : Fin cfg0.N) : (ms10 t).IsWhole := hstage0_10 ((cfg0.slots t 10).cast nbuf0_10)
/-- The four accumulators (forget gate, input gate, candidate, output gate): the kernel's own scratch buffers, whole. -/
abbrev accF : Memref sig .tc .vmem S1024x512 .f32 := Memref.whole cc0_scratch0
abbrev accI : Memref sig .tc .vmem S1024x512 .f32 := Memref.whole cc0_scratch1
abbrev accC : Memref sig .tc .vmem S1024x512 .f32 := Memref.whole cc0_scratch2
abbrev accO : Memref sig .tc .vmem S1024x512 .f32 := Memref.whole cc0_scratch3
/-- The view through which the output block's contents are stated. -/
abbrev outV : View sig .tc .vmem S1024x512 .bf16 := (Memref.whole cc0_stg10_0 : Memref sig .tc .vmem S1024x512 .bf16).view

end Cert.Kernel.Gates

end
-- ==== Proof.Kernel.Gates.RunFirst.lean ====
/-
  The gate kernel's body at the FIRST block of the contracted axis (the four accumulators are reset, then the block's four products added; nothing is written to the output): the body's triple on whole memrefs, with the pieces its stores leave in each accumulator.
-/
import proofs.«176059_j79517024518378_2_alg».proof.Proof.Kernel.Gates.Base

set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- At the first block: the inputs' buffers at their blocks, the output's buffer at contents handed back untouched, the
    accumulators at anything; the body runs, leaving the inputs as they were and each accumulator with its pieces written. -/
noncomputable def runFirst (c : Dev nD) (i : grid0.Coords) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (hc0 : isFirst i) (hc1 : ¬isLast i)
    (x0 : Vec F S1024x1024 .bf16) (x1 : Vec F S512x1024 .bf16) (x2 : Vec F S512x1024 .bf16) (x3 : Vec F S512x1024 .bf16) (x4 : Vec F S512x1024 .bf16) (x5 : Vec F S1x512 .f32) (x6 : Vec F S1x512 .f32) (x7 : Vec F S1x512 .f32) (x8 : Vec F S1x512 .f32) (x9 : Vec F S1024x512 .f32) :
    Σ' (L10 : List (View.Piece (Elt F) S1024x512 .bf16)) (LS0 : List (View.Piece (Elt F) S1024x512 .f32)) (LS1 : List (View.Piece (Elt F) S1024x512 .f32)) (LS2 : List (View.Piece (Elt F) S1024x512 .f32)), { LS3 : List (View.Piece (Elt F) S1024x512 .f32) //
      ∀ (xi10 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, fun xi10 E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    isplitl [HS2]; · iexists _; iexact HS2
    iexists _; iexact HS3

end Cert.Kernel.Gates

end
-- ==== Proof.Kernel.Gates.RunMid.lean ====
/-
  The gate kernel's body at a MIDDLE block of the contracted axis (the block's four products are added to the accumulators; nothing is written to the output): the body's triple on whole memrefs, with the pieces its stores leave in each accumulator.
-/
import proofs.«176059_j79517024518378_2_alg».proof.Proof.Kernel.Gates.Base

set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- At a middle block: the inputs' buffers at their blocks, the output's buffer at contents handed back untouched, the
    accumulators at what the block before left (`xs·`); the body runs, leaving the inputs as they were and each
    accumulator with its pieces written. -/
noncomputable def runMid (c : Dev nD) (i : grid0.Coords) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (hc0 : ¬isFirst i) (hc1 : ¬isLast i)
    (x0 : Vec F S1024x1024 .bf16) (x1 : Vec F S512x1024 .bf16) (x2 : Vec F S512x1024 .bf16) (x3 : Vec F S512x1024 .bf16) (x4 : Vec F S512x1024 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    Σ' (L10 : List (View.Piece (Elt F) S1024x512 .bf16)) (LS0 : List (View.Piece (Elt F) S1024x512 .f32)) (LS1 : List (View.Piece (Elt F) S1024x512 .f32)) (LS2 : List (View.Piece (Elt F) S1024x512 .f32)), { LS3 : List (View.Piece (Elt F) S1024x512 .f32) //
      ∀ (xi10 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, fun xi10 E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    isplitl [HS2]; · iexists _; iexact HS2
    iexists _; iexact HS3

end Cert.Kernel.Gates

end
-- ==== Proof.Kernel.Gates.RunLast.lean ====
/-
  The gate kernel's body at the LAST block of the contracted axis (the block's four products are added to the accumulators, then the biases are added, the gates applied and the new hidden state written to the output): the body's triple on whole memrefs, with the pieces its stores leave in the output's buffer and in each accumulator.
-/
import proofs.«176059_j79517024518378_2_alg».proof.Proof.Kernel.Gates.Base

set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- At the last block: the inputs' buffers at their blocks, the output's buffer at anything, the accumulators at what the
    block before left (`xs·`); the body runs, leaving the inputs as they were, the output's buffer with the pieces
    `L10` written and each accumulator with its pieces written. -/
noncomputable def runLast (c : Dev nD) (i : grid0.Coords) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (hc0 : ¬isFirst i) (hc1 : isLast i)
    (x0 : Vec F S1024x1024 .bf16) (x1 : Vec F S512x1024 .bf16) (x2 : Vec F S512x1024 .bf16) (x3 : Vec F S512x1024 .bf16) (x4 : Vec F S512x1024 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    Σ' (L10 : List (View.Piece (Elt F) S1024x512 .bf16)) (LS0 : List (View.Piece (Elt F) S1024x512 .f32)) (LS1 : List (View.Piece (Elt F) S1024x512 .f32)) (LS2 : List (View.Piece (Elt F) S1024x512 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.Kernel.Gates

end
-- ==== Proof.Kernel.Gates.Data.lean ====
/-
  The gate kernel's proof data over any contents `V` of the buffers at the region's entry: what the four accumulators
  and the output's staging buffer hold after the body at each grid point — by recursion on the point, each accumulator
  after a block being the body's result on what the block before left —, the region invariant that carries the
  accumulators' contents from point to point, and the body obligation at every point.
-/
import proofs.«176059_j79517024518378_2_alg».proof.Proof.Kernel.Gates.RunFirst
import proofs.«176059_j79517024518378_2_alg».proof.Proof.Kernel.Gates.RunMid
import proofs.«176059_j79517024518378_2_alg».proof.Proof.Kernel.Gates.RunLast

set_option maxRecDepth 16384

noncomputable section

namespace Cert.Kernel.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the program other than this call's staging buffers and its four accumulators. -/
abbrev others (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The class invariant with the accumulators opened: each at some contents, the other scoped buffers, the generator
    register at some state. -/
theorem classInv_eq (c : Dev nD) :
    (Pipeline.ΦA spec0 c : sProp 𝕄)
      = iprop(iprop(iprop((∃ d, owns (c : Thread nD τ) accF fullShare d) ∗ (∃ d, owns (c : Thread nD τ) accI fullShare d) ∗ (∃ d, owns (c : Thread nD τ) accC fullShare d) ∗ (∃ d, owns (c : Thread nD τ) accO fullShare d)) ∗ others c) ∗ (∃ r, prngReg c r)) := by
  unfold Pipeline.ΦA
  rw [Pipeline.scopedRest_split_of_list spec0 c [cc0_scratch0, cc0_scratch1, cc0_scratch2, cc0_scratch3] (by decide) (by decide)]
  simp only [accF, accI, accC, accO, owns_whole]; try rfl

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved since the fetch. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, at a point -/

def accFFirst (c : Dev nD) (t : Fin cfg0.N) (hc0 : isFirst (grid0.coords t)) (hc1 : ¬isLast (grid0.coords t)) : Vec F S1024x512 .f32 :=
  accF.view.read (Elt F) (accF.view.writes (Elt F) accF.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.1)
theorem cover_accFFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.1 S1024x512.size (by sl_kernel_rfl) y
def accFMid (c : Dev nD) (t : Fin cfg0.N) (hc0 : ¬isFirst (grid0.coords t)) (hc1 : ¬isLast (grid0.coords t)) (xs0 xs1 xs2 xs3 : Vec F S1024x512 .f32) : Vec F S1024x512 .f32 :=
  accF.view.read (Elt F) (accF.view.writes (Elt F) accF.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1)
theorem cover_accFMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1 S1024x512.size (by sl_kernel_rfl) y
def accFLast (c : Dev nD) (t : Fin cfg0.N) (hc0 : ¬isFirst (grid0.coords t)) (hc1 : isLast (grid0.coords t)) (xs0 xs1 xs2 xs3 : Vec F S1024x512 .f32) : Vec F S1024x512 .f32 :=
  accF.view.read (Elt F) (accF.view.writes (Elt F) accF.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1)
theorem cover_accFLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1 S1024x512.size (by sl_kernel_rfl) y
def accIFirst (c : Dev nD) (t : Fin cfg0.N) (hc0 : isFirst (grid0.coords t)) (hc1 : ¬isLast (grid0.coords t)) : Vec F S1024x512 .f32 :=
  accI.view.read (Elt F) (accI.view.writes (Elt F) accI.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.1)
theorem cover_accIFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.1 S1024x512.size (by sl_kernel_rfl) y
def accIMid (c : Dev nD) (t : Fin cfg0.N) (hc0 : ¬isFirst (grid0.coords t)) (hc1 : ¬isLast (grid0.coords t)) (xs0 xs1 xs2 xs3 : Vec F S1024x512 .f32) : Vec F S1024x512 .f32 :=
  accI.view.read (Elt F) (accI.view.writes (Elt F) accI.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1)
theorem cover_accIMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1 S1024x512.size (by sl_kernel_rfl) y
def accILast (c : Dev nD) (t : Fin cfg0.N) (hc0 : ¬isFirst (grid0.coords t)) (hc1 : isLast (grid0.coords t)) (xs0 xs1 xs2 xs3 : Vec F S1024x512 .f32) : Vec F S1024x512 .f32 :=
  accI.view.read (Elt F) (accI.view.writes (Elt F) accI.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1)
theorem cover_accILast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1 S1024x512.size (by sl_kernel_rfl) y
def accCFirst (c : Dev nD) (t : Fin cfg0.N) (hc0 : isFirst (grid0.coords t)) (hc1 : ¬isLast (grid0.coords t)) : Vec F S1024x512 .f32 :=
  accC.view.read (Elt F) (accC.view.writes (Elt F) accC.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.1)
theorem cover_accCFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.1 S1024x512.size (by sl_kernel_rfl) y
def accCMid (c : Dev nD) (t : Fin cfg0.N) (hc0 : ¬isFirst (grid0.coords t)) (hc1 : ¬isLast (grid0.coords t)) (xs0 xs1 xs2 xs3 : Vec F S1024x512 .f32) : Vec F S1024x512 .f32 :=
  accC.view.read (Elt F) (accC.view.writes (Elt F) accC.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1)
theorem cover_accCMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1 S1024x512.size (by sl_kernel_rfl) y
def accCLast (c : Dev nD) (t : Fin cfg0.N) (hc0 : ¬isFirst (grid0.coords t)) (hc1 : isLast (grid0.coords t)) (xs0 xs1 xs2 xs3 : Vec F S1024x512 .f32) : Vec F S1024x512 .f32 :=
  accC.view.read (Elt F) (accC.view.writes (Elt F) accC.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1)
theorem cover_accCLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1 S1024x512.size (by sl_kernel_rfl) y
def accOFirst (c : Dev nD) (t : Fin cfg0.N) (hc0 : isFirst (grid0.coords t)) (hc1 : ¬isLast (grid0.coords t)) : Vec F S1024x512 .f32 :=
  accO.view.read (Elt F) (accO.view.writes (Elt F) accO.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.2.1)
theorem cover_accOFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.2.1 S1024x512.size (by sl_kernel_rfl) y
def accOMid (c : Dev nD) (t : Fin cfg0.N) (hc0 : ¬isFirst (grid0.coords t)) (hc1 : ¬isLast (grid0.coords t)) (xs0 xs1 xs2 xs3 : Vec F S1024x512 .f32) : Vec F S1024x512 .f32 :=
  accO.view.read (Elt F) (accO.view.writes (Elt F) accO.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1)
theorem cover_accOMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1 S1024x512.size (by sl_kernel_rfl) y
def accOLast (c : Dev nD) (t : Fin cfg0.N) (hc0 : ¬isFirst (grid0.coords t)) (hc1 : isLast (grid0.coords t)) (xs0 xs1 xs2 xs3 : Vec F S1024x512 .f32) : Vec F S1024x512 .f32 :=
  accO.view.read (Elt F) (accO.view.writes (Elt F) accO.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1)
theorem cover_accOLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1 S1024x512.size (by sl_kernel_rfl) y
def outLast (c : Dev nD) (t : Fin cfg0.N) (hc0 : ¬isFirst (grid0.coords t)) (hc1 : isLast (grid0.coords t)) (xs0 xs1 xs2 xs3 : Vec F S1024x512 .f32) : Vec F S1024x512 .bf16 :=
  outV.read (Elt F) (outV.writes (Elt F) outV.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).1)
theorem cover_outLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).1 S1024x512.size (by sl_kernel_rfl) y

/-- Where the body stores nothing into the output its buffer's contents are never consulted: a placeholder. -/
def outIdle : Vec F S1024x512 .bf16 := outV.read (Elt F) outV.junk

/-! ## The accumulation -/

/-- What the output's staging buffer and the four accumulators hold after the body at position `n`: the first block
    starts the accumulators afresh, every later block continues from what the block before left. -/
def outsAt (c : Dev nD) : (n : ℕ) → n < cfg0.N → Vec F S1024x512 .bf16 × (Vec F S1024x512 .f32 × Vec F S1024x512 .f32 × Vec F S1024x512 .f32 × Vec F S1024x512 .f32)
  | 0, hn => (outIdle, (accFFirst V c ⟨0, hn⟩ ((isFirst_iff ⟨0, hn⟩).mpr (Nat.zero_mod _)) (fun h => (fun h => by (try dsimp only at h); omega) ((isLast_iff ⟨0, hn⟩).mp h)), accIFirst V c ⟨0, hn⟩ ((isFirst_iff ⟨0, hn⟩).mpr (Nat.zero_mod _)) (fun h => (fun h => by (try dsimp only at h); omega) ((isLast_iff ⟨0, hn⟩).mp h)), accCFirst V c ⟨0, hn⟩ ((isFirst_iff ⟨0, hn⟩).mpr (Nat.zero_mod _)) (fun h => (fun h => by (try dsimp only at h); omega) ((isLast_iff ⟨0, hn⟩).mp h)), accOFirst V c ⟨0, hn⟩ ((isFirst_iff ⟨0, hn⟩).mpr (Nat.zero_mod _)) (fun h => (fun h => by (try dsimp only at h); omega) ((isLast_iff ⟨0, hn⟩).mp h))))
  | n + 1, hn =>
    if h0 : (n + 1) % 8 = 0 then
      (outIdle, (accFFirst V c ⟨n + 1, hn⟩ ((isFirst_iff ⟨n + 1, hn⟩).mpr h0) (fun h => (fun h => by (try dsimp only at h); omega) ((isLast_iff ⟨n + 1, hn⟩).mp h)), accIFirst V c ⟨n + 1, hn⟩ ((isFirst_iff ⟨n + 1, hn⟩).mpr h0) (fun h => (fun h => by (try dsimp only at h); omega) ((isLast_iff ⟨n + 1, hn⟩).mp h)), accCFirst V c ⟨n + 1, hn⟩ ((isFirst_iff ⟨n + 1, hn⟩).mpr h0) (fun h => (fun h => by (try dsimp only at h); omega) ((isLast_iff ⟨n + 1, hn⟩).mp h)), accOFirst V c ⟨n + 1, hn⟩ ((isFirst_iff ⟨n + 1, hn⟩).mpr h0) (fun h => (fun h => by (try dsimp only at h); omega) ((isLast_iff ⟨n + 1, hn⟩).mp h))))
    else
      if h1 : (n + 1) % 8 = 7 then
        (outLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, (accFLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accILast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accCLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accOLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2))
      else
        (outIdle, (accFMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accIMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accCMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accOMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2))

theorem outsAt_first (c : Dev nD) (t : Fin cfg0.N) (h0 : t.val % 8 = 0) :
    outsAt V c t.val t.isLt = (outIdle, (accFFirst V c t ((isFirst_iff t).mpr h0) (fun h => (fun h => by omega) ((isLast_iff t).mp h)), accIFirst V c t ((isFirst_iff t).mpr h0) (fun h => (fun h => by omega) ((isLast_iff t).mp h)), accCFirst V c t ((isFirst_iff t).mpr h0) (fun h => (fun h => by omega) ((isLast_iff t).mp h)), accOFirst V c t ((isFirst_iff t).mpr h0) (fun h => (fun h => by omega) ((isLast_iff t).mp h)))) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt V c t.val t.isLt = (outIdle, (accFMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accIMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accCMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accOMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = (outLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, (accFLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accILast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accCLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accOLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulators carried from point to point -/

/-- Before the first point the class invariant (the accumulators at anything); before any later point each accumulator at
    what the point before left, the other scoped buffers, the generator register at some state. -/
def inv (c : Dev nD) : (n : ℕ) → n ≤ cfg0.N → sProp 𝕄
  | 0, _ => Pipeline.ΦA spec0 c
  | n + 1, hn => iprop(iprop(iprop(owns (c : Thread nD τ) accF fullShare ((outsAt V c n hn).2.1) ∗ owns (c : Thread nD τ) accI fullShare ((outsAt V c n hn).2.2.1) ∗ owns (c : Thread nD τ) accC fullShare ((outsAt V c n hn).2.2.2.1) ∗ owns (c : Thread nD τ) accO fullShare ((outsAt V c n hn).2.2.2.2)) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(iprop(owns (c : Thread nD τ) accF fullShare ((outsAt V c n hn).2.1) ∗ owns (c : Thread nD τ) accI fullShare ((outsAt V c n hn).2.2.1) ∗ owns (c : Thread nD τ) accC fullShare ((outsAt V c n hn).2.2.2.1) ∗ owns (c : Thread nD τ) accO fullShare ((outsAt V c n hn).2.2.2.2)) ∗ others c) ∗ (∃ r, prngReg c r)) := rfl
theorem inv_pos (c : Dev nD) (n : ℕ) (h : n ≤ cfg0.N) (hz : n ≠ 0) :
    inv V c n h = iprop(iprop(iprop(owns (c : Thread nD τ) accF fullShare ((outsAt V c (n - 1) (by omega)).2.1) ∗ owns (c : Thread nD τ) accI fullShare ((outsAt V c (n - 1) (by omega)).2.2.1) ∗ owns (c : Thread nD τ) accC fullShare ((outsAt V c (n - 1) (by omega)).2.2.2.1) ∗ owns (c : Thread nD τ) accO fullShare ((outsAt V c (n - 1) (by omega)).2.2.2.2)) ∗ others c) ∗ (∃ r, prngReg c r)) := by
  cases n with
  | zero => exact absurd rfl hz
  | succ n => rfl

/-! ## The proof data -/

/-- The arrays as the region finds them; after the body each input's buffer at its block, the output's at `outsAt`;
    the invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

theorem leaves_0 (c : Dev nD) (t : Fin cfg0.N) : (dat V c).leavesExact 0 t = owns (c : Thread nD τ) (ms0 t) fullShare (iblk V c 0 t) := by
  unfold Dat.leavesExact; rw [live_0 t, after_0]
theorem leaves_1 (c : Dev nD) (t : Fin cfg0.N) : (dat V c).leavesExact 1 t = owns (c : Thread nD τ) (ms1 t) fullShare (iblk V c 1 t) := by
  unfold Dat.leavesExact; rw [live_1 t, after_1]
theorem leaves_2 (c : Dev nD) (t : Fin cfg0.N) : (dat V c).leavesExact 2 t = owns (c : Thread nD τ) (ms2 t) fullShare (iblk V c 2 t) := by
  unfold Dat.leavesExact; rw [live_2 t, after_2]
theorem leaves_3 (c : Dev nD) (t : Fin cfg0.N) : (dat V c).leavesExact 3 t = owns (c : Thread nD τ) (ms3 t) fullShare (iblk V c 3 t) := by
  unfold Dat.leavesExact; rw [live_3 t, after_3]
theorem leaves_4 (c : Dev nD) (t : Fin cfg0.N) : (dat V c).leavesExact 4 t = owns (c : Thread nD τ) (ms4 t) fullShare (iblk V c 4 t) := by
  unfold Dat.leavesExact; rw [live_4 t, after_4]
theorem leaves_5 (c : Dev nD) (t : Fin cfg0.N) : (dat V c).leavesExact 5 t = owns (c : Thread nD τ) (ms5 t) fullShare (iblk V c 5 t) := by
  unfold Dat.leavesExact; rw [live_5 t, after_5]
theorem leaves_6 (c : Dev nD) (t : Fin cfg0.N) : (dat V c).leavesExact 6 t = owns (c : Thread nD τ) (ms6 t) fullShare (iblk V c 6 t) := by
  unfold Dat.leavesExact; rw [live_6 t, after_6]
theorem leaves_7 (c : Dev nD) (t : Fin cfg0.N) : (dat V c).leavesExact 7 t = owns (c : Thread nD τ) (ms7 t) fullShare (iblk V c 7 t) := by
  unfold Dat.leavesExact; rw [live_7 t, after_7]
theorem leaves_8 (c : Dev nD) (t : Fin cfg0.N) : (dat V c).leavesExact 8 t = owns (c : Thread nD τ) (ms8 t) fullShare (iblk V c 8 t) := by
  unfold Dat.leavesExact; rw [live_8 t, after_8]
theorem leaves_9 (c : Dev nD) (t : Fin cfg0.N) : (dat V c).leavesExact 9 t = owns (c : Thread nD τ) (ms9 t) fullShare (iblk V c 9 t) := by
  unfold Dat.leavesExact; rw [live_9 t, after_9]

set_option maxHeartbeats 16000000 in
/-- The body at any point: the closed forms say which case the point is in; the invariant hands the body each accumulator
    at what the point before left (at anything before the first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).owesAt () t.succ = (dat V c).owesAt () t.castSucc from rfl]
  rw [show (dat V c).Φ t.succ = inv V c (t.val + 1) t.isLt from rfl, inv_succ]
  rw [leaves_0, leaves_1, leaves_2, leaves_3, leaves_4, leaves_5, leaves_6, leaves_7, leaves_8, leaves_9]
  have hN : t.val < 256 := lt_of_lt_of_eq t.isLt (show cfg0.N = 256 from N_0)
  by_cases h0 : t.val % 8 = 0
  · have h1 : ¬t.val % 8 = 7 := by omega
    rw [Dat.leavesExact_idle (dat V c) 10 t (idle_10 t (fun h => h1 ((isLast_iff t).mp h))) (noFlush_10 t (fun h => h1 ((isLast_iff t).mp h)))]
    rw [outsAt_first V c t h0]
    unfold accFFirst accIFirst accCFirst accOFirst; (try dsimp only)
    by_cases hz : t.val = 0
    · rw [inv_castSucc V c t, inv_zero V c _ _ hz, classInv_eq]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFFirst V c t _ _)
            isplitl [HS1]
            · unfold owns; iexists _; isplitr
              swap; · iexact HS1
              ipureintro; exact View.read_writes_of_cover _ _ _ _ _ (cover_accIFirst V c t _ _)
            isplitl [HS2]
            · unfold owns; iexists _; isplitr
              swap; · iexact HS2
              ipureintro; exact View.read_writes_of_cover _ _ _ _ _ (cover_accCFirst V c t _ _)
            unfold owns; iexists _; isplitr
            swap; · iexact HS3
            ipureintro; exact View.read_writes_of_cover _ _ _ _ _ (cover_accOFirst V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · rw [inv_castSucc V c t, inv_pos V c _ _ hz]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFFirst V c t _ _)
            isplitl [HS1]
            · unfold owns; iexists _; isplitr
              swap; · iexact HS1
              ipureintro; exact View.read_writes_of_cover _ _ _ _ _ (cover_accIFirst V c t _ _)
            isplitl [HS2]
            · unfold owns; iexists _; isplitr
              swap; · iexact HS2
              ipureintro; exact View.read_writes_of_cover _ _ _ _ _ (cover_accCFirst V c t _ _)
            unfold owns; iexists _; isplitr
            swap; · iexact HS3
            ipureintro; exact View.read_writes_of_cover _ _ _ _ _ (cover_accOFirst V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
  · have hz : t.val ≠ 0 := fun e => h0 (by rw [e])
    by_cases h1 : t.val % 8 = 7
    · rw [show (dat V c).leavesExact 10 t = owns (c : Thread nD τ) (ms10 t) fullShare ((dat V c).after 10 t) from by
        unfold Dat.leavesExact; rw [live_10 t ((isLast_iff t).mpr h1)], after_10]
      rw [outsAt_last V c t h0 h1]
      unfold outLast accFLast accILast accCLast accOLast; (try dsimp only)
      rw [inv_castSucc V c t, inv_pos V c _ _ hz]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFLast V c t _ _ _ _ _ _)
            isplitl [HS1]
            · unfold owns; iexists _; isplitr
              swap; · iexact HS1
              ipureintro; exact View.read_writes_of_cover _ _ _ _ _ (cover_accILast V c t _ _ _ _ _ _)
            isplitl [HS2]
            · unfold owns; iexists _; isplitr
              swap; · iexact HS2
              ipureintro; exact View.read_writes_of_cover _ _ _ _ _ (cover_accCLast V c t _ _ _ _ _ _)
            unfold owns; iexists _; isplitr
            swap; · iexact HS3
            ipureintro; exact View.read_writes_of_cover _ _ _ _ _ (cover_accOLast V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover_outLast V c t _ _ _ _ _ _)
    · rw [Dat.leavesExact_idle (dat V c) 10 t (idle_10 t (fun h => h1 ((isLast_iff t).mp h))) (noFlush_10 t (fun h => h1 ((isLast_iff t).mp h)))]
      rw [outsAt_mid V c t h0 h1]
      unfold accFMid accIMid accCMid accOMid; (try dsimp only)
      rw [inv_castSucc V c t, inv_pos V c _ _ hz]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFMid V c t _ _ _ _ _ _)
            isplitl [HS1]
            · unfold owns; iexists _; isplitr
              swap; · iexact HS1
              ipureintro; exact View.read_writes_of_cover _ _ _ _ _ (cover_accIMid V c t _ _ _ _ _ _)
            isplitl [HS2]
            · unfold owns; iexists _; isplitr
              swap; · iexact HS2
              ipureintro; exact View.read_writes_of_cover _ _ _ _ _ (cover_accCMid V c t _ _ _ _ _ _)
            unfold owns; iexists _; isplitr
            swap; · iexact HS3
            ipureintro; exact View.read_writes_of_cover _ _ _ _ _ (cover_accOMid V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulators' contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega), classInv_eq]
  iintro ⟨⟨⟨HS0, HS1, HS2, HS3⟩, Hoth⟩, Hg⟩
  isplitl [HS0 HS1 HS2 HS3 Hoth]
  · isplitl [HS0 HS1 HS2 HS3]
    · isplitl [HS0]; · iexists _; iexact HS0
      isplitl [HS1]; · iexists _; iexact HS1
      isplitl [HS2]; · iexists _; iexact HS2
      iexists _; iexact HS3
    iexact Hoth
  iexact Hg

end Cert.Kernel.Gates

end
-- ==== Proof.Kernel.Softmax.Base.lean ====
/-
  The softmax kernel (the second pallas_call): logits accumulated over four blocks of the hidden axis in a scratch
  buffer carried from one grid point to the next, and at the last block of a row-tile the bias added and the row
  softmax written out. Shared by the three control cases of its body: the two branch conditions in closed form
  over the grid (the first block of a row-tile resets the accumulator, the last one writes the output), where the
  output window is idle, the staging and scratch memrefs the body is called with, and the pipeline's class
  invariant with the scratch buffer opened.
-/
import proofs.«176059_j79517024518378_2_alg».proof.Proof.Gen.Kernel.Launch
import proofs.«176059_j79517024518378_2_alg».proof.Proof.Gen.Kernel.Skeleton
import proofs.«176059_j79517024518378_2_alg».proof.Proof.Gen.Kernel.Points
import Idealize.ShloMosaic.Lib.Pipeline.FrameBody
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator is reset exactly when the coordinate along the hidden axis is 0. -/
abbrev isFirst (i : grid1.Coords) : Prop :=
  (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The softmax is written exactly when the coordinate along the hidden axis is 3, the last block. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The three input windows are live at every point. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- The output window is idle, and not written back, wherever the block is not the last of its row-tile. -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
theorem live_3 : ∀ t : Fin cfg1.N, isLast (grid1.coords t) → cfg1.idle 3 (grid1.coords t) = false := by decide +kernel

/-- The staging memref each window is on at point `t`, as the pipeline passes it, and its wholeness. -/
abbrev ms0 (t : Fin cfg1.N) : Memref sig .tc .vmem S256x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x4096 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x4096 .f32 := win1_3.stage (cfg1.slots t 3)
abbrev hs3 (t : Fin cfg1.N) : (ms3 t).IsWhole := hstage1_3 ((cfg1.slots t 3).cast nbuf1_3)
/-- The accumulator: the kernel's own scratch buffer, whole. -/
abbrev acc : Memref sig .tc .vmem S256x4096 .f32 := Memref.whole cc1_scratch0
/-- The views through which the accumulator's and the output block's contents are stated. -/
abbrev accV : View sig .tc .vmem S256x4096 .f32 := acc.view
abbrev outV : View sig .tc .vmem S256x4096 .f32 := (Memref.whole cc1_stg3_0 : Memref sig .tc .vmem S256x4096 .f32).view

/-- The scoped buffers of the program other than this call's staging buffers and its accumulator. -/
abbrev others (c : Dev nD) : sProp 𝕄 :=
  Pipeline.scopedRestBut (Ix := Unit) (Name := ℕ) (U := UR sig nD τ) (Lvl := ℕ) (Val := Elt F) spec1 c [cc1_scratch0]

/-- The class invariant with the accumulator opened: the accumulator at some contents, the other scoped buffers,
    the generator register at some state. -/
theorem classInv_eq (c : Dev nD) :
    (Pipeline.ΦA spec1 c : sProp 𝕄)
      = iprop(iprop((∃ d, owns (c : Thread nD τ) acc fullShare d) ∗ others c) ∗ (∃ r, prngReg c r)) := by
  unfold Pipeline.ΦA; rw [scopedRest1_split]; simp only [acc, owns_whole]; try rfl

end Cert.Kernel.Softmax

end
-- ==== Proof.Kernel.Softmax.RunFirst.lean ====
/-
  The softmax kernel's body at the FIRST block of a row-tile (the accumulator is reset, then the block's product added; nothing is written to the output): the body's triple on whole memrefs, with the pieces its stores leave in the accumulator.
-/
import proofs.«176059_j79517024518378_2_alg».proof.Proof.Kernel.Softmax.Base

set_option maxRecDepth 16384

noncomputable section

namespace Cert.Kernel.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the first block of a row-tile: the inputs' buffers at their blocks, the output's buffer at contents handed back
    untouched, the accumulator at anything; the body runs, leaving the inputs as they were and the accumulator with the
    pieces `LS` written. -/
noncomputable def runFirst (c : Dev nD) (i : grid1.Coords) (arg2 : Memref sig .tc .vmem S256x1024 .bf16) (harg2 : arg2.IsWhole) (arg3 : Memref sig .tc .vmem S4096x1024 .bf16) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : isFirst i) (hc1 : ¬isLast i)
    (x0 : Vec F S256x1024 .bf16) (x1 : Vec F S4096x1024 .bf16) (x2 : Vec F S1x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Softmax

end
-- ==== Proof.Kernel.Softmax.RunMid.lean ====
/-
  The softmax kernel's body at a MIDDLE block of a row-tile (the block's product is added to the accumulator; nothing is written to the output): the body's triple on whole memrefs, with the pieces its store leaves in the accumulator.
-/
import proofs.«176059_j79517024518378_2_alg».proof.Proof.Kernel.Softmax.Base

set_option maxRecDepth 16384

noncomputable section

namespace Cert.Kernel.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle block: the inputs' buffers at their blocks, the output's buffer at contents handed back untouched, the
    accumulator at what the block before left (`xs`); the body runs, leaving the inputs as they were and the accumulator
    with the pieces `LS` written. -/
noncomputable def runMid (c : Dev nD) (i : grid1.Coords) (arg2 : Memref sig .tc .vmem S256x1024 .bf16) (harg2 : arg2.IsWhole) (arg3 : Memref sig .tc .vmem S4096x1024 .bf16) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬isFirst i) (hc1 : ¬isLast i)
    (x0 : Vec F S256x1024 .bf16) (x1 : Vec F S4096x1024 .bf16) (x2 : Vec F S1x4096 .f32) (xs : Vec F S256x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Softmax

end
-- ==== Proof.Kernel.Softmax.RunLast.lean ====
/-
  The softmax kernel's body at the LAST block of a row-tile (the block's product is added to the accumulator, then the bias is added and the row softmax written to the output): the body's triple on whole memrefs, with the pieces its stores leave in the output's buffer and in the accumulator.
-/
import proofs.«176059_j79517024518378_2_alg».proof.Proof.Kernel.Softmax.Base

set_option maxRecDepth 16384

noncomputable section

namespace Cert.Kernel.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the last block: the inputs' buffers at their blocks, the output's buffer at anything, the accumulator at what the
    block before left (`xs`); the body runs, leaving the inputs as they were, the output's buffer with the pieces `L3`
    written and the accumulator with the pieces `LS` written. -/
noncomputable def runLast (c : Dev nD) (i : grid1.Coords) (arg2 : Memref sig .tc .vmem S256x1024 .bf16) (harg2 : arg2.IsWhole) (arg3 : Memref sig .tc .vmem S4096x1024 .bf16) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬isFirst i) (hc1 : isLast i)
    (x0 : Vec F S256x1024 .bf16) (x1 : Vec F S4096x1024 .bf16) (x2 : Vec F S1x4096 .f32) (xs : Vec F S256x4096 .f32) :
    Σ' (L3 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__output_kernel i arg2 harg2 arg3 harg3 arg4 harg4 arg5 harg5 arg6 harg6) K } := by
  refine ⟨?_, ?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Softmax

end
-- ==== Proof.Kernel.Softmax.Data.lean ====
/-
  The softmax kernel's proof data over any contents `V` of the buffers at the region's entry: what the accumulator
  and the output's staging buffer hold after the body at each grid point — by recursion on the point, the
  accumulator after a block being the body's result on what the block before left —, the region invariant that
  carries the accumulator's contents from point to point, and the body obligation at every point.
-/
import proofs.«176059_j79517024518378_2_alg».proof.Proof.Kernel.Softmax.RunFirst
import proofs.«176059_j79517024518378_2_alg».proof.Proof.Kernel.Softmax.RunMid
import proofs.«176059_j79517024518378_2_alg».proof.Proof.Kernel.Softmax.RunLast

set_option maxRecDepth 16384

noncomputable section

namespace Cert.Kernel.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved since the fetch. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, at a point -/

/-- The accumulator after the first block of a row-tile: the body's pieces read back. -/
def accFirst (c : Dev nD) (t : Fin cfg1.N) (hc0 : isFirst (grid1.coords t)) (hc1 : ¬isLast (grid1.coords t)) : Vec F S256x4096 .f32 :=
  accV.read (Elt F) (accV.writes (Elt F) accV.junk (runFirst c (grid1.coords t) (ms0 t) (hs0 t) (ms1 t) (hs1 t) (ms2 t) (hs2 t) (ms3 t) (hs3 t) acc (Memref.isWhole_whole _) hc0 hc1 (iblk V c 0 t) (iblk V c 1 t) (iblk V c 2 t)).2.1)
theorem cover_accFirst (c : Dev nD) (t : Fin cfg1.N) (hc0 : isFirst (grid1.coords t)) (hc1 : ¬isLast (grid1.coords t)) (y : S256x4096.Idx) :
    ∃ pc ∈ (runFirst c (grid1.coords t) (ms0 t) (hs0 t) (ms1 t) (hs1 t) (ms2 t) (hs2 t) (ms3 t) (hs3 t) acc (Memref.isWhole_whole _) hc0 hc1 (iblk V c 0 t) (iblk V c 1 t) (iblk V c 2 t)).2.1, y ∈ pc.1.set :=
  View.cover_of_tiledL (runFirst c (grid1.coords t) (ms0 t) (hs0 t) (ms1 t) (hs1 t) (ms2 t) (hs2 t) (ms3 t) (hs3 t) acc (Memref.isWhole_whole _) hc0 hc1 (iblk V c 0 t) (iblk V c 1 t) (iblk V c 2 t)).2.1 S256x4096.size (by sl_kernel_rfl) y

/-- The accumulator after a middle block, from what the block before left (`xs`). -/
def accMid (c : Dev nD) (t : Fin cfg1.N) (hc0 : ¬isFirst (grid1.coords t)) (hc1 : ¬isLast (grid1.coords t)) (xs : Vec F S256x4096 .f32) : Vec F S256x4096 .f32 :=
  accV.read (Elt F) (accV.writes (Elt F) accV.junk (runMid c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1)
theorem cover_accMid (c : Dev nD) (t : Fin cfg1.N) (hc0 : ¬isFirst (grid1.coords t)) (hc1 : ¬isLast (grid1.coords t)) (xs : Vec F S256x4096 .f32) (y : S256x4096.Idx) :
    ∃ pc ∈ (runMid c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1, y ∈ pc.1.set :=
  View.cover_of_tiledL (runMid c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1 S256x4096.size (by sl_kernel_rfl) y

/-- The accumulator and the output's buffer after the last block, from what the block before left (`xs`). -/
def accLast (c : Dev nD) (t : Fin cfg1.N) (hc0 : ¬isFirst (grid1.coords t)) (hc1 : isLast (grid1.coords t)) (xs : Vec F S256x4096 .f32) : Vec F S256x4096 .f32 :=
  accV.read (Elt F) (accV.writes (Elt F) accV.junk (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1)
theorem cover_accLast (c : Dev nD) (t : Fin cfg1.N) (hc0 : ¬isFirst (grid1.coords t)) (hc1 : isLast (grid1.coords t)) (xs : Vec F S256x4096 .f32) (y : S256x4096.Idx) :
    ∃ pc ∈ (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1, y ∈ pc.1.set :=
  View.cover_of_tiledL (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1 S256x4096.size (by sl_kernel_rfl) y
def outLast (c : Dev nD) (t : Fin cfg1.N) (hc0 : ¬isFirst (grid1.coords t)) (hc1 : isLast (grid1.coords t)) (xs : Vec F S256x4096 .f32) : Vec F S256x4096 .f32 :=
  outV.read (Elt F) (outV.writes (Elt F) outV.junk (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).1)
theorem cover_outLast (c : Dev nD) (t : Fin cfg1.N) (hc0 : ¬isFirst (grid1.coords t)) (hc1 : isLast (grid1.coords t)) (xs : Vec F S256x4096 .f32) (y : S256x4096.Idx) :
    ∃ pc ∈ (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).1, y ∈ pc.1.set :=
  View.cover_of_tiledL (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).1 S256x4096.size (by sl_kernel_rfl) y

/-- Where the body stores nothing into the output its buffer's contents are never consulted: a placeholder. -/
def outIdle : Vec F S256x4096 .f32 := outV.read (Elt F) outV.junk

/-! ## The accumulation -/

/-- What the output's staging buffer and the accumulator hold after the body at position `n`: the first block of a
    row-tile starts the accumulator afresh, every later block continues from what the block before left. -/
def outsAt (c : Dev nD) : (n : ℕ) → n < cfg1.N → Vec F S256x4096 .f32 × Vec F S256x4096 .f32
  | 0, hn => (outIdle, accFirst V c ⟨0, hn⟩ ((isFirst_iff ⟨0, hn⟩).mpr (Nat.zero_mod _)) (fun h => (fun h => by (try dsimp only at h); omega) ((isLast_iff ⟨0, hn⟩).mp h)))
  | n + 1, hn =>
    if h0 : (n + 1) % 4 = 0 then
      (outIdle, accFirst V c ⟨n + 1, hn⟩ ((isFirst_iff ⟨n + 1, hn⟩).mpr h0) (fun h => (fun h => by (try dsimp only at h); omega) ((isLast_iff ⟨n + 1, hn⟩).mp h)))
    else
      if h1 : (n + 1) % 4 = 3 then
        (outLast V c ⟨n + 1, hn⟩ (fun h => h0 ((isFirst_iff ⟨n + 1, hn⟩).mp h)) ((isLast_iff ⟨n + 1, hn⟩).mpr h1) (outsAt c n (Nat.lt_of_succ_lt hn)).2,
         accLast V c ⟨n + 1, hn⟩ (fun h => h0 ((isFirst_iff ⟨n + 1, hn⟩).mp h)) ((isLast_iff ⟨n + 1, hn⟩).mpr h1) (outsAt c n (Nat.lt_of_succ_lt hn)).2)
      else
        (outIdle, accMid V c ⟨n + 1, hn⟩ (fun h => h0 ((isFirst_iff ⟨n + 1, hn⟩).mp h)) (fun h => h1 ((isLast_iff ⟨n + 1, hn⟩).mp h)) (outsAt c n (Nat.lt_of_succ_lt hn)).2)

theorem outsAt_first (c : Dev nD) (t : Fin cfg1.N) (h0 : t.val % 4 = 0) :
    outsAt V c t.val t.isLt = (outIdle, accFirst V c t ((isFirst_iff t).mpr h0) (fun h => (fun h => by omega) ((isLast_iff t).mp h))) := by
  obtain ⟨n, hn⟩ := t
  cases n with
  | zero => exact rfl
  | succ n => exact (dif_pos h0).trans rfl

theorem outsAt_mid (c : Dev nD) (t : Fin cfg1.N) (h0 : ¬t.val % 4 = 0) (h1 : ¬t.val % 4 = 3) :
    outsAt V c t.val t.isLt = (outIdle, accMid V c t (fun h => h0 ((isFirst_iff t).mp h)) (fun h => h1 ((isLast_iff t).mp h)) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 4 = 0) (h1 : t.val % 4 = 3) :
    outsAt V c t.val t.isLt = (outLast V c t (fun h => h0 ((isFirst_iff t).mp h)) ((isLast_iff t).mpr h1) (outsAt V c (t.val - 1) (Nat.lt_of_le_of_lt (Nat.sub_le _ _) t.isLt)).2,
      accLast V c t (fun h => h0 ((isFirst_iff t).mp h)) ((isLast_iff t).mpr h1) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before the first point the class invariant (the accumulator at anything); before any later point the accumulator at
    what the point before left, the other scoped buffers, the generator register at some state. -/
def inv (c : Dev nD) : (n : ℕ) → n ≤ cfg1.N → sProp 𝕄
  | 0, _ => Pipeline.ΦA spec1 c
  | n + 1, hn => iprop(iprop(owns (c : Thread nD τ) acc fullShare ((outsAt V c n hn).2) ∗ others c) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(iprop(owns (c : Thread nD τ) acc fullShare ((outsAt V c n hn).2) ∗ others c) ∗ (∃ r, prngReg c r)) := rfl
theorem inv_pos (c : Dev nD) (n : ℕ) (h : n ≤ cfg1.N) (hz : n ≠ 0) :
    inv V c n h = iprop(iprop(owns (c : Thread nD τ) acc fullShare ((outsAt V c (n - 1) (by omega)).2) ∗ others c) ∗ (∃ r, prngReg c r)) := by
  cases n with
  | zero => exact absurd rfl hz
  | succ n => rfl

/-! ## The proof data -/

/-- The arrays as the region finds them; after the body each input's buffer at its block, the output's at `outsAt`;
    the invariant `inv`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg1.N) : (dat V c).leavesExact 0 t = owns (c : Thread nD τ) (ms0 t) fullShare (iblk V c 0 t) := by
  unfold Dat.leavesExact; rw [live_0 t, after_0]
theorem leaves_1 (c : Dev nD) (t : Fin cfg1.N) : (dat V c).leavesExact 1 t = owns (c : Thread nD τ) (ms1 t) fullShare (iblk V c 1 t) := by
  unfold Dat.leavesExact; rw [live_1 t, after_1]
theorem leaves_2 (c : Dev nD) (t : Fin cfg1.N) : (dat V c).leavesExact 2 t = owns (c : Thread nD τ) (ms2 t) fullShare (iblk V c 2 t) := by
  unfold Dat.leavesExact; rw [live_2 t, after_2]

set_option maxHeartbeats 4800000 in
/-- The body at any point: the closed forms say which case the point is in; the invariant hands the body the accumulator
    at what the point before left (at anything before the first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = inv V c (t.val + 1) t.isLt from rfl, inv_succ]
  rw [leaves_0, leaves_1, leaves_2]
  have hN : t.val < 64 := lt_of_lt_of_eq t.isLt (show cfg1.N = 64 from N_1)
  by_cases h0 : t.val % 4 = 0
  · have h1 : ¬t.val % 4 = 3 := by omega
    rw [Dat.leavesExact_idle (dat V c) 3 t (idle_3 t (fun h => h1 ((isLast_iff t).mp h))) (noFlush_3 t (fun h => h1 ((isLast_iff t).mp h)))]
    rw [outsAt_first V c t h0]
    unfold accFirst; (try dsimp only)
    by_cases hz : t.val = 0
    · rw [inv_castSucc V c t, inv_zero V c _ _ hz, classInv_eq]
      iintro ⟨⟨⟨HS, Hoth⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) acc (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst V c t _ _)
          iexact Hoth
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) acc (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst V c t _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live_3 t ((isLast_iff t).mpr h1)], after_3]
      rw [outsAt_last V c t h0 h1]
      unfold outLast accLast; (try dsimp only)
      rw [inv_castSucc V c t, inv_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) (ms0 t) (hs0 t) (ms1 t) (hs1 t) (ms2 t) (hs2 t) (ms3 t) (hs3 t) acc (Memref.isWhole_whole _) (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_accLast V c t _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_outLast V c t _ _ _)
    · rw [Dat.leavesExact_idle (dat V c) 3 t (idle_3 t (fun h => h1 ((isLast_iff t).mp h))) (noFlush_3 t (fun h => h1 ((isLast_iff t).mp h)))]
      rw [outsAt_mid V c t h0 h1]
      unfold accMid; (try dsimp only)
      rw [inv_castSucc V c t, inv_pos V c _ _ hz]
      iintro ⟨⟨⟨HS, Hoth⟩, Hg⟩, Ho, ⟨%d0, H0⟩, ⟨%d1, H1⟩, ⟨%d2, H2⟩, ⟨%d3, H3⟩⟩
      iapply ((runMid c (grid1.coords t) (ms0 t) (hs0 t) (ms1 t) (hs1 t) (ms2 t) (hs2 t) (ms3 t) (hs3 t) acc (Memref.isWhole_whole _) (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (cover_accMid V c t _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulator's contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 64 := N_1; omega), classInv_eq]
  iintro ⟨⟨HS, Hoth⟩, Hg⟩
  isplitl [HS Hoth]
  · isplitl [HS]
    · iexists _; iexact HS
    iexact Hoth
  iexact Hg

end Cert.Kernel.Softmax

end
-- ==== Proof.Kernel.Whole.lean ====
/-
  The whole program as a run of three segments — the host operations that prepare the operands (casts to the matmul
  format, the concatenation of the input and the previous hidden state, the biases as rows), the gate kernel's
  region, the softmax kernel's region — with the contents of every unscoped buffer named at each boundary: the launch
  memory, then the host operations' results, then the gate kernel's arrays at what its pipeline leaves, then the softmax
  kernel's. Every weakly fair execution terminates, and every final memory holds each unscoped buffer at the last
  boundary's contents; the frame claim and the value of the result are both read off that.
-/
import proofs.«176059_j79517024518378_2_alg».proof.Proof.Kernel.Gates.Data
import proofs.«176059_j79517024518378_2_alg».proof.Proof.Kernel.Softmax.Data
import proofs.«176059_j79517024518378_2_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations: the gate kernel's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gate kernel: its arrays at what its pipeline leaves, every other buffer as entered. -/
def W2 (c : Dev nD) : Valuation τ sig (Elt F) :=
  Pipeline.withArrays spec0 c (W1 m ρ c) fun w => (Gates.dat (V1 m ρ) c).arrAt w cfg0.N
theorem W2_arr (c : Dev nD) (w : Fin cfg0.W) :
    W2 m ρ c (Proc.devRef .tc (Pipeline.arrRef spec0 w)) = (Gates.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Gates.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the softmax kernel: its arrays at what its pipeline leaves, every other buffer as entered. -/
def W3 (c : Dev nD) : Valuation τ sig (Elt F) :=
  Pipeline.withArrays spec1 c (W2 m ρ c) fun w => (Softmax.dat (V2 m ρ) c).arrAt w cfg1.N
theorem W3_arr (c : Dev nD) (w : Fin cfg1.W) :
    W3 m ρ c (Proc.devRef .tc (Pipeline.arrRef spec1 w)) = (Softmax.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Softmax.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Gates.dat (V1 m ρ) c
  | ⟨1, _⟩ => fun c => Softmax.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-- After its last point each region's invariant gives back the scoped buffers no window stages and the generator
    register: the accumulators' named contents are forgotten. -/
theorem out0 (c : Dev nD) : (Gates.dat (V1 m ρ) c).Φ (Fin.last cfg0.N)
    ⊢ (iprop(Pipeline.scopedRest (Ix := Unit) (Name := ℕ) (U := UR sig nD τ) (Lvl := ℕ) (Val := Elt F) spec0 c ∗ ∃ r, prngReg c r) : sProp 𝕄) := by
  have h := Gates.inv_out (V1 m ρ) c
  unfold Pipeline.ΦA at h
  exact h
theorem out1 (c : Dev nD) : (Softmax.dat (V2 m ρ) c).Φ (Fin.last cfg1.N)
    ⊢ (iprop(Pipeline.scopedRest (Ix := Unit) (Name := ℕ) (U := UR sig nD τ) (Lvl := ℕ) (Val := Elt F) spec1 c ∗ ∃ r, prngReg c r) : sProp 𝕄) := by
  have h := Softmax.inv_out (V2 m ρ) c
  unfold Pipeline.ΦA at h
  exact h

/-! ## The regions as segments -/

set_option backward.isDefEq.respectTransparency.types false in
/-- Region 0 over the thread state: entered from every unscoped buffer at the boundary contents before it, left at
    those after it. Its arrays are split out of the unscoped buffers and put back at the exit contents; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Gates.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = (Gates.dat (V1 m ρ) c).Φ (Fin.last cfg0.N) from rfl]
    have h := out0 m ρ c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary contents before it, left at
    those after it. Its arrays are split out of the unscoped buffers and put back at the exit contents; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Softmax.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = (Softmax.dat (V2 m ρ) c).Φ (Fin.last cfg1.N) from rfl]
    have h := out1 m ρ c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Whole

end
-- ==== Proof.Kernel.Frame.lean ====
/-
  The frame claim read off the whole run: no host operation writes an argument and no region changes one (the gate
  kernel reads the cell state through an input window, whose array ends as entered; every other argument bypasses both
  regions), so each argument's buffer at the last boundary is the launch memory's.
-/
import proofs.«176059_j79517024518378_2_alg».proof.Proof.Kernel.Whole

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (show W1 m ρ c (Proc.devRef .tc main_arg0) = _ from Gen.V1_of m c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (show W1 m ρ c (Proc.devRef .tc main_arg1) = _ from Gen.V1_of m c main_arg1 (by decide)).trans rfl
/-- The cell state is an input of the gate kernel: its array ends as entered. -/
theorem W3_main_arg2 (c : Dev nD) : W3 m ρ c (Proc.devRef .tc main_arg2) = m ((c : Thread nD τ).loc main_arg2) :=
  (W3_of_ne m ρ c main_arg2 (by decide)).trans <|
    ((W2_arr m ρ c 9).trans (((Gates.dat (V1 m ρ) c).arrAt_in 9 rfl _).trans (Gates.A_eq (V1 m ρ) c 9))).trans <|
      (show W1 m ρ c (Proc.devRef .tc main_arg2) = _ from Gen.V1_of m c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    (show W1 m ρ c (Proc.devRef .tc main_arg3) = _ from Gen.V1_of m c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <|
    (show W1 m ρ c (Proc.devRef .tc main_arg4) = _ from Gen.V1_of m c main_arg4 (by decide)).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <|
    (show W1 m ρ c (Proc.devRef .tc main_arg5) = _ from Gen.V1_of m c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <|
    (show W1 m ρ c (Proc.devRef .tc main_arg6) = _ from Gen.V1_of m c main_arg6 (by decide)).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <|
    (show W1 m ρ c (Proc.devRef .tc main_arg7) = _ from Gen.V1_of m c main_arg7 (by decide)).trans rfl
theorem W3_main_arg8 (c : Dev nD) : W3 m ρ c (Proc.devRef .tc main_arg8) = m ((c : Thread nD τ).loc main_arg8) :=
  (W3_of_ne m ρ c main_arg8 (by decide)).trans <| (W2_of_ne m ρ c main_arg8 (by decide)).trans <|
    (show W1 m ρ c (Proc.devRef .tc main_arg8) = _ from Gen.V1_of m c main_arg8 (by decide)).trans rfl
theorem W3_main_arg9 (c : Dev nD) : W3 m ρ c (Proc.devRef .tc main_arg9) = m ((c : Thread nD τ).loc main_arg9) :=
  (W3_of_ne m ρ c main_arg9 (by decide)).trans <| (W2_of_ne m ρ c main_arg9 (by decide)).trans <|
    (show W1 m ρ c (Proc.devRef .tc main_arg9) = _ from Gen.V1_of m c main_arg9 (by decide)).trans rfl
theorem W3_main_arg10 (c : Dev nD) : W3 m ρ c (Proc.devRef .tc main_arg10) = m ((c : Thread nD τ).loc main_arg10) :=
  (W3_of_ne m ρ c main_arg10 (by decide)).trans <| (W2_of_ne m ρ c main_arg10 (by decide)).trans <|
    (show W1 m ρ c (Proc.devRef .tc main_arg10) = _ from Gen.V1_of m c main_arg10 (by decide)).trans rfl
theorem W3_main_arg11 (c : Dev nD) : W3 m ρ c (Proc.devRef .tc main_arg11) = m ((c : Thread nD τ).loc main_arg11) :=
  (W3_of_ne m ρ c main_arg11 (by decide)).trans <| (W2_of_ne m ρ c main_arg11 (by decide)).trans <|
    (show W1 m ρ c (Proc.devRef .tc main_arg11) = _ from Gen.V1_of m c main_arg11 (by decide)).trans rfl
theorem W3_main_arg12 (c : Dev nD) : W3 m ρ c (Proc.devRef .tc main_arg12) = m ((c : Thread nD τ).loc main_arg12) :=
  (W3_of_ne m ρ c main_arg12 (by decide)).trans <| (W2_of_ne m ρ c main_arg12 (by decide)).trans <|
    (show W1 m ρ c (Proc.devRef .tc main_arg12) = _ from Gen.V1_of m c main_arg12 (by decide)).trans rfl

/-- Every weakly fair execution of the program terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c)⟩) (run m ρ)

end Cert.Kernel.Whole

end
-- ==== Proof.KernelIdeal.Gates.Base.lean ====
/-
  The gate kernel (the first pallas_call): the four gate pre-activations accumulated over eight blocks of the
  concatenated input axis in four scratch buffers carried from one grid point to the next, and at the last block
  the biases added, the gates applied and the new hidden state written out. Shared by the three control cases of
  its body: the two branch conditions in closed form over the grid, where the output window is idle, the staging
  and scratch memrefs the body is called with, and the pipeline's class invariant with the four accumulators opened.
-/
import proofs.«176059_j79517024518378_2_alg».proof.Proof.Gen.KernelIdeal.Launch
import proofs.«176059_j79517024518378_2_alg».proof.Proof.Gen.KernelIdeal.Skeleton
import proofs.«176059_j79517024518378_2_alg».proof.Proof.Gen.KernelIdeal.Points
import Idealize.ShloMosaic.Lib.Pipeline.FrameBody
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulators are reset exactly when the coordinate along the contracted axis is 0. -/
abbrev isFirst (i : grid0.Coords) : Prop :=
  (Scalar.cmpi .ne (Scalar.extui (Scalar.cmpi .eq (BitVec.ofNat 32 (i 2).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The new hidden state is written exactly when that coordinate is 7, the last block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The ten input windows are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
/-- The output window is idle, and not written back, wherever the block is not the last. -/
theorem idle_10 : ∀ t : Fin cfg0.N, ¬isLast (grid0.coords t) → cfg0.idle 10 (grid0.coords t) = true := by decide +kernel
theorem noFlush_10 : ∀ t : Fin cfg0.N, ¬isLast (grid0.coords t) → (cfg0.win 10).flush t = false := by decide +kernel
theorem live_10 : ∀ t : Fin cfg0.N, isLast (grid0.coords t) → cfg0.idle 10 (grid0.coords t) = false := by decide +kernel

/-- The staging memref each window is on at point `t`, as the pipeline passes it, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x512 .bf16 := win0_10.stage (cfg0.slots t 10)
abbrev hs10 (t : Fin cfg0.N) : (ms10 t).IsWhole := hstage0_10 ((cfg0.slots t 10).cast nbuf0_10)
/-- The four accumulators (forget gate, input gate, candidate, output gate): the kernel's own scratch buffers, whole. -/
abbrev accF : Memref sig .tc .vmem S1024x512 .f32 := Memref.whole cc0_scratch0
abbrev accI : Memref sig .tc .vmem S1024x512 .f32 := Memref.whole cc0_scratch1
abbrev accC : Memref sig .tc .vmem S1024x512 .f32 := Memref.whole cc0_scratch2
abbrev accO : Memref sig .tc .vmem S1024x512 .f32 := Memref.whole cc0_scratch3
/-- The view through which the output block's contents are stated. -/
abbrev outV : View sig .tc .vmem S1024x512 .bf16 := (Memref.whole cc0_stg10_0 : Memref sig .tc .vmem S1024x512 .bf16).view

end Cert.KernelIdeal.Gates

end
-- ==== Proof.KernelIdeal.Gates.RunFirst.lean ====
/-
  The gate kernel's body at the FIRST block of the contracted axis (the four accumulators are reset, then the block's four products added; nothing is written to the output): the body's triple on whole memrefs, with the pieces its stores leave in each accumulator.
-/
import proofs.«176059_j79517024518378_2_alg».proof.Proof.KernelIdeal.Gates.Base

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- At the first block: the inputs' buffers at their blocks, the output's buffer at contents handed back untouched, the
    accumulators at anything; the body runs, leaving the inputs as they were and each accumulator with its pieces written. -/
noncomputable def runFirst (c : Dev nD) (i : grid0.Coords) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (hc0 : isFirst i) (hc1 : ¬isLast i)
    (x0 : Vec F S1024x1024 .bf16) (x1 : Vec F S512x1024 .bf16) (x2 : Vec F S512x1024 .bf16) (x3 : Vec F S512x1024 .bf16) (x4 : Vec F S512x1024 .bf16) (x5 : Vec F S1x512 .f32) (x6 : Vec F S1x512 .f32) (x7 : Vec F S1x512 .f32) (x8 : Vec F S1x512 .f32) (x9 : Vec F S1024x512 .f32) :
    Σ' (L10 : List (View.Piece (Elt F) S1024x512 .bf16)) (LS0 : List (View.Piece (Elt F) S1024x512 .f32)) (LS1 : List (View.Piece (Elt F) S1024x512 .f32)) (LS2 : List (View.Piece (Elt F) S1024x512 .f32)), { LS3 : List (View.Piece (Elt F) S1024x512 .f32) //
      ∀ (xi10 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, fun xi10 E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    isplitl [HS2]; · iexists _; iexact HS2
    iexists _; iexact HS3

end Cert.KernelIdeal.Gates

end
-- ==== Proof.KernelIdeal.Gates.RunMid.lean ====
/-
  The gate kernel's body at a MIDDLE block of the contracted axis (the block's four products are added to the accumulators; nothing is written to the output): the body's triple on whole memrefs, with the pieces its stores leave in each accumulator.
-/
import proofs.«176059_j79517024518378_2_alg».proof.Proof.KernelIdeal.Gates.Base

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- At a middle block: the inputs' buffers at their blocks, the output's buffer at contents handed back untouched, the
    accumulators at what the block before left (`xs·`); the body runs, leaving the inputs as they were and each
    accumulator with its pieces written. -/
noncomputable def runMid (c : Dev nD) (i : grid0.Coords) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (hc0 : ¬isFirst i) (hc1 : ¬isLast i)
    (x0 : Vec F S1024x1024 .bf16) (x1 : Vec F S512x1024 .bf16) (x2 : Vec F S512x1024 .bf16) (x3 : Vec F S512x1024 .bf16) (x4 : Vec F S512x1024 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    Σ' (L10 : List (View.Piece (Elt F) S1024x512 .bf16)) (LS0 : List (View.Piece (Elt F) S1024x512 .f32)) (LS1 : List (View.Piece (Elt F) S1024x512 .f32)) (LS2 : List (View.Piece (Elt F) S1024x512 .f32)), { LS3 : List (View.Piece (Elt F) S1024x512 .f32) //
      ∀ (xi10 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, fun xi10 E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    isplitl [HS2]; · iexists _; iexact HS2
    iexists _; iexact HS3

end Cert.KernelIdeal.Gates

end
-- ==== Proof.KernelIdeal.Gates.RunLast.lean ====
/-
  The gate kernel's body at the LAST block of the contracted axis (the block's four products are added to the accumulators, then the biases are added, the gates applied and the new hidden state written to the output): the body's triple on whole memrefs, with the pieces its stores leave in the output's buffer and in each accumulator.
-/
import proofs.«176059_j79517024518378_2_alg».proof.Proof.KernelIdeal.Gates.Base

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- At the last block: the inputs' buffers at their blocks, the output's buffer at anything, the accumulators at what the
    block before left (`xs·`); the body runs, leaving the inputs as they were, the output's buffer with the pieces
    `L10` written and each accumulator with its pieces written. -/
noncomputable def runLast (c : Dev nD) (i : grid0.Coords) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (hc0 : ¬isFirst i) (hc1 : isLast i)
    (x0 : Vec F S1024x1024 .bf16) (x1 : Vec F S512x1024 .bf16) (x2 : Vec F S512x1024 .bf16) (x3 : Vec F S512x1024 .bf16) (x4 : Vec F S512x1024 .bf16) (x5 : Vec F S1x512 .f32) (x6 : Vec F S1x512 .f32) (x7 : Vec F S1x512 .f32) (x8 : Vec F S1x512 .f32) (x9 : Vec F S1024x512 .f32) (xs0 xs1 xs2 xs3 : Vec F S1024x512 .f32) :
    Σ' (L10 : List (View.Piece (Elt F) S1024x512 .bf16)) (LS0 : List (View.Piece (Elt F) S1024x512 .f32)) (LS1 : List (View.Piece (Elt F) S1024x512 .f32)) (LS2 : List (View.Piece (Elt F) S1024x512 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3)) -∗ K ⟨⟩))
          ⊢ wp frame (wpE (defs₀ (F := F)) Variants.none c none) E (cc0__gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Gates

end
-- ==== Proof.KernelIdeal.Gates.Data.lean ====
/-
  The gate kernel's proof data over any contents `V` of the buffers at the region's entry: what the four accumulators
  and the output's staging buffer hold after the body at each grid point — by recursion on the point, each accumulator
  after a block being the body's result on what the block before left —, the region invariant that carries the
  accumulators' contents from point to point, and the body obligation at every point.
-/
import proofs.«176059_j79517024518378_2_alg».proof.Proof.KernelIdeal.Gates.RunFirst
import proofs.«176059_j79517024518378_2_alg».proof.Proof.KernelIdeal.Gates.RunMid
import proofs.«176059_j79517024518378_2_alg».proof.Proof.KernelIdeal.Gates.RunLast

set_option maxRecDepth 16384

noncomputable section

namespace Cert.KernelIdeal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the program other than this call's staging buffers and its four accumulators. -/
abbrev others (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The class invariant with the accumulators opened: each at some contents, the other scoped buffers, the generator
    register at some state. -/
theorem classInv_eq (c : Dev nD) :
    (Pipeline.ΦA spec0 c : sProp 𝕄)
      = iprop(iprop(iprop((∃ d, owns (c : Thread nD τ) accF fullShare d) ∗ (∃ d, owns (c : Thread nD τ) accI fullShare d) ∗ (∃ d, owns (c : Thread nD τ) accC fullShare d) ∗ (∃ d, owns (c : Thread nD τ) accO fullShare d)) ∗ others c) ∗ (∃ r, prngReg c r)) := by
  unfold Pipeline.ΦA
  rw [Pipeline.scopedRest_split_of_list spec0 c [cc0_scratch0, cc0_scratch1, cc0_scratch2, cc0_scratch3] (by decide) (by decide)]
  simp only [accF, accI, accC, accO, owns_whole]; try rfl

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved since the fetch. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, at a point -/

def accFFirst (c : Dev nD) (t : Fin cfg0.N) (hc0 : isFirst (grid0.coords t)) (hc1 : ¬isLast (grid0.coords t)) : Vec F S1024x512 .f32 :=
  accF.view.read (Elt F) (accF.view.writes (Elt F) accF.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.1)
theorem cover_accFFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.1 S1024x512.size (by sl_kernel_rfl) y
def accFMid (c : Dev nD) (t : Fin cfg0.N) (hc0 : ¬isFirst (grid0.coords t)) (hc1 : ¬isLast (grid0.coords t)) (xs0 xs1 xs2 xs3 : Vec F S1024x512 .f32) : Vec F S1024x512 .f32 :=
  accF.view.read (Elt F) (accF.view.writes (Elt F) accF.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1)
theorem cover_accFMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1 S1024x512.size (by sl_kernel_rfl) y
def accFLast (c : Dev nD) (t : Fin cfg0.N) (hc0 : ¬isFirst (grid0.coords t)) (hc1 : isLast (grid0.coords t)) (xs0 xs1 xs2 xs3 : Vec F S1024x512 .f32) : Vec F S1024x512 .f32 :=
  accF.view.read (Elt F) (accF.view.writes (Elt F) accF.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1)
theorem cover_accFLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.1 S1024x512.size (by sl_kernel_rfl) y
def accIFirst (c : Dev nD) (t : Fin cfg0.N) (hc0 : isFirst (grid0.coords t)) (hc1 : ¬isLast (grid0.coords t)) : Vec F S1024x512 .f32 :=
  accI.view.read (Elt F) (accI.view.writes (Elt F) accI.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.1)
theorem cover_accIFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.1 S1024x512.size (by sl_kernel_rfl) y
def accIMid (c : Dev nD) (t : Fin cfg0.N) (hc0 : ¬isFirst (grid0.coords t)) (hc1 : ¬isLast (grid0.coords t)) (xs0 xs1 xs2 xs3 : Vec F S1024x512 .f32) : Vec F S1024x512 .f32 :=
  accI.view.read (Elt F) (accI.view.writes (Elt F) accI.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1)
theorem cover_accIMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1 S1024x512.size (by sl_kernel_rfl) y
def accILast (c : Dev nD) (t : Fin cfg0.N) (hc0 : ¬isFirst (grid0.coords t)) (hc1 : isLast (grid0.coords t)) (xs0 xs1 xs2 xs3 : Vec F S1024x512 .f32) : Vec F S1024x512 .f32 :=
  accI.view.read (Elt F) (accI.view.writes (Elt F) accI.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1)
theorem cover_accILast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.1 S1024x512.size (by sl_kernel_rfl) y
def accCFirst (c : Dev nD) (t : Fin cfg0.N) (hc0 : isFirst (grid0.coords t)) (hc1 : ¬isLast (grid0.coords t)) : Vec F S1024x512 .f32 :=
  accC.view.read (Elt F) (accC.view.writes (Elt F) accC.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.1)
theorem cover_accCFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.1 S1024x512.size (by sl_kernel_rfl) y
def accCMid (c : Dev nD) (t : Fin cfg0.N) (hc0 : ¬isFirst (grid0.coords t)) (hc1 : ¬isLast (grid0.coords t)) (xs0 xs1 xs2 xs3 : Vec F S1024x512 .f32) : Vec F S1024x512 .f32 :=
  accC.view.read (Elt F) (accC.view.writes (Elt F) accC.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1)
theorem cover_accCMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1 S1024x512.size (by sl_kernel_rfl) y
def accCLast (c : Dev nD) (t : Fin cfg0.N) (hc0 : ¬isFirst (grid0.coords t)) (hc1 : isLast (grid0.coords t)) (xs0 xs1 xs2 xs3 : Vec F S1024x512 .f32) : Vec F S1024x512 .f32 :=
  accC.view.read (Elt F) (accC.view.writes (Elt F) accC.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1)
theorem cover_accCLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.1 S1024x512.size (by sl_kernel_rfl) y
def accOFirst (c : Dev nD) (t : Fin cfg0.N) (hc0 : isFirst (grid0.coords t)) (hc1 : ¬isLast (grid0.coords t)) : Vec F S1024x512 .f32 :=
  accO.view.read (Elt F) (accO.view.writes (Elt F) accO.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.2.1)
theorem cover_accOFirst (c : Dev nD) (t : Fin cfg0.N) (hc0 : isFirst (grid0.coords t)) (hc1 : ¬isLast (grid0.coords t)) (y : S1024x512.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t)).2.2.2.2.1 S1024x512.size (by sl_kernel_rfl) y
def accOMid (c : Dev nD) (t : Fin cfg0.N) (hc0 : ¬isFirst (grid0.coords t)) (hc1 : ¬isLast (grid0.coords t)) (xs0 xs1 xs2 xs3 : Vec F S1024x512 .f32) : Vec F S1024x512 .f32 :=
  accO.view.read (Elt F) (accO.view.writes (Elt F) accO.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1)
theorem cover_accOMid (c : Dev nD) (t : Fin cfg0.N) (hc0 : ¬isFirst (grid0.coords t)) (hc1 : ¬isLast (grid0.coords t)) (xs0 xs1 xs2 xs3 : Vec F S1024x512 .f32) (y : S1024x512.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1 S1024x512.size (by sl_kernel_rfl) y
def accOLast (c : Dev nD) (t : Fin cfg0.N) (hc0 : ¬isFirst (grid0.coords t)) (hc1 : isLast (grid0.coords t)) (xs0 xs1 xs2 xs3 : Vec F S1024x512 .f32) : Vec F S1024x512 .f32 :=
  accO.view.read (Elt F) (accO.view.writes (Elt F) accO.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1)
theorem cover_accOLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).2.2.2.2.1 S1024x512.size (by sl_kernel_rfl) y
def outLast (c : Dev nD) (t : Fin cfg0.N) (hc0 : ¬isFirst (grid0.coords t)) (hc1 : isLast (grid0.coords t)) (xs0 xs1 xs2 xs3 : Vec F S1024x512 .f32) : Vec F S1024x512 .bf16 :=
  outV.read (Elt F) (outV.writes (Elt F) outV.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).1)
theorem cover_outLast (c : Dev nD) (t : Fin cfg0.N) (hc0 : ¬isFirst (grid0.coords t)) (hc1 : isLast (grid0.coords t)) (xs0 xs1 xs2 xs3 : Vec F S1024x512 .f32) (y : S1024x512.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) xs0 xs1 xs2 xs3).1 S1024x512.size (by sl_kernel_rfl) y

/-- Where the body stores nothing into the output its buffer's contents are never consulted: a placeholder. -/
def outIdle : Vec F S1024x512 .bf16 := outV.read (Elt F) outV.junk

/-! ## The accumulation -/

/-- What the output's staging buffer and the four accumulators hold after the body at position `n`: the first block
    starts the accumulators afresh, every later block continues from what the block before left. -/
def outsAt (c : Dev nD) : (n : ℕ) → n < cfg0.N → Vec F S1024x512 .bf16 × (Vec F S1024x512 .f32 × Vec F S1024x512 .f32 × Vec F S1024x512 .f32 × Vec F S1024x512 .f32)
  | 0, hn => (outIdle, (accFFirst V c ⟨0, hn⟩ ((isFirst_iff ⟨0, hn⟩).mpr (Nat.zero_mod _)) (fun h => (fun h => by (try dsimp only at h); omega) ((isLast_iff ⟨0, hn⟩).mp h)), accIFirst V c ⟨0, hn⟩ ((isFirst_iff ⟨0, hn⟩).mpr (Nat.zero_mod _)) (fun h => (fun h => by (try dsimp only at h); omega) ((isLast_iff ⟨0, hn⟩).mp h)), accCFirst V c ⟨0, hn⟩ ((isFirst_iff ⟨0, hn⟩).mpr (Nat.zero_mod _)) (fun h => (fun h => by (try dsimp only at h); omega) ((isLast_iff ⟨0, hn⟩).mp h)), accOFirst V c ⟨0, hn⟩ ((isFirst_iff ⟨0, hn⟩).mpr (Nat.zero_mod _)) (fun h => (fun h => by (try dsimp only at h); omega) ((isLast_iff ⟨0, hn⟩).mp h))))
  | n + 1, hn =>
    if h0 : (n + 1) % 8 = 0 then
      (outIdle, (accFFirst V c ⟨n + 1, hn⟩ ((isFirst_iff ⟨n + 1, hn⟩).mpr h0) (fun h => (fun h => by (try dsimp only at h); omega) ((isLast_iff ⟨n + 1, hn⟩).mp h)), accIFirst V c ⟨n + 1, hn⟩ ((isFirst_iff ⟨n + 1, hn⟩).mpr h0) (fun h => (fun h => by (try dsimp only at h); omega) ((isLast_iff ⟨n + 1, hn⟩).mp h)), accCFirst V c ⟨n + 1, hn⟩ ((isFirst_iff ⟨n + 1, hn⟩).mpr h0) (fun h => (fun h => by (try dsimp only at h); omega) ((isLast_iff ⟨n + 1, hn⟩).mp h)), accOFirst V c ⟨n + 1, hn⟩ ((isFirst_iff ⟨n + 1, hn⟩).mpr h0) (fun h => (fun h => by (try dsimp only at h); omega) ((isLast_iff ⟨n + 1, hn⟩).mp h))))
    else
      if h1 : (n + 1) % 8 = 7 then
        (outLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, (accFLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accILast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accCLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accOLast V c ⟨n + 1, hn⟩ (fun h => h0 ((isFirst_iff ⟨n + 1, hn⟩).mp h)) ((isLast_iff ⟨n + 1, hn⟩).mpr h1) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2))
      else
        (outIdle, (accFMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accIMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accCMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2, accOMid V c ⟨n + 1, hn⟩ (fun h => h0 ((isFirst_iff ⟨n + 1, hn⟩).mp h)) (fun h => h1 ((isLast_iff ⟨n + 1, hn⟩).mp h)) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2))

theorem outsAt_first (c : Dev nD) (t : Fin cfg0.N) (h0 : t.val % 8 = 0) :
    outsAt V c t.val t.isLt = (outIdle, (accFFirst V c t ((isFirst_iff t).mpr h0) (fun h => (fun h => by omega) ((isLast_iff t).mp h)), accIFirst V c t ((isFirst_iff t).mpr h0) (fun h => (fun h => by omega) ((isLast_iff t).mp h)), accCFirst V c t ((isFirst_iff t).mpr h0) (fun h => (fun h => by omega) ((isLast_iff t).mp h)), accOFirst V c t ((isFirst_iff t).mpr h0) (fun h => (fun h => by omega) ((isLast_iff t).mp h)))) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt V c t.val t.isLt = (outIdle, (accFMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accIMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accCMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accOMid V c t (fun h => h0 ((isFirst_iff t).mp h)) (fun h => h1 ((isLast_iff t).mp h)) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = (outLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, (accFLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accILast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accCLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2, accOLast V c t (fun h => h0 ((isFirst_iff t).mp h)) ((isLast_iff t).mpr h1) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2.1 (outsAt V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulators carried from point to point -/

/-- Before the first point the class invariant (the accumulators at anything); before any later point each accumulator at
    what the point before left, the other scoped buffers, the generator register at some state. -/
def inv (c : Dev nD) : (n : ℕ) → n ≤ cfg0.N → sProp 𝕄
  | 0, _ => Pipeline.ΦA spec0 c
  | n + 1, hn => iprop(iprop(iprop(owns (c : Thread nD τ) accF fullShare ((outsAt V c n hn).2.1) ∗ owns (c : Thread nD τ) accI fullShare ((outsAt V c n hn).2.2.1) ∗ owns (c : Thread nD τ) accC fullShare ((outsAt V c n hn).2.2.2.1) ∗ owns (c : Thread nD τ) accO fullShare ((outsAt V c n hn).2.2.2.2)) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(iprop(owns (c : Thread nD τ) accF fullShare ((outsAt V c n hn).2.1) ∗ owns (c : Thread nD τ) accI fullShare ((outsAt V c n hn).2.2.1) ∗ owns (c : Thread nD τ) accC fullShare ((outsAt V c n hn).2.2.2.1) ∗ owns (c : Thread nD τ) accO fullShare ((outsAt V c n hn).2.2.2.2)) ∗ others c) ∗ (∃ r, prngReg c r)) := rfl
theorem inv_pos (c : Dev nD) (n : ℕ) (h : n ≤ cfg0.N) (hz : n ≠ 0) :
    inv V c n h = iprop(iprop(iprop(owns (c : Thread nD τ) accF fullShare ((outsAt V c (n - 1) (by omega)).2.1) ∗ owns (c : Thread nD τ) accI fullShare ((outsAt V c (n - 1) (by omega)).2.2.1) ∗ owns (c : Thread nD τ) accC fullShare ((outsAt V c (n - 1) (by omega)).2.2.2.1) ∗ owns (c : Thread nD τ) accO fullShare ((outsAt V c (n - 1) (by omega)).2.2.2.2)) ∗ others c) ∗ (∃ r, prngReg c r)) := by
  cases n with
  | zero => exact absurd rfl hz
  | succ n => rfl

/-! ## The proof data -/

/-- The arrays as the region finds them; after the body each input's buffer at its block, the output's at `outsAt`;
    the invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

theorem leaves_0 (c : Dev nD) (t : Fin cfg0.N) : (dat V c).leavesExact 0 t = owns (c : Thread nD τ) (ms0 t) fullShare (iblk V c 0 t) := by
  unfold Dat.leavesExact; rw [live_0 t, after_0]
theorem leaves_1 (c : Dev nD) (t : Fin cfg0.N) : (dat V c).leavesExact 1 t = owns (c : Thread nD τ) (ms1 t) fullShare (iblk V c 1 t) := by
  unfold Dat.leavesExact; rw [live_1 t, after_1]
theorem leaves_2 (c : Dev nD) (t : Fin cfg0.N) : (dat V c).leavesExact 2 t = owns (c : Thread nD τ) (ms2 t) fullShare (iblk V c 2 t) := by
  unfold Dat.leavesExact; rw [live_2 t, after_2]
theorem leaves_3 (c : Dev nD) (t : Fin cfg0.N) : (dat V c).leavesExact 3 t = owns (c : Thread nD τ) (ms3 t) fullShare (iblk V c 3 t) := by
  unfold Dat.leavesExact; rw [live_3 t, after_3]
theorem leaves_4 (c : Dev nD) (t : Fin cfg0.N) : (dat V c).leavesExact 4 t = owns (c : Thread nD τ) (ms4 t) fullShare (iblk V c 4 t) := by
  unfold Dat.leavesExact; rw [live_4 t, after_4]
theorem leaves_5 (c : Dev nD) (t : Fin cfg0.N) : (dat V c).leavesExact 5 t = owns (c : Thread nD τ) (ms5 t) fullShare (iblk V c 5 t) := by
  unfold Dat.leavesExact; rw [live_5 t, after_5]
theorem leaves_6 (c : Dev nD) (t : Fin cfg0.N) : (dat V c).leavesExact 6 t = owns (c : Thread nD τ) (ms6 t) fullShare (iblk V c 6 t) := by
  unfold Dat.leavesExact; rw [live_6 t, after_6]
theorem leaves_7 (c : Dev nD) (t : Fin cfg0.N) : (dat V c).leavesExact 7 t = owns (c : Thread nD τ) (ms7 t) fullShare (iblk V c 7 t) := by
  unfold Dat.leavesExact; rw [live_7 t, after_7]
theorem leaves_8 (c : Dev nD) (t : Fin cfg0.N) : (dat V c).leavesExact 8 t = owns (c : Thread nD τ) (ms8 t) fullShare (iblk V c 8 t) := by
  unfold Dat.leavesExact; rw [live_8 t, after_8]
theorem leaves_9 (c : Dev nD) (t : Fin cfg0.N) : (dat V c).leavesExact 9 t = owns (c : Thread nD τ) (ms9 t) fullShare (iblk V c 9 t) := by
  unfold Dat.leavesExact; rw [live_9 t, after_9]

set_option maxHeartbeats 16000000 in
/-- The body at any point: the closed forms say which case the point is in; the invariant hands the body each accumulator
    at what the point before left (at anything before the first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).owesAt () t.succ = (dat V c).owesAt () t.castSucc from rfl]
  rw [show (dat V c).Φ t.succ = inv V c (t.val + 1) t.isLt from rfl, inv_succ]
  rw [leaves_0, leaves_1, leaves_2, leaves_3, leaves_4, leaves_5, leaves_6, leaves_7, leaves_8, leaves_9]
  have hN : t.val < 256 := lt_of_lt_of_eq t.isLt (show cfg0.N = 256 from N_0)
  by_cases h0 : t.val % 8 = 0
  · have h1 : ¬t.val % 8 = 7 := by omega
    rw [Dat.leavesExact_idle (dat V c) 10 t (idle_10 t (fun h => h1 ((isLast_iff t).mp h))) (noFlush_10 t (fun h => h1 ((isLast_iff t).mp h)))]
    rw [outsAt_first V c t h0]
    unfold accFFirst accIFirst accCFirst accOFirst; (try dsimp only)
    by_cases hz : t.val = 0
    · rw [inv_castSucc V c t, inv_zero V c _ _ hz, classInv_eq]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFFirst V c t _ _)
            isplitl [HS1]
            · unfold owns; iexists _; isplitr
              swap; · iexact HS1
              ipureintro; exact View.read_writes_of_cover _ _ _ _ _ (cover_accIFirst V c t _ _)
            isplitl [HS2]
            · unfold owns; iexists _; isplitr
              swap; · iexact HS2
              ipureintro; exact View.read_writes_of_cover _ _ _ _ _ (cover_accCFirst V c t _ _)
            unfold owns; iexists _; isplitr
            swap; · iexact HS3
            ipureintro; exact View.read_writes_of_cover _ _ _ _ _ (cover_accOFirst V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · rw [inv_castSucc V c t, inv_pos V c _ _ hz]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFFirst V c t _ _)
            isplitl [HS1]
            · unfold owns; iexists _; isplitr
              swap; · iexact HS1
              ipureintro; exact View.read_writes_of_cover _ _ _ _ _ (cover_accIFirst V c t _ _)
            isplitl [HS2]
            · unfold owns; iexists _; isplitr
              swap; · iexact HS2
              ipureintro; exact View.read_writes_of_cover _ _ _ _ _ (cover_accCFirst V c t _ _)
            unfold owns; iexists _; isplitr
            swap; · iexact HS3
            ipureintro; exact View.read_writes_of_cover _ _ _ _ _ (cover_accOFirst V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
  · have hz : t.val ≠ 0 := fun e => h0 (by rw [e])
    by_cases h1 : t.val % 8 = 7
    · rw [show (dat V c).leavesExact 10 t = owns (c : Thread nD τ) (ms10 t) fullShare ((dat V c).after 10 t) from by
        unfold Dat.leavesExact; rw [live_10 t ((isLast_iff t).mpr h1)], after_10]
      rw [outsAt_last V c t h0 h1]
      unfold outLast accFLast accILast accCLast accOLast; (try dsimp only)
      rw [inv_castSucc V c t, inv_pos V c _ _ hz]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFLast V c t _ _ _ _ _ _)
            isplitl [HS1]
            · unfold owns; iexists _; isplitr
              swap; · iexact HS1
              ipureintro; exact View.read_writes_of_cover _ _ _ _ _ (cover_accILast V c t _ _ _ _ _ _)
            isplitl [HS2]
            · unfold owns; iexists _; isplitr
              swap; · iexact HS2
              ipureintro; exact View.read_writes_of_cover _ _ _ _ _ (cover_accCLast V c t _ _ _ _ _ _)
            unfold owns; iexists _; isplitr
            swap; · iexact HS3
            ipureintro; exact View.read_writes_of_cover _ _ _ _ _ (cover_accOLast V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover_outLast V c t _ _ _ _ _ _)
    · rw [Dat.leavesExact_idle (dat V c) 10 t (idle_10 t (fun h => h1 ((isLast_iff t).mp h))) (noFlush_10 t (fun h => h1 ((isLast_iff t).mp h)))]
      rw [outsAt_mid V c t h0 h1]
      unfold accFMid accIMid accCMid accOMid; (try dsimp only)
      rw [inv_castSucc V c t, inv_pos V c _ _ hz]
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accF (Memref.isWhole_whole _) accI (Memref.isWhole_whole _) accC (Memref.isWhole_whole _) accO (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hoth Hg]
      · isplitl [HS0 HS1 HS2 HS3 Hoth]
        · isplitl [HS0 HS1 HS2 HS3]
          · isplitl [HS0]
            · unfold owns; iexists _; isplitr
              swap; · iexact HS0
              ipureintro; exact View.read_writes_of_cover _ _ _ _ _ (cover_accFMid V c t _ _ _ _ _ _)
            isplitl [HS1]
            · unfold owns; iexists _; isplitr
              swap; · iexact HS1
              ipureintro; exact View.read_writes_of_cover _ _ _ _ _ (cover_accIMid V c t _ _ _ _ _ _)
            isplitl [HS2]
            · unfold owns; iexists _; isplitr
              swap; · iexact HS2
              ipureintro; exact View.read_writes_of_cover _ _ _ _ _ (cover_accCMid V c t _ _ _ _ _ _)
            unfold owns; iexists _; isplitr
            swap; · iexact HS3
            ipureintro; exact View.read_writes_of_cover _ _ _ _ _ (cover_accOMid V c t _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulators' contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega), classInv_eq]
  iintro ⟨⟨⟨HS0, HS1, HS2, HS3⟩, Hoth⟩, Hg⟩
  isplitl [HS0 HS1 HS2 HS3 Hoth]
  · isplitl [HS0 HS1 HS2 HS3]
    · isplitl [HS0]; · iexists _; iexact HS0
      isplitl [HS1]; · iexists _; iexact HS1
      isplitl [HS2]; · iexists _; iexact HS2
      iexists _; iexact HS3
    iexact Hoth
  iexact Hg

end Cert.KernelIdeal.Gates

end
-- ==== Proof.KernelIdeal.Softmax.Base.lean ====
/-
  The softmax kernel (the second pallas_call): logits accumulated over four blocks of the hidden axis in a scratch
  buffer carried from one grid point to the next, and at the last block of a row-tile the bias added and the row
  softmax written out. Shared by the three control cases of its body: the two branch conditions in closed form
  over the grid (the first block of a row-tile resets the accumulator, the last one writes the output), where the
  output window is idle, the staging and scratch memrefs the body is called with, and the pipeline's class
  invariant with the scratch buffer opened.
-/
import proofs.«176059_j79517024518378_2_alg».proof.Proof.Gen.KernelIdeal.Launch
import proofs.«176059_j79517024518378_2_alg».proof.Proof.Gen.KernelIdeal.Skeleton
import proofs.«176059_j79517024518378_2_alg».proof.Proof.Gen.KernelIdeal.Points
import Idealize.ShloMosaic.Lib.Pipeline.FrameBody
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset exactly when the coordinate along the hidden axis is 0. -/
abbrev isFirst (i : grid1.Coords) : Prop :=
  (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The softmax is written exactly when the coordinate along the hidden axis is 3, the last block. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The three input windows are live at every point. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- The output window is idle, and not written back, wherever the block is not the last of its row-tile. -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
theorem live_3 : ∀ t : Fin cfg1.N, isLast (grid1.coords t) → cfg1.idle 3 (grid1.coords t) = false := by decide +kernel

/-- The staging memref each window is on at point `t`, as the pipeline passes it, and its wholeness. -/
abbrev ms0 (t : Fin cfg1.N) : Memref sig .tc .vmem S256x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x4096 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x4096 .f32 := win1_3.stage (cfg1.slots t 3)
abbrev hs3 (t : Fin cfg1.N) : (ms3 t).IsWhole := hstage1_3 ((cfg1.slots t 3).cast nbuf1_3)
/-- The accumulator: the kernel's own scratch buffer, whole. -/
abbrev acc : Memref sig .tc .vmem S256x4096 .f32 := Memref.whole cc1_scratch0
/-- The views through which the accumulator's and the output block's contents are stated. -/
abbrev accV : View sig .tc .vmem S256x4096 .f32 := acc.view
abbrev outV : View sig .tc .vmem S256x4096 .f32 := (Memref.whole cc1_stg3_0 : Memref sig .tc .vmem S256x4096 .f32).view

/-- The scoped buffers of the program other than this call's staging buffers and its accumulator. -/
abbrev others (c : Dev nD) : sProp 𝕄 :=
  Pipeline.scopedRestBut (Ix := Unit) (Name := ℕ) (U := UR sig nD τ) (Lvl := ℕ) (Val := Elt F) spec1 c [cc1_scratch0]

/-- The class invariant with the accumulator opened: the accumulator at some contents, the other scoped buffers,
    the generator register at some state. -/
theorem classInv_eq (c : Dev nD) :
    (Pipeline.ΦA spec1 c : sProp 𝕄)
      = iprop(iprop((∃ d, owns (c : Thread nD τ) acc fullShare d) ∗ others c) ∗ (∃ r, prngReg c r)) := by
  unfold Pipeline.ΦA; rw [scopedRest1_split]; simp only [acc, owns_whole]; try rfl

end Cert.KernelIdeal.Softmax

end
-- ==== Proof.KernelIdeal.Softmax.RunFirst.lean ====
/-
  The softmax kernel's body at the FIRST block of a row-tile (the accumulator is reset, then the block's product added; nothing is written to the output): the body's triple on whole memrefs, with the pieces its stores leave in the accumulator.
-/
import proofs.«176059_j79517024518378_2_alg».proof.Proof.KernelIdeal.Softmax.Base

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first block of a row-tile: the inputs' buffers at their blocks, the output's buffer at contents handed back
    untouched, the accumulator at anything; the body runs, leaving the inputs as they were and the accumulator with the
    pieces `LS` written. -/
noncomputable def runFirst (c : Dev nD) (i : grid1.Coords) (arg2 : Memref sig .tc .vmem S256x1024 .bf16) (harg2 : arg2.IsWhole) (arg3 : Memref sig .tc .vmem S4096x1024 .bf16) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : isFirst i) (hc1 : ¬isLast i)
    (x0 : Vec F S256x1024 .bf16) (x1 : Vec F S4096x1024 .bf16) (x2 : Vec F S1x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Softmax

end
-- ==== Proof.KernelIdeal.Softmax.RunMid.lean ====
/-
  The softmax kernel's body at a MIDDLE block of a row-tile (the block's product is added to the accumulator; nothing is written to the output): the body's triple on whole memrefs, with the pieces its store leaves in the accumulator.
-/
import proofs.«176059_j79517024518378_2_alg».proof.Proof.KernelIdeal.Softmax.Base

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a middle block: the inputs' buffers at their blocks, the output's buffer at contents handed back untouched, the
    accumulator at what the block before left (`xs`); the body runs, leaving the inputs as they were and the accumulator
    with the pieces `LS` written. -/
noncomputable def runMid (c : Dev nD) (i : grid1.Coords) (arg2 : Memref sig .tc .vmem S256x1024 .bf16) (harg2 : arg2.IsWhole) (arg3 : Memref sig .tc .vmem S4096x1024 .bf16) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬isFirst i) (hc1 : ¬isLast i)
    (x0 : Vec F S256x1024 .bf16) (x1 : Vec F S4096x1024 .bf16) (x2 : Vec F S1x4096 .f32) (xs : Vec F S256x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Softmax

end
-- ==== Proof.KernelIdeal.Softmax.RunLast.lean ====
/-
  The softmax kernel's body at the LAST block of a row-tile (the block's product is added to the accumulator, then the bias is added and the row softmax written to the output): the body's triple on whole memrefs, with the pieces its stores leave in the output's buffer and in the accumulator.
-/
import proofs.«176059_j79517024518378_2_alg».proof.Proof.KernelIdeal.Softmax.Base

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the last block: the inputs' buffers at their blocks, the output's buffer at anything, the accumulator at what the
    block before left (`xs`); the body runs, leaving the inputs as they were, the output's buffer with the pieces `L3`
    written and the accumulator with the pieces `LS` written. -/
noncomputable def runLast (c : Dev nD) (i : grid1.Coords) (arg2 : Memref sig .tc .vmem S256x1024 .bf16) (harg2 : arg2.IsWhole) (arg3 : Memref sig .tc .vmem S4096x1024 .bf16) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬isFirst i) (hc1 : isLast i)
    (x0 : Vec F S256x1024 .bf16) (x1 : Vec F S4096x1024 .bf16) (x2 : Vec F S1x4096 .f32) (xs : Vec F S256x4096 .f32) :
    Σ' (L3 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__output_kernel i arg2 harg2 arg3 harg3 arg4 harg4 arg5 harg5 arg6 harg6) K } := by
  refine ⟨?_, ?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Softmax

end
-- ==== Proof.KernelIdeal.Softmax.Data.lean ====
/-
  The softmax kernel's proof data over any contents `V` of the buffers at the region's entry: what the accumulator
  and the output's staging buffer hold after the body at each grid point — by recursion on the point, the
  accumulator after a block being the body's result on what the block before left —, the region invariant that
  carries the accumulator's contents from point to point, and the body obligation at every point.
-/
import proofs.«176059_j79517024518378_2_alg».proof.Proof.KernelIdeal.Softmax.RunFirst
import proofs.«176059_j79517024518378_2_alg».proof.Proof.KernelIdeal.Softmax.RunMid
import proofs.«176059_j79517024518378_2_alg».proof.Proof.KernelIdeal.Softmax.RunLast

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved since the fetch. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, at a point -/

/-- The accumulator after the first block of a row-tile: the body's pieces read back. -/
def accFirst (c : Dev nD) (t : Fin cfg1.N) (hc0 : isFirst (grid1.coords t)) (hc1 : ¬isLast (grid1.coords t)) : Vec F S256x4096 .f32 :=
  accV.read (Elt F) (accV.writes (Elt F) accV.junk (runFirst c (grid1.coords t) (ms0 t) (hs0 t) (ms1 t) (hs1 t) (ms2 t) (hs2 t) (ms3 t) (hs3 t) acc (Memref.isWhole_whole _) hc0 hc1 (iblk V c 0 t) (iblk V c 1 t) (iblk V c 2 t)).2.1)
theorem cover_accFirst (c : Dev nD) (t : Fin cfg1.N) (hc0 : isFirst (grid1.coords t)) (hc1 : ¬isLast (grid1.coords t)) (y : S256x4096.Idx) :
    ∃ pc ∈ (runFirst c (grid1.coords t) (ms0 t) (hs0 t) (ms1 t) (hs1 t) (ms2 t) (hs2 t) (ms3 t) (hs3 t) acc (Memref.isWhole_whole _) hc0 hc1 (iblk V c 0 t) (iblk V c 1 t) (iblk V c 2 t)).2.1, y ∈ pc.1.set :=
  View.cover_of_tiledL (runFirst c (grid1.coords t) (ms0 t) (hs0 t) (ms1 t) (hs1 t) (ms2 t) (hs2 t) (ms3 t) (hs3 t) acc (Memref.isWhole_whole _) hc0 hc1 (iblk V c 0 t) (iblk V c 1 t) (iblk V c 2 t)).2.1 S256x4096.size (by sl_kernel_rfl) y

/-- The accumulator after a middle block, from what the block before left (`xs`). -/
def accMid (c : Dev nD) (t : Fin cfg1.N) (hc0 : ¬isFirst (grid1.coords t)) (hc1 : ¬isLast (grid1.coords t)) (xs : Vec F S256x4096 .f32) : Vec F S256x4096 .f32 :=
  accV.read (Elt F) (accV.writes (Elt F) accV.junk (runMid c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1)
theorem cover_accMid (c : Dev nD) (t : Fin cfg1.N) (hc0 : ¬isFirst (grid1.coords t)) (hc1 : ¬isLast (grid1.coords t)) (xs : Vec F S256x4096 .f32) (y : S256x4096.Idx) :
    ∃ pc ∈ (runMid c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1, y ∈ pc.1.set :=
  View.cover_of_tiledL (runMid c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1 S256x4096.size (by sl_kernel_rfl) y

/-- The accumulator and the output's buffer after the last block, from what the block before left (`xs`). -/
def accLast (c : Dev nD) (t : Fin cfg1.N) (hc0 : ¬isFirst (grid1.coords t)) (hc1 : isLast (grid1.coords t)) (xs : Vec F S256x4096 .f32) : Vec F S256x4096 .f32 :=
  accV.read (Elt F) (accV.writes (Elt F) accV.junk (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1)
theorem cover_accLast (c : Dev nD) (t : Fin cfg1.N) (hc0 : ¬isFirst (grid1.coords t)) (hc1 : isLast (grid1.coords t)) (xs : Vec F S256x4096 .f32) (y : S256x4096.Idx) :
    ∃ pc ∈ (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1, y ∈ pc.1.set :=
  View.cover_of_tiledL (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).2.1 S256x4096.size (by sl_kernel_rfl) y
def outLast (c : Dev nD) (t : Fin cfg1.N) (hc0 : ¬isFirst (grid1.coords t)) (hc1 : isLast (grid1.coords t)) (xs : Vec F S256x4096 .f32) : Vec F S256x4096 .f32 :=
  outV.read (Elt F) (outV.writes (Elt F) outV.junk (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).1)
theorem cover_outLast (c : Dev nD) (t : Fin cfg1.N) (hc0 : ¬isFirst (grid1.coords t)) (hc1 : isLast (grid1.coords t)) (xs : Vec F S256x4096 .f32) (y : S256x4096.Idx) :
    ∃ pc ∈ (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).1, y ∈ pc.1.set :=
  View.cover_of_tiledL (runLast c (grid1.coords t) (ms0 t) (hs0 t) (ms1 t) (hs1 t) (ms2 t) (hs2 t) (ms3 t) (hs3 t) acc (Memref.isWhole_whole _) hc0 hc1 (iblk V c 0 t) (iblk V c 1 t) (iblk V c 2 t) xs).1 S256x4096.size (by sl_kernel_rfl) y

/-- Where the body stores nothing into the output its buffer's contents are never consulted: a placeholder. -/
def outIdle : Vec F S256x4096 .f32 := outV.read (Elt F) outV.junk

/-! ## The accumulation -/

/-- What the output's staging buffer and the accumulator hold after the body at position `n`: the first block of a
    row-tile starts the accumulator afresh, every later block continues from what the block before left. -/
def outsAt (c : Dev nD) : (n : ℕ) → n < cfg1.N → Vec F S256x4096 .f32 × Vec F S256x4096 .f32
  | 0, hn => (outIdle, accFirst V c ⟨0, hn⟩ ((isFirst_iff ⟨0, hn⟩).mpr (Nat.zero_mod _)) (fun h => (fun h => by (try dsimp only at h); omega) ((isLast_iff ⟨0, hn⟩).mp h)))
  | n + 1, hn =>
    if h0 : (n + 1) % 4 = 0 then
      (outIdle, accFirst V c ⟨n + 1, hn⟩ ((isFirst_iff ⟨n + 1, hn⟩).mpr h0) (fun h => (fun h => by (try dsimp only at h); omega) ((isLast_iff ⟨n + 1, hn⟩).mp h)))
    else
      if h1 : (n + 1) % 4 = 3 then
        (outLast V c ⟨n + 1, hn⟩ (fun h => h0 ((isFirst_iff ⟨n + 1, hn⟩).mp h)) ((isLast_iff ⟨n + 1, hn⟩).mpr h1) (outsAt c n (Nat.lt_of_succ_lt hn)).2,
         accLast V c ⟨n + 1, hn⟩ (fun h => h0 ((isFirst_iff ⟨n + 1, hn⟩).mp h)) ((isLast_iff ⟨n + 1, hn⟩).mpr h1) (outsAt c n (Nat.lt_of_succ_lt hn)).2)
      else
        (outIdle, accMid V c ⟨n + 1, hn⟩ (fun h => h0 ((isFirst_iff ⟨n + 1, hn⟩).mp h)) (fun h => h1 ((isLast_iff ⟨n + 1, hn⟩).mp h)) (outsAt c n (Nat.lt_of_succ_lt hn)).2)

theorem outsAt_first (c : Dev nD) (t : Fin cfg1.N) (h0 : t.val % 4 = 0) :
    outsAt V c t.val t.isLt = (outIdle, accFirst V c t ((isFirst_iff t).mpr h0) (fun h => (fun h => by omega) ((isLast_iff t).mp h))) := by
  obtain ⟨n, hn⟩ := t
  cases n with
  | zero => exact rfl
  | succ n => exact (dif_pos h0).trans rfl

theorem outsAt_mid (c : Dev nD) (t : Fin cfg1.N) (h0 : ¬t.val % 4 = 0) (h1 : ¬t.val % 4 = 3) :
    outsAt V c t.val t.isLt = (outIdle, accMid V c t (fun h => h0 ((isFirst_iff t).mp h)) (fun h => h1 ((isLast_iff t).mp h)) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 4 = 0) (h1 : t.val % 4 = 3) :
    outsAt V c t.val t.isLt = (outLast V c t (fun h => h0 ((isFirst_iff t).mp h)) ((isLast_iff t).mpr h1) (outsAt V c (t.val - 1) (Nat.lt_of_le_of_lt (Nat.sub_le _ _) t.isLt)).2,
      accLast V c t (fun h => h0 ((isFirst_iff t).mp h)) ((isLast_iff t).mpr h1) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before the first point the class invariant (the accumulator at anything); before any later point the accumulator at
    what the point before left, the other scoped buffers, the generator register at some state. -/
def inv (c : Dev nD) : (n : ℕ) → n ≤ cfg1.N → sProp 𝕄
  | 0, _ => Pipeline.ΦA spec1 c
  | n + 1, hn => iprop(iprop(owns (c : Thread nD τ) acc fullShare ((outsAt V c n hn).2) ∗ others c) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(iprop(owns (c : Thread nD τ) acc fullShare ((outsAt V c n hn).2) ∗ others c) ∗ (∃ r, prngReg c r)) := rfl
theorem inv_pos (c : Dev nD) (n : ℕ) (h : n ≤ cfg1.N) (hz : n ≠ 0) :
    inv V c n h = iprop(iprop(owns (c : Thread nD τ) acc fullShare ((outsAt V c (n - 1) (by omega)).2) ∗ others c) ∗ (∃ r, prngReg c r)) := by
  cases n with
  | zero => exact absurd rfl hz
  | succ n => rfl

/-! ## The proof data -/

/-- The arrays as the region finds them; after the body each input's buffer at its block, the output's at `outsAt`;
    the invariant `inv`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg1.N) : (dat V c).leavesExact 0 t = owns (c : Thread nD τ) (ms0 t) fullShare (iblk V c 0 t) := by
  unfold Dat.leavesExact; rw [live_0 t, after_0]
theorem leaves_1 (c : Dev nD) (t : Fin cfg1.N) : (dat V c).leavesExact 1 t = owns (c : Thread nD τ) (ms1 t) fullShare (iblk V c 1 t) := by
  unfold Dat.leavesExact; rw [live_1 t, after_1]
theorem leaves_2 (c : Dev nD) (t : Fin cfg1.N) : (dat V c).leavesExact 2 t = owns (c : Thread nD τ) (ms2 t) fullShare (iblk V c 2 t) := by
  unfold Dat.leavesExact; rw [live_2 t, after_2]

set_option maxHeartbeats 4800000 in
/-- The body at any point: the closed forms say which case the point is in; the invariant hands the body the accumulator
    at what the point before left (at anything before the first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = inv V c (t.val + 1) t.isLt from rfl, inv_succ]
  rw [leaves_0, leaves_1, leaves_2]
  have hN : t.val < 64 := lt_of_lt_of_eq t.isLt (show cfg1.N = 64 from N_1)
  by_cases h0 : t.val % 4 = 0
  · have h1 : ¬t.val % 4 = 3 := by omega
    rw [Dat.leavesExact_idle (dat V c) 3 t (idle_3 t (fun h => h1 ((isLast_iff t).mp h))) (noFlush_3 t (fun h => h1 ((isLast_iff t).mp h)))]
    rw [outsAt_first V c t h0]
    unfold accFirst; (try dsimp only)
    by_cases hz : t.val = 0
    · rw [inv_castSucc V c t, inv_zero V c _ _ hz, classInv_eq]
      iintro ⟨⟨⟨HS, Hoth⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) acc (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst V c t _ _)
          iexact Hoth
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) acc (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst V c t _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live_3 t ((isLast_iff t).mpr h1)], after_3]
      rw [outsAt_last V c t h0 h1]
      unfold outLast accLast; (try dsimp only)
      rw [inv_castSucc V c t, inv_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) (ms0 t) (hs0 t) (ms1 t) (hs1 t) (ms2 t) (hs2 t) (ms3 t) (hs3 t) acc (Memref.isWhole_whole _) (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_accLast V c t _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_outLast V c t _ _ _)
    · rw [Dat.leavesExact_idle (dat V c) 3 t (idle_3 t (fun h => h1 ((isLast_iff t).mp h))) (noFlush_3 t (fun h => h1 ((isLast_iff t).mp h)))]
      rw [outsAt_mid V c t h0 h1]
      unfold accMid; (try dsimp only)
      rw [inv_castSucc V c t, inv_pos V c _ _ hz]
      iintro ⟨⟨⟨HS, Hoth⟩, Hg⟩, Ho, ⟨%d0, H0⟩, ⟨%d1, H1⟩, ⟨%d2, H2⟩, ⟨%d3, H3⟩⟩
      iapply ((runMid c (grid1.coords t) (ms0 t) (hs0 t) (ms1 t) (hs1 t) (ms2 t) (hs2 t) (ms3 t) (hs3 t) acc (Memref.isWhole_whole _) (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (cover_accMid V c t _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulator's contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 64 := N_1; omega), classInv_eq]
  iintro ⟨⟨HS, Hoth⟩, Hg⟩
  isplitl [HS Hoth]
  · isplitl [HS]
    · iexists _; iexact HS
    iexact Hoth
  iexact Hg

end Cert.KernelIdeal.Softmax

end
-- ==== Proof.KernelIdeal.Whole.lean ====
/-
  The whole program as a run of three segments — the host operations that prepare the operands (casts to the matmul
  format, the concatenation of the input and the previous hidden state, the biases as rows), the gate kernel's
  region, the softmax kernel's region — with the contents of every unscoped buffer named at each boundary: the launch
  memory, then the host operations' results, then the gate kernel's arrays at what its pipeline leaves, then the softmax
  kernel's. Every weakly fair execution terminates, and every final memory holds each unscoped buffer at the last
  boundary's contents; the frame claim and the value of the result are both read off that.
-/
import proofs.«176059_j79517024518378_2_alg».proof.Proof.KernelIdeal.Gates.Data
import proofs.«176059_j79517024518378_2_alg».proof.Proof.KernelIdeal.Softmax.Data
import proofs.«176059_j79517024518378_2_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations: the gate kernel's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gate kernel: its arrays at what its pipeline leaves, every other buffer as entered. -/
def W2 (c : Dev nD) : Valuation τ sig (Elt F) :=
  Pipeline.withArrays spec0 c (W1 m ρ c) fun w => (Gates.dat (V1 m ρ) c).arrAt w cfg0.N
theorem W2_arr (c : Dev nD) (w : Fin cfg0.W) :
    W2 m ρ c (Proc.devRef .tc (Pipeline.arrRef spec0 w)) = (Gates.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Gates.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the softmax kernel: its arrays at what its pipeline leaves, every other buffer as entered. -/
def W3 (c : Dev nD) : Valuation τ sig (Elt F) :=
  Pipeline.withArrays spec1 c (W2 m ρ c) fun w => (Softmax.dat (V2 m ρ) c).arrAt w cfg1.N
theorem W3_arr (c : Dev nD) (w : Fin cfg1.W) :
    W3 m ρ c (Proc.devRef .tc (Pipeline.arrRef spec1 w)) = (Softmax.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Softmax.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Gates.dat (V1 m ρ) c
  | ⟨1, _⟩ => fun c => Softmax.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-- After its last point each region's invariant gives back the scoped buffers no window stages and the generator
    register: the accumulators' named contents are forgotten. -/
theorem out0 (c : Dev nD) : (Gates.dat (V1 m ρ) c).Φ (Fin.last cfg0.N)
    ⊢ (iprop(Pipeline.scopedRest (Ix := Unit) (Name := ℕ) (U := UR sig nD τ) (Lvl := ℕ) (Val := Elt F) spec0 c ∗ ∃ r, prngReg c r) : sProp 𝕄) := by
  have h := Gates.inv_out (V1 m ρ) c
  unfold Pipeline.ΦA at h
  exact h
theorem out1 (c : Dev nD) : (Softmax.dat (V2 m ρ) c).Φ (Fin.last cfg1.N)
    ⊢ (iprop(Pipeline.scopedRest (Ix := Unit) (Name := ℕ) (U := UR sig nD τ) (Lvl := ℕ) (Val := Elt F) spec1 c ∗ ∃ r, prngReg c r) : sProp 𝕄) := by
  have h := Softmax.inv_out (V2 m ρ) c
  unfold Pipeline.ΦA at h
  exact h

/-! ## The regions as segments -/

set_option backward.isDefEq.respectTransparency.types false in
/-- Region 0 over the thread state: entered from every unscoped buffer at the boundary contents before it, left at
    those after it. Its arrays are split out of the unscoped buffers and put back at the exit contents; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Gates.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = (Gates.dat (V1 m ρ) c).Φ (Fin.last cfg0.N) from rfl]
    have h := out0 m ρ c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary contents before it, left at
    those after it. Its arrays are split out of the unscoped buffers and put back at the exit contents; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Softmax.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = (Softmax.dat (V2 m ρ) c).Φ (Fin.last cfg1.N) from rfl]
    have h := out1 m ρ c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Whole

end
-- ==== Proof.KernelIdeal.HostReads.lean ====
/-
  What the host operations before the first kernel leave in each operand buffer, on the extended reals: a cast to the
  matmul format is the identity, so each weight matrix's buffer holds the argument itself; the concatenated input is
  the concatenation of the two arguments; a bias reshaped to a row holds at column j the bias's entry j; the cell
  state is no host operation's result and holds the argument.
-/
import proofs.«176059_j79517024518378_2_alg».proof.Proof.KernelIdeal.Whole
import Idealize.ShloMosaic.Lib.StableHlo.Run
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The concatenated input: the two arguments side by side along the second axis. -/
theorem V1_v2 (c : Dev nD) : (V1 (F := Ideal) m ρ c main_v2 : S4096x8192.Idx → EReal)
    = concatenate S4096x8192 1 [⟨S4096x4096, m ((c : Thread nD τ).loc main_arg0)⟩, ⟨S4096x4096, m ((c : Thread nD τ).loc main_arg1)⟩] concatenates_S4096x4096_S4096x4096_S4096x8192_d1 := by
  dsimp only [V1, W1, hostOps0]; after_results; rfl

/-- The weight matrices: each buffer holds its argument. -/
theorem V1_v3 (c : Dev nD) : (V1 (F := Ideal) m ρ c main_v3 : S4096x8192.Idx → EReal) = m ((c : Thread nD τ).loc main_arg3) := by
  dsimp only [V1, W1, hostOps0]; after_results; rfl
theorem V1_v4 (c : Dev nD) : (V1 (F := Ideal) m ρ c main_v4 : S4096x8192.Idx → EReal) = m ((c : Thread nD τ).loc main_arg5) := by
  dsimp only [V1, W1, hostOps0]; after_results; rfl
theorem V1_v5 (c : Dev nD) : (V1 (F := Ideal) m ρ c main_v5 : S4096x8192.Idx → EReal) = m ((c : Thread nD τ).loc main_arg7) := by
  dsimp only [V1, W1, hostOps0]; after_results; rfl
theorem V1_v6 (c : Dev nD) : (V1 (F := Ideal) m ρ c main_v6 : S4096x8192.Idx → EReal) = m ((c : Thread nD τ).loc main_arg9) := by
  dsimp only [V1, W1, hostOps0]; after_results; rfl
theorem V1_v7 (c : Dev nD) : (V1 (F := Ideal) m ρ c main_v7 : S4096x4096.Idx → EReal) = m ((c : Thread nD τ).loc main_arg11) := by
  dsimp only [V1, W1, hostOps0]; after_results; rfl

/-- The biases as rows: column j of the row is entry j of the bias. -/
theorem V1_v8_row (c : Dev nD) : (fun i : (⟨1, ![4096]⟩ : Shape).Idx => (V1 (F := Ideal) m ρ c main_v8 : S1x4096.Idx → EReal) (ix2 0 (i 0)))
    = m ((c : Thread nD τ).loc main_arg4) := by
  dsimp only [V1, W1, hostOps0]; after_results
  funext i
  show shapeCast (⟨2, ![1, 4096]⟩ : Shape) (m ((c : Thread nD τ).loc main_arg4)) shapeCasts_S4096_S1x4096 (ix2 0 (i 0)) = m ((c : Thread nD τ).loc main_arg4) i
  refine (shapeCast_addUnit_apply ![4096] _ _ _).trans ?_
  congr 1; funext a; match a with | ⟨0, _⟩ => rfl
theorem V1_v9_row (c : Dev nD) : (fun i : (⟨1, ![4096]⟩ : Shape).Idx => (V1 (F := Ideal) m ρ c main_v9 : S1x4096.Idx → EReal) (ix2 0 (i 0)))
    = m ((c : Thread nD τ).loc main_arg6) := by
  dsimp only [V1, W1, hostOps0]; after_results
  funext i
  show shapeCast (⟨2, ![1, 4096]⟩ : Shape) (m ((c : Thread nD τ).loc main_arg6)) shapeCasts_S4096_S1x4096 (ix2 0 (i 0)) = m ((c : Thread nD τ).loc main_arg6) i
  refine (shapeCast_addUnit_apply ![4096] _ _ _).trans ?_
  congr 1; funext a; match a with | ⟨0, _⟩ => rfl
theorem V1_v10_row (c : Dev nD) : (fun i : (⟨1, ![4096]⟩ : Shape).Idx => (V1 (F := Ideal) m ρ c main_v10 : S1x4096.Idx → EReal) (ix2 0 (i 0)))
    = m ((c : Thread nD τ).loc main_arg8) := by
  dsimp only [V1, W1, hostOps0]; after_results
  funext i
  show shapeCast (⟨2, ![1, 4096]⟩ : Shape) (m ((c : Thread nD τ).loc main_arg8)) shapeCasts_S4096_S1x4096 (ix2 0 (i 0)) = m ((c : Thread nD τ).loc main_arg8) i
  refine (shapeCast_addUnit_apply ![4096] _ _ _).trans ?_
  congr 1; funext a; match a with | ⟨0, _⟩ => rfl
theorem V1_v11_row (c : Dev nD) : (fun i : (⟨1, ![4096]⟩ : Shape).Idx => (V1 (F := Ideal) m ρ c main_v11 : S1x4096.Idx → EReal) (ix2 0 (i 0)))
    = m ((c : Thread nD τ).loc main_arg10) := by
  dsimp only [V1, W1, hostOps0]; after_results
  funext i
  show shapeCast (⟨2, ![1, 4096]⟩ : Shape) (m ((c : Thread nD τ).loc main_arg10)) shapeCasts_S4096_S1x4096 (ix2 0 (i 0)) = m ((c : Thread nD τ).loc main_arg10) i
  refine (shapeCast_addUnit_apply ![4096] _ _ _).trans ?_
  congr 1; funext a; match a with | ⟨0, _⟩ => rfl
theorem V1_v12_row (c : Dev nD) : (fun i : (⟨1, ![4096]⟩ : Shape).Idx => (V1 (F := Ideal) m ρ c main_v12 : S1x4096.Idx → EReal) (ix2 0 (i 0)))
    = m ((c : Thread nD τ).loc main_arg12) := by
  dsimp only [V1, W1, hostOps0]; after_results
  funext i
  show shapeCast (⟨2, ![1, 4096]⟩ : Shape) (m ((c : Thread nD τ).loc main_arg12)) shapeCasts_S4096_S1x4096 (ix2 0 (i 0)) = m ((c : Thread nD τ).loc main_arg12) i
  refine (shapeCast_addUnit_apply ![4096] _ _ _).trans ?_
  congr 1; funext a; match a with | ⟨0, _⟩ => rfl

/-- The cell state: no host operation writes it. -/
theorem V1_arg2 (c : Dev nD) : (V1 (F := Ideal) m ρ c main_arg2 : S4096x4096.Idx → EReal) = m ((c : Thread nD τ).loc main_arg2) :=
  (show W1 m ρ c (Proc.devRef .tc main_arg2) = _ from Gen.V1_of m c main_arg2 (by decide)).trans rfl

/-- The softmax kernel's two host-prepared operands are untouched by the gate kernel. -/
theorem V2_v7 (c : Dev nD) : V2 (F := Ideal) m ρ c main_v7 = V1 m ρ c main_v7 := W2_of_ne m ρ c main_v7 (by decide)
theorem V2_v12 (c : Dev nD) : V2 (F := Ideal) m ρ c main_v12 = V1 m ρ c main_v12 := W2_of_ne m ρ c main_v12 (by decide)
/-- Its first operand is the gate kernel's result. -/
theorem V2_v13 (c : Dev nD) : V2 (F := Ideal) m ρ c main_v13 = (Gates.dat (V1 m ρ) c).arrAt 10 cfg0.N := W2_arr m ρ c 10
/-- The program's result is the softmax kernel's. -/
theorem V3_v14 (c : Dev nD) : W3 (F := Ideal) m ρ c (Proc.devRef .tc main_v14) = (Softmax.dat (V2 m ρ) c).arrAt 3 cfg1.N := W3_arr m ρ c 3

end Cert.KernelIdeal.Whole

end
-- ==== Proof.KernelIdeal.Frame.lean ====
/-
  The frame claim read off the whole run: no host operation writes an argument and no region changes one (the gate
  kernel reads the cell state through an input window, whose array ends as entered; every other argument bypasses both
  regions), so each argument's buffer at the last boundary is the launch memory's.
-/
import proofs.«176059_j79517024518378_2_alg».proof.Proof.KernelIdeal.Whole

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (show W1 m ρ c (Proc.devRef .tc main_arg0) = _ from Gen.V1_of m c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (show W1 m ρ c (Proc.devRef .tc main_arg1) = _ from Gen.V1_of m c main_arg1 (by decide)).trans rfl
/-- The cell state is an input of the gate kernel: its array ends as entered. -/
theorem W3_main_arg2 (c : Dev nD) : W3 m ρ c (Proc.devRef .tc main_arg2) = m ((c : Thread nD τ).loc main_arg2) :=
  (W3_of_ne m ρ c main_arg2 (by decide)).trans <|
    ((W2_arr m ρ c 9).trans (((Gates.dat (V1 m ρ) c).arrAt_in 9 rfl _).trans (Gates.A_eq (V1 m ρ) c 9))).trans <|
      (show W1 m ρ c (Proc.devRef .tc main_arg2) = _ from Gen.V1_of m c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    (show W1 m ρ c (Proc.devRef .tc main_arg3) = _ from Gen.V1_of m c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <|
    (show W1 m ρ c (Proc.devRef .tc main_arg4) = _ from Gen.V1_of m c main_arg4 (by decide)).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <|
    (show W1 m ρ c (Proc.devRef .tc main_arg5) = _ from Gen.V1_of m c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <|
    (show W1 m ρ c (Proc.devRef .tc main_arg6) = _ from Gen.V1_of m c main_arg6 (by decide)).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <|
    (show W1 m ρ c (Proc.devRef .tc main_arg7) = _ from Gen.V1_of m c main_arg7 (by decide)).trans rfl
theorem W3_main_arg8 (c : Dev nD) : W3 m ρ c (Proc.devRef .tc main_arg8) = m ((c : Thread nD τ).loc main_arg8) :=
  (W3_of_ne m ρ c main_arg8 (by decide)).trans <| (W2_of_ne m ρ c main_arg8 (by decide)).trans <|
    (show W1 m ρ c (Proc.devRef .tc main_arg8) = _ from Gen.V1_of m c main_arg8 (by decide)).trans rfl
theorem W3_main_arg9 (c : Dev nD) : W3 m ρ c (Proc.devRef .tc main_arg9) = m ((c : Thread nD τ).loc main_arg9) :=
  (W3_of_ne m ρ c main_arg9 (by decide)).trans <| (W2_of_ne m ρ c main_arg9 (by decide)).trans <|
    (show W1 m ρ c (Proc.devRef .tc main_arg9) = _ from Gen.V1_of m c main_arg9 (by decide)).trans rfl
theorem W3_main_arg10 (c : Dev nD) : W3 m ρ c (Proc.devRef .tc main_arg10) = m ((c : Thread nD τ).loc main_arg10) :=
  (W3_of_ne m ρ c main_arg10 (by decide)).trans <| (W2_of_ne m ρ c main_arg10 (by decide)).trans <|
    (show W1 m ρ c (Proc.devRef .tc main_arg10) = _ from Gen.V1_of m c main_arg10 (by decide)).trans rfl
theorem W3_main_arg11 (c : Dev nD) : W3 m ρ c (Proc.devRef .tc main_arg11) = m ((c : Thread nD τ).loc main_arg11) :=
  (W3_of_ne m ρ c main_arg11 (by decide)).trans <| (W2_of_ne m ρ c main_arg11 (by decide)).trans <|
    (show W1 m ρ c (Proc.devRef .tc main_arg11) = _ from Gen.V1_of m c main_arg11 (by decide)).trans rfl
theorem W3_main_arg12 (c : Dev nD) : W3 m ρ c (Proc.devRef .tc main_arg12) = m ((c : Thread nD τ).loc main_arg12) :=
  (W3_of_ne m ρ c main_arg12 (by decide)).trans <| (W2_of_ne m ρ c main_arg12 (by decide)).trans <|
    (show W1 m ρ c (Proc.devRef .tc main_arg12) = _ from Gen.V1_of m c main_arg12 (by decide)).trans rfl

/-- Every weakly fair execution of the program terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c)⟩) (run m ρ)

end Cert.KernelIdeal.Whole

end
-- ==== Proof.KernelIdeal.SoftmaxValue.Pieces.lean ====
/-
  What each control case of the softmax kernel's body leaves behind, as the body's arithmetic applied to the blocks
  it loaded. The body's stores each cover a whole buffer, so reading a buffer back after them gives the last stored
  value, and a load that follows a store into the same buffer reads what was stored:
    first block of a row-tile   accumulator = (zero block) + hidden-block · weight-blockᵀ
    middle block                accumulator = (accumulator before) + hidden-block · weight-blockᵀ
    last block                  accumulator as for a middle block; output = row softmax of (accumulator + bias row)
  The four statements hold for any float values.
-/
import proofs.«176059_j79517024518378_2_alg».proof.Proof.KernelIdeal.Softmax.Data
import Idealize.ShloMosaic.Lib.Pipeline.Value
import Idealize.ShloMosaic.Lib.Tactic

set_option maxRecDepth 16384

noncomputable section

namespace Cert.KernelIdeal.SoftmaxValue

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Softmax

variable {F : FTy → Type} [FloatOps F]
variable (V : (c : Dev nD) → (b : Ref sig .tc) → Buf (Elt F) ((c : Thread nD τ).loc b))

/-- Every load and store of the body starts at the origin of its buffer. -/
theorem origin : (![0, 0] : Fin 2 → Nat) = fun _ => 0 := funext fun a => by fin_cases a <;> rfl

/-- After the first block of a row-tile the accumulator holds the zero block plus the block product. -/
theorem accFirst_eq (c : Dev nD) (t : Fin cfg1.N) (hc0 : isFirst (grid1.coords t)) (hc1 : ¬isLast (grid1.coords t)) :
    accFirst V c t hc0 hc1 = k1_pay2 (k1_pay1 (F := F)) (iblk V c 0 t) (iblk V c 1 t) := by
  unfold accFirst
  rw [View.read_writes_eq_canon _ _ _ (cover_accFirst V c t hc0 hc1)]
  unfold runFirst
  dsimp only
  sl_unfold_words
  rw [View.canon_cons_unit_zero (S := S256x4096) origin, View.readCov_unit_zero (S := S256x4096) _ origin]
  simp only [View.readAt_eq_ld, (hs0 t).read_unread, (hs1 t).read_unread,
    View.ld_unit_zero (S := S256x1024) origin, View.ld_unit_zero (S := S4096x1024) origin]

/-- After a middle block the accumulator holds what it held before plus the block product. -/
theorem accMid_eq (c : Dev nD) (t : Fin cfg1.N) (hc0 : ¬isFirst (grid1.coords t)) (hc1 : ¬isLast (grid1.coords t))
    (xs : Vec F S256x4096 .f32) :
    accMid V c t hc0 hc1 xs = k1_pay2 xs (iblk V c 0 t) (iblk V c 1 t) := by
  unfold accMid
  rw [View.read_writes_eq_canon _ _ _ (cover_accMid V c t hc0 hc1 xs)]
  unfold runMid
  dsimp only
  rw [View.canon_unit_zero origin]
  simp only [View.readAt_eq_ld, (hs0 t).read_unread, (hs1 t).read_unread, (Memref.isWhole_whole cc1_scratch0).read_unread,
    View.ld_unit_zero (S := S256x4096) origin, View.ld_unit_zero (S := S256x1024) origin,
    View.ld_unit_zero (S := S4096x1024) origin]

/-- After the last block the accumulator holds what it held before plus the block product. -/
theorem accLast_eq (c : Dev nD) (t : Fin cfg1.N) (hc0 : ¬isFirst (grid1.coords t)) (hc1 : isLast (grid1.coords t))
    (xs : Vec F S256x4096 .f32) :
    accLast V c t hc0 hc1 xs = k1_pay2 xs (iblk V c 0 t) (iblk V c 1 t) := by
  unfold accLast
  rw [View.read_writes_eq_canon _ _ _ (cover_accLast V c t hc0 hc1 xs)]
  unfold runLast
  dsimp only
  sl_unfold_words
  rw [View.canon_unit_zero origin]
  simp only [View.readAt_eq_ld, (hs0 t).read_unread, (hs1 t).read_unread, (Memref.isWhole_whole cc1_scratch0).read_unread,
    View.ld_unit_zero (S := S256x4096) origin, View.ld_unit_zero (S := S256x1024) origin,
    View.ld_unit_zero (S := S4096x1024) origin]

/-- At the last block the output's buffer receives the row softmax of the finished accumulator plus the bias row. -/
theorem outLast_eq (c : Dev nD) (t : Fin cfg1.N) (hc0 : ¬isFirst (grid1.coords t)) (hc1 : isLast (grid1.coords t))
    (xs : Vec F S256x4096 .f32) :
    outLast V c t hc0 hc1 xs = k1_pay3 (k1_pay2 xs (iblk V c 0 t) (iblk V c 1 t)) (iblk V c 2 t) := by
  unfold outLast
  rw [View.read_writes_eq_canon _ _ _ (cover_outLast V c t hc0 hc1 xs)]
  unfold runLast
  dsimp only
  sl_unfold_words
  rw [View.canon_unit_zero origin, View.readCov_unit_zero (S := S256x4096) _ origin]
  simp only [View.readAt_eq_ld, (hs0 t).read_unread, (hs1 t).read_unread, (hs2 t).read_unread,
    (Memref.isWhole_whole cc1_scratch0).read_unread,
    View.ld_unit_zero (S := S256x4096) origin, View.ld_unit_zero (S := S256x1024) origin,
    View.ld_unit_zero (S := S4096x1024) origin, View.ld_unit_zero (S := S1x4096) origin]

end Cert.KernelIdeal.SoftmaxValue

end
-- ==== Proof.KernelIdeal.SoftmaxValue.Steps.lean ====
/-
  The accumulator from one grid point to the next, for any float values. Writing acc(t) for what the accumulator
  holds after the body at point t and step(a, t) for a plus the product of the hidden and weight blocks at t:
    at the first block of a row-tile        acc(t) = step(zero block, t)
    at a later block                        acc(t) = step(acc(t − 1), t)
  and at the last block the output's buffer receives the row softmax of step(acc(t − 1), t) plus the bias row.
-/
import proofs.«176059_j79517024518378_2_alg».proof.Proof.KernelIdeal.SoftmaxValue.Pieces

set_option maxRecDepth 16384

noncomputable section

namespace Cert.KernelIdeal.SoftmaxValue

open Idealize.ShloMosaic Idealize.ShloMosaic.TcCoe Idealize.SL.Sem
open Idealize.ShloMosaic.Pipeline (Dat)
open Cert.KernelIdeal Cert.KernelIdeal.Gen Cert.KernelIdeal.Softmax

variable {F : FTy → Type} [FloatOps F]
variable (V : (c : Dev nD) → (b : Ref sig .tc) → Buf (Elt F) ((c : Thread nD τ).loc b))

/-- The point before `t` (point 0 is its own predecessor; it is never asked for). -/
def prev (t : Fin cfg1.N) : Fin cfg1.N := ⟨t.val - 1, Nat.lt_of_le_of_lt (Nat.sub_le _ _) t.isLt⟩

theorem prev_val (t : Fin cfg1.N) : (prev t).val = t.val - 1 := rfl

/-- What the accumulator holds after the body at point `t`. -/
def accAt (c : Dev nD) (t : Fin cfg1.N) : Vec F S256x4096 .f32 := (outsAt V c t.val t.isLt).2

/-- The first block of a row-tile starts from the zero block. -/
theorem accAt_first (c : Dev nD) (t : Fin cfg1.N) (h0 : t.val % 4 = 0) :
    accAt V c t = k1_pay2 (k1_pay1 (F := F)) (iblk V c 0 t) (iblk V c 1 t) := by
  have hf : isFirst (grid1.coords t) := (isFirst_iff t).mpr h0
  have hl : ¬isLast (grid1.coords t) := fun h => absurd ((isLast_iff t).mp h) (by omega)
  unfold accAt
  rw [outsAt_first V c t h0]
  dsimp only
  exact accFirst_eq V c t hf hl

/-- A middle block continues from the point before. -/
theorem accAt_mid (c : Dev nD) (t : Fin cfg1.N) (h0 : ¬t.val % 4 = 0) (h1 : ¬t.val % 4 = 3) :
    accAt V c t = k1_pay2 (accAt V c (prev t)) (iblk V c 0 t) (iblk V c 1 t) := by
  have hf : ¬isFirst (grid1.coords t) := fun h => h0 ((isFirst_iff t).mp h)
  have hl : ¬isLast (grid1.coords t) := fun h => h1 ((isLast_iff t).mp h)
  unfold accAt
  rw [outsAt_mid V c t h0 h1]
  dsimp only
  exact accMid_eq V c t hf hl (outsAt V c (t.val - 1) (Nat.lt_of_le_of_lt (Nat.sub_le _ _) t.isLt)).2

/-- At the last block the output's buffer receives the softmax of the finished accumulator plus the bias row. -/
theorem outAt_last (c : Dev nD) (t : Fin cfg1.N) (h0 : ¬t.val % 4 = 0) (h1 : t.val % 4 = 3) :
    (outsAt V c t.val t.isLt).1
      = k1_pay3 (k1_pay2 (accAt V c (prev t)) (iblk V c 0 t) (iblk V c 1 t)) (iblk V c 2 t) := by
  have hf : ¬isFirst (grid1.coords t) := fun h => h0 ((isFirst_iff t).mp h)
  have hl : isLast (grid1.coords t) := (isLast_iff t).mpr h1
  unfold accAt
  rw [outsAt_last V c t h0 h1]
  dsimp only
  exact outLast_eq V c t hf hl (outsAt V c (t.val - 1) (Nat.lt_of_le_of_lt (Nat.sub_le _ _) t.isLt)).2

end Cert.KernelIdeal.SoftmaxValue

end
-- ==== Proof.KernelIdeal.SoftmaxValue.Blocks.lean ====
/-
  Where the softmax kernel's blocks sit in their arrays, for any float values. At grid point t — row-tile t / 4,
  block t mod 4 of the hidden axis — the hidden state's block holds rows 256·(t / 4) … and columns 1024·(t mod 4) …,
  the weights' block every row and columns 1024·(t mod 4) …, the bias window the whole row, and the output's block
  rows 256·(t / 4) … and every column. An entry of a block is the array's entry at block index × block size + its
  coordinate in the block, on each axis; the block indices are decided once over the 64 points of the grid.
-/
import proofs.«176059_j79517024518378_2_alg».proof.Proof.KernelIdeal.Softmax.Data
import Idealize.ShloMosaic.Lib.Pipeline.Value
import Idealize.ShloMosaic.Lib.ValueIdx

set_option maxRecDepth 16384

noncomputable section

namespace Cert.KernelIdeal.SoftmaxValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Softmax

variable {F : FTy → Type} [FloatOps F]
variable (V : (c : Dev nD) → (b : Ref sig .tc) → Buf (Elt F) ((c : Thread nD τ).loc b))

/-- The four windows' block indices at every point of the grid. -/
theorem index_facts : ∀ t : Fin cfg1.N,
    win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The hidden state's block at point t, entry (r, kk): row 256·(t / 4) + r, column 1024·(t mod 4) + kk of the array. -/
theorem hidden_block (c : Dev nD) (t : Fin cfg1.N) (r : Fin 256) (kk : Fin 1024) (b k : Fin 4096)
    (hb : b.val = 256 * (t.val / 4) + r.val) (hk : k.val = 1024 * (t.val % 4) + kk.val) :
    (iblk V c 0 t : Vec F S256x1024 .bf16) (ix2 r kk) = (V c main_v13 : S4096x4096.Idx → Elt F .bf16) (ix2 b k) := by
  obtain ⟨e0, e1, -⟩ := index_facts t
  unfold iblk
  rw [View.read_apply]
  show (V c main_v13 : S4096x4096.Idx → Elt F .bf16) _ = _
  refine congrArg _ (funext fun a => Fin.ext ?_)
  match a with
  | ⟨0, _⟩ => show win1_0.index t (0 : Fin 2) * 256 + 1 * r.val = b.val; rw [e0, hb]; omega
  | ⟨1, _⟩ => show win1_0.index t (1 : Fin 2) * 1024 + 1 * kk.val = k.val; rw [e1, hk]; omega

/-- The weights' block at point t, entry (v, kk): row v, column 1024·(t mod 4) + kk of the array. -/
theorem weights_block (c : Dev nD) (t : Fin cfg1.N) (v : Fin 4096) (kk : Fin 1024) (k : Fin 4096)
    (hk : k.val = 1024 * (t.val % 4) + kk.val) :
    (iblk V c 1 t : Vec F S4096x1024 .bf16) (ix2 v kk) = (V c main_v7 : S4096x4096.Idx → Elt F .bf16) (ix2 v k) := by
  obtain ⟨-, -, e0, e1, -⟩ := index_facts t
  unfold iblk
  rw [View.read_apply]
  show (V c main_v7 : S4096x4096.Idx → Elt F .bf16) _ = _
  refine congrArg _ (funext fun a => Fin.ext ?_)
  match a with
  | ⟨0, _⟩ => show win1_1.index t (0 : Fin 2) * 4096 + 1 * v.val = v.val; rw [e0]; omega
  | ⟨1, _⟩ => show win1_1.index t (1 : Fin 2) * 1024 + 1 * kk.val = k.val; rw [e1, hk]; omega

/-- The bias window at any point is the whole bias row. -/
theorem bias_block (c : Dev nD) (t : Fin cfg1.N) (v : Fin 4096) :
    (iblk V c 2 t : Vec F S1x4096 .f32) (ix2 (0 : Fin 1) v) = (V c main_v12 : S1x4096.Idx → Elt F .f32) (ix2 (0 : Fin 1) v) := by
  obtain ⟨-, -, -, -, e0, e1, -⟩ := index_facts t
  unfold iblk
  rw [View.read_apply]
  show (V c main_v12 : S1x4096.Idx → Elt F .f32) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 4096 + 1 * v.val = v.val; rw [e1]; omega

end Cert.KernelIdeal.SoftmaxValue

end
-- ==== Proof.KernelIdeal.SoftmaxValue.Pay2.lean ====
/-
  The accumulation step of the softmax kernel read entry by entry on the extended reals. The block the reset stores
  is zero everywhere. The step adds to the accumulator, at row r and class v, the product of row r of the hidden
  block with row v of the weight block: the sum over the 1024 positions kk of the block of
  hidden(r, kk) · weight(v, kk). The matrix product contracts the second axis of both operands, and accumulating it
  into a zero splat leaves just that sum.
-/
import proofs.«176059_j79517024518378_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.SoftmaxValue

open Idealize.ShloMosaic Idealize.ShloMosaic.ValueIdx
open Cert.KernelIdeal Cert.KernelIdeal.Gen

/-- The product's dimension numbers: both operands contract their second axis. -/
abbrev blockDot : DotDims S256x1024 S4096x1024 S256x4096 := dot_S256x1024_S4096x1024_S256x4096_1_1_0_0_n_n

/-- The block the reset stores is zero at every entry. -/
theorem pay1_apply (j : S256x4096.Idx) : k1_pay1 (F := Ideal) j = 0 := by
  unfold k1_pay1
  rw [shapeCast_self]
  exact Ideal.ofBits_zero_f32

/-- The left operand is read at the output's row -/
theorem lhs_row (i : S256x4096.Idx) (q : blockDot.contr.Idx) : (blockDot.lhsIdx i q 0).val = (i 0).val := by
  unfold DotDims.lhsIdx
  rw [dif_neg (show ¬(0 : Fin S256x1024.rank) ∈ blockDot.lhsBatch by decide),
    dif_pos (show (0 : Fin S256x1024.rank) ∈ blockDot.lhsNonContracting by decide)]
  rfl
/-- and the contraction position; -/
theorem lhs_pos (i : S256x4096.Idx) (q : blockDot.contr.Idx) : (blockDot.lhsIdx i q 1).val = (q ⟨0, by decide⟩).val :=
  blockDot.lhsIdx_val_of_single rfl i q
/-- the right operand at the output's column -/
theorem rhs_row (i : S256x4096.Idx) (q : blockDot.contr.Idx) : (blockDot.rhsIdx i q 0).val = (i 1).val := by
  unfold DotDims.rhsIdx
  rw [dif_neg (show ¬(0 : Fin S4096x1024.rank) ∈ blockDot.rhsBatch by decide),
    dif_pos (show (0 : Fin S4096x1024.rank) ∈ blockDot.rhsNonContracting by decide)]
  rfl
/-- and the contraction position. -/
theorem rhs_pos (i : S256x4096.Idx) (q : blockDot.contr.Idx) : (blockDot.rhsIdx i q 1).val = (q ⟨0, by decide⟩).val :=
  blockDot.rhsIdx_val_of_single rfl i q

/-- The block product into a zero splat, at row r and class v. -/
theorem blockProduct_apply (a : FVec Ideal S256x1024 .bf16) (b : FVec Ideal S4096x1024 .bf16) (r : Fin 256) (v : Fin 4096) :
    matmul blockDot none a b (constant S256x4096 .f32 0x00000000#32) (ix2 r v) = ∑ kk : Fin 1024, a (ix2 r kk) * b (ix2 v kk) := by
  show FloatOps.matmul blockDot none a b (constant S256x4096 .f32 0x00000000#32) (ix2 r v) = _
  rw [Ideal.matmul_constant_zero_apply, ← Equiv.sum_comp (contrEquiv1 blockDot 1024 rfl rfl).symm]
  refine Finset.sum_congr rfl fun kk _ => ?_
  have hk := contrEquiv1_symm_val blockDot 1024 rfl rfl kk
  have el : blockDot.lhsIdx (ix2 r v) ((contrEquiv1 blockDot 1024 rfl rfl).symm kk) = ix2 r kk := funext fun ax => Fin.ext (by
    match ax with
    | ⟨0, _⟩ => exact lhs_row _ _
    | ⟨1, _⟩ => exact (lhs_pos _ _).trans hk)
  have er : blockDot.rhsIdx (ix2 r v) ((contrEquiv1 blockDot 1024 rfl rfl).symm kk) = ix2 v kk := funext fun ax => Fin.ext (by
    match ax with
    | ⟨0, _⟩ => exact rhs_row _ _
    | ⟨1, _⟩ => exact (rhs_pos _ _).trans hk)
  rw [el, er]

/-- The accumulation step at row r and class v. -/
theorem pay2_apply (acc : Vec Ideal S256x4096 .f32) (a : Vec Ideal S256x1024 .bf16) (b : Vec Ideal S4096x1024 .bf16)
    (r : Fin 256) (v : Fin 4096) :
    k1_pay2 acc a b (ix2 r v) = acc (ix2 r v) + ∑ kk : Fin 1024, a (ix2 r kk) * b (ix2 v kk) := by
  unfold k1_pay2
  rw [shapeCast_self, shapeCast_self, shapeCast_self]
  exact congrArg (acc (ix2 r v) + ·) (blockProduct_apply a b r v)

end Cert.KernelIdeal.SoftmaxValue

end
-- ==== Proof.KernelIdeal.SoftmaxValue.LibBlockSum.lean ====
/-
  A sum over the columns of an array cut into blocks: `N` columns covered by `nb` blocks of `B` columns each,
  the last block possibly overhanging the array's end. The sum over the columns is the sum over the blocks of the
  sum over each block's columns, a column beyond the end contributing zero.

  The argument: extend the summand by zero to all naturals (`extZero`); a sum over `Fin N` is then a sum over
  `range N`, which may be lengthened to `range (nb * B)` since the added terms vanish; and `range (nb * B)` is
  enumerated by pairs (block, column in the block) through `n = j * B + q`.
-/
import Mathlib.Algebra.BigOperators.Fin
import Mathlib.Logic.Equiv.Fin.Basic

namespace Cert.LibBlockSum

open scoped BigOperators

/-- A function on `Fin N` extended by zero to every natural. -/
def extZero {M : Type*} [Zero M] {N : ℕ} (f : Fin N → M) (n : ℕ) : M :=
  if h : n < N then f ⟨n, h⟩ else 0

/-- Inside the range the extension is the function. -/
theorem extZero_of_lt {M : Type*} [Zero M] {N : ℕ} (f : Fin N → M) {n : ℕ} (h : n < N) :
    extZero f n = f ⟨n, h⟩ := dif_pos h

/-- Beyond the range the extension is zero. -/
theorem extZero_of_not_lt {M : Type*} [Zero M] {N : ℕ} (f : Fin N → M) {n : ℕ} (h : ¬ n < N) :
    extZero f n = 0 := dif_neg h

/-- Column `q` of block `j` lies inside the array when the blocks up to `n` do. -/
theorem block_lt {N B n j q : ℕ} (hj : j < n) (hq : q < B) (hlo : n * B ≤ N) : j * B + q < N :=
  calc j * B + q < j * B + B := Nat.add_lt_add_left hq _
    _ = (j + 1) * B := (Nat.succ_mul j B).symm
    _ ≤ n * B := Nat.mul_le_mul_right B hj
    _ ≤ N := hlo

/-- The sum over `Fin N` is the sum of the zero extension over any `range K` with `N ≤ K`. -/
theorem sum_eq_sum_range_extZero {M : Type*} [AddCommMonoid M] {N K : ℕ} (hK : N ≤ K) (f : Fin N → M) :
    ∑ c : Fin N, f c = ∑ n ∈ Finset.range K, extZero f n := by
  have h1 : ∑ c : Fin N, f c = ∑ n ∈ Finset.range N, extZero f n := by
    rw [← Fin.sum_univ_eq_sum_range (extZero f) N]
    exact Finset.sum_congr rfl fun c _ => (extZero_of_lt f c.isLt).symm
  rw [h1]
  exact Finset.sum_subset (Finset.range_subset_range.2 hK) fun n _ hn =>
    extZero_of_not_lt f (fun h => hn (Finset.mem_range.2 h))

/-- **A sum over the columns of an array cut into `nb` blocks of `B` columns** (`N ≤ nb * B`: the blocks cover
    the array, the last one possibly overhanging its end) is the sum over the blocks of the sum over each block's
    columns, a column beyond the array's end contributing zero. -/
theorem sum_blocks {M : Type*} [AddCommMonoid M] (N B nb : ℕ) (hN : N ≤ nb * B) (f : Fin N → M) :
    ∑ c : Fin N, f c
      = ∑ j : Fin nb, ∑ q : Fin B, (if h : j.val * B + q.val < N then f ⟨j.val * B + q.val, h⟩ else 0) := by
  have h3 : ∑ n ∈ Finset.range (nb * B), extZero f n
      = ∑ p : Fin nb × Fin B, extZero f (p.1.val * B + p.2.val) := by
    rw [← Fin.sum_univ_eq_sum_range (extZero f) (nb * B), ← Equiv.sum_comp finProdFinEquiv]
    refine Finset.sum_congr rfl fun p _ => congrArg (extZero f) ?_
    show p.2.val + B * p.1.val = p.1.val * B + p.2.val
    rw [Nat.mul_comm, Nat.add_comm]
  rw [sum_eq_sum_range_extZero hN f, h3, Fintype.sum_prod_type]
  rfl

/-- **The same with the last block split off**: when the first `n` blocks lie inside the array (`n * B ≤ N`) and
    `n + 1` blocks cover it, the sum over the columns is the sum over the full blocks of their columns, every one
    of which is a column of the array, plus the sum over the last block's columns that lie inside the array. -/
theorem sum_blocks_succ {M : Type*} [AddCommMonoid M] (N B n : ℕ) (hlo : n * B ≤ N) (hN : N ≤ (n + 1) * B)
    (f : Fin N → M) :
    ∑ c : Fin N, f c
      = (∑ j : Fin n, ∑ q : Fin B, f ⟨j.val * B + q.val, block_lt j.isLt q.isLt hlo⟩)
        + ∑ q : Fin B, (if h : n * B + q.val < N then f ⟨n * B + q.val, h⟩ else 0) := by
  rw [sum_blocks N B (n + 1) hN f, Fin.sum_univ_castSucc]
  refine congrArg₂ (· + ·) (Finset.sum_congr rfl fun j _ => Finset.sum_congr rfl fun q _ => ?_) rfl
  exact dif_pos (block_lt j.isLt q.isLt hlo)

end Cert.LibBlockSum
-- ==== Proof.KernelIdeal.SoftmaxValue.Logits.lean ====
/-
  The logits the softmax kernel has accumulated when it reaches the last block of a row-tile, on the extended reals.
  Each grid point adds to the accumulator, at row r and class v, the product of the hidden block's row r with the
  weight block's row v — 1024 terms hidden(b, k) · weight(v, k), b the row of the array the tile's row r is and k
  running over the block's columns. The first block of the tile starts from zero, so after the fourth block the entry is
      ((S₀ + S₁) + S₂) + S₃,   Sⱼ = Σ_{q < 1024} hidden(b, 1024·j + q) · weight(v, 1024·j + q),
  and a sum over 4096 columns cut into four blocks of 1024 is the sum of the four block sums: the entry is the full
  contraction Σ_{k < 4096} hidden(b, k) · weight(v, k). Addition on the extended reals is associative with 0 neutral;
  nothing needs to be finite.
-/
import proofs.«176059_j79517024518378_2_alg».proof.Proof.KernelIdeal.SoftmaxValue.Steps
import proofs.«176059_j79517024518378_2_alg».proof.Proof.KernelIdeal.SoftmaxValue.Blocks
import proofs.«176059_j79517024518378_2_alg».proof.Proof.KernelIdeal.SoftmaxValue.Pay2
import proofs.«176059_j79517024518378_2_alg».proof.Proof.KernelIdeal.SoftmaxValue.LibBlockSum

set_option maxRecDepth 16384

noncomputable section

namespace Cert.KernelIdeal.SoftmaxValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Softmax

variable (V : (c : Dev nD) → (b : Ref sig .tc) → Buf (Elt Ideal) ((c : Thread nD τ).loc b))

/-- Row r of one block against row v of another: the sum of the products of their 1024 entries. -/
def rowDot (a : Vec Ideal S256x1024 .bf16) (b : Vec Ideal S4096x1024 .bf16) (r : Fin 256) (v : Fin 4096) : EReal :=
  ∑ kk : Fin 1024, a (ix2 r kk) * b (ix2 v kk)

/-- The product of the hidden block's row r with the weight block's row v at point t. -/
def blockSum (c : Dev nD) (t : Fin cfg1.N) (r : Fin 256) (v : Fin 4096) : EReal :=
  rowDot (iblk V c 0 t) (iblk V c 1 t) r v

/-- Entry (b, k) of one square array times entry (v, k) of another. -/
def prodAt (h w : S4096x4096.Idx → EReal) (b v k : Fin 4096) : EReal := h (ix2 b k) * w (ix2 v k)

/-- One term of the full contraction: hidden(b, k) · weight(v, k). -/
def term (c : Dev nD) (b v k : Fin 4096) : EReal := prodAt (V c main_v13) (V c main_v7) b v k

/-- One accumulation step at an entry. -/
theorem step_apply (xs : Vec Ideal S256x4096 .f32) (c : Dev nD) (t : Fin cfg1.N) (r : Fin 256) (v : Fin 4096) :
    k1_pay2 xs (iblk V c 0 t) (iblk V c 1 t) (ix2 r v) = xs (ix2 r v) + blockSum V c t r v :=
  pay2_apply xs (iblk V c 0 t) (iblk V c 1 t) r v

/-- After the first block of a row-tile the accumulator's entry is that block's sum. -/
theorem acc_first_apply (c : Dev nD) (t : Fin cfg1.N) (h0 : t.val % 4 = 0) (r : Fin 256) (v : Fin 4096) :
    accAt V c t (ix2 r v) = blockSum V c t r v :=
  (congrFun (accAt_first V c t h0) (ix2 r v)).trans
    ((step_apply V (k1_pay1 (F := Ideal)) c t r v).trans (by rw [pay1_apply, zero_add]))

/-- After a middle block it is the entry before plus the block's sum. -/
theorem acc_mid_apply (c : Dev nD) (t : Fin cfg1.N) (h0 : ¬t.val % 4 = 0) (h1 : ¬t.val % 4 = 3) (r : Fin 256) (v : Fin 4096) :
    accAt V c t (ix2 r v) = accAt V c (prev t) (ix2 r v) + blockSum V c t r v :=
  (congrFun (accAt_mid V c t h0 h1) (ix2 r v)).trans (step_apply V (accAt V c (prev t)) c t r v)

/-- The block sum at a point of row-tile T and block J, over the arrays: the terms of columns 1024·J … of row b. -/
theorem blockSum_eq (c : Dev nD) (s : Fin cfg1.N) (T J : ℕ) (hT : s.val / 4 = T) (hJ : s.val % 4 = J)
    (r : Fin 256) (v b : Fin 4096) (hb : b.val = 256 * T + r.val) :
    blockSum V c s r v
      = ∑ q : Fin 1024, (if h : J * 1024 + q.val < 4096 then term V c b v ⟨J * 1024 + q.val, h⟩ else 0) := by
  have hJ4 : J < 4 := by rw [← hJ]; exact Nat.mod_lt _ (by decide)
  unfold blockSum rowDot
  refine Finset.sum_congr rfl fun q _ => ?_
  have hq : J * 1024 + q.val < 4096 := by have := q.isLt; omega
  rw [dif_pos hq]
  unfold term prodAt
  exact congrArg₂ (fun x y : EReal => x * y)
    (hidden_block V c s r q b ⟨J * 1024 + q.val, hq⟩ (by rw [hT]; exact hb)
      (by rw [hJ]; show J * 1024 + q.val = 1024 * J + q.val; omega))
    (weights_block V c s v q ⟨J * 1024 + q.val, hq⟩ (by rw [hJ]; show J * 1024 + q.val = 1024 * J + q.val; omega))

/-- **The finished logits**: at the last block of a row-tile the step's result at row r and class v is the full
    contraction of row b of the hidden state with row v of the weights, b the array's row the tile's row r is. -/
theorem logits_apply (c : Dev nD) (t : Fin cfg1.N) (h1 : t.val % 4 = 3) (r : Fin 256) (v b : Fin 4096)
    (hb : b.val = 256 * (t.val / 4) + r.val) :
    k1_pay2 (accAt V c (prev t)) (iblk V c 0 t) (iblk V c 1 t) (ix2 r v) = ∑ k : Fin 4096, term V c b v k := by
  have p1 : (prev t).val = t.val - 1 := rfl
  have p2 : (prev (prev t)).val = t.val - 2 := by show t.val - 1 - 1 = _; omega
  have p3 : (prev (prev (prev t))).val = t.val - 3 := by show t.val - 1 - 1 - 1 = _; omega
  rw [step_apply V (accAt V c (prev t)) c t r v,
    acc_mid_apply V c (prev t) (by rw [p1]; omega) (by rw [p1]; omega) r v,
    acc_mid_apply V c (prev (prev t)) (by rw [p2]; omega) (by rw [p2]; omega) r v,
    acc_first_apply V c (prev (prev (prev t))) (by rw [p3]; omega) r v]
  rw [blockSum_eq V c t (t.val / 4) 3 rfl h1 r v b hb,
    blockSum_eq V c (prev t) (t.val / 4) 2 (by rw [p1]; omega) (by rw [p1]; omega) r v b hb,
    blockSum_eq V c (prev (prev t)) (t.val / 4) 1 (by rw [p2]; omega) (by rw [p2]; omega) r v b hb,
    blockSum_eq V c (prev (prev (prev t))) (t.val / 4) 0 (by rw [p3]; omega) (by rw [p3]; omega) r v b hb]
  rw [Cert.LibBlockSum.sum_blocks 4096 1024 4 (by decide) (term V c b v), Fin.sum_univ_four]
  rfl

end Cert.KernelIdeal.SoftmaxValue

end
-- ==== Proof.Spec.lean ====
/-
  What both programs compute, as functions of the thirteen argument arrays on the extended reals, entry by entry.
  One LSTM step and a softmax output layer:
    pre-activation of a gate   p(b, j) = Σ_k xh(b, k) · W(j, k) + bias(j),    xh the row-wise concatenation of x and h
    new hidden state           h'(b, j) = tanh (c(b, j) · σ(p_f) + tanh(p_c) · σ(p_i)) · σ(p_o)
    logits                     l(b, v) = Σ_k h'(b, k) · Wout(v, k) + bout(v)
    output                     exp (l(b, v) − M(b)) / Σ_v' exp (l(b, v') − M(b)),   M(b) the maximum of row b of l
  with σ the logistic function 1 / (1 + e^(−x)) and every operation the exact one on the extended reals.
-/
import Idealize.ShloMosaic.PureOps.Ideal
import Idealize.ShloMosaic.Lib.ValueIdx

noncomputable section

namespace Cert.Spec

open Idealize.ShloMosaic Idealize.ShloMosaic.ValueIdx

/-- The shapes of the arguments: square 4096 × 4096, the gate weights 4096 × 8192, vectors of 4096. -/
abbrev Sq : Shape := ⟨2, ![4096, 4096]⟩
abbrev Wide : Shape := ⟨2, ![4096, 8192]⟩
abbrev Vec1 : Shape := ⟨1, ![4096]⟩

/-- A gate's pre-activation at row `b`, unit `j`: row `b` of the concatenated input against row `j` of the gate's
    weights, plus the gate's bias at `j`. -/
def preact (xh W : Wide.Idx → EReal) (bias : Vec1.Idx → EReal) (b j : Fin 4096) : EReal :=
  (∑ k : Fin 8192, xh (ix2 b k) * W (ix2 j k)) + bias (ix1 j)

/-- The new hidden state at row `b`, unit `j`. -/
def hidden (xh : Wide.Idx → EReal) (c : Sq.Idx → EReal) (Wf : Wide.Idx → EReal) (bf : Vec1.Idx → EReal)
    (Wi : Wide.Idx → EReal) (bi : Vec1.Idx → EReal) (Wc : Wide.Idx → EReal) (bc : Vec1.Idx → EReal)
    (Wo : Wide.Idx → EReal) (bo : Vec1.Idx → EReal) (b j : Fin 4096) : EReal :=
  Ideal.tanh (c (ix2 b j) * Ideal.logistic (preact xh Wf bf b j)
      + Ideal.tanh (preact xh Wc bc b j) * Ideal.logistic (preact xh Wi bi b j))
    * Ideal.logistic (preact xh Wo bo b j)

/-- The logit at row `b`, class `v`: row `b` of the hidden state against row `v` of the output weights, plus the bias. -/
def logit (hn : Sq.Idx → EReal) (Wout : Sq.Idx → EReal) (bout : Vec1.Idx → EReal) (b v : Fin 4096) : EReal :=
  (∑ k : Fin 4096, hn (ix2 b k) * Wout (ix2 v k)) + bout (ix1 v)

/-- The maximum of row `b` of the logits, as the fold of `max` from −∞ over the row. -/
def rowMax (l : Fin 4096 → Fin 4096 → EReal) (b : Fin 4096) : EReal :=
  Finset.univ.fold max ⊥ (fun v : Fin 4096 => l b v)

/-- The softmax of row `b` at class `v`, shifted by the row maximum. -/
def softmax (l : Fin 4096 → Fin 4096 → EReal) (b v : Fin 4096) : EReal :=
  Ideal.div (Ideal.exp (l b v - rowMax l b)) (∑ v' : Fin 4096, Ideal.exp (l b v' - rowMax l b))

/-- The hidden state as an array. -/
def hiddenArr (xh : Wide.Idx → EReal) (c : Sq.Idx → EReal) (Wf : Wide.Idx → EReal) (bf : Vec1.Idx → EReal)
    (Wi : Wide.Idx → EReal) (bi : Vec1.Idx → EReal) (Wc : Wide.Idx → EReal) (bc : Vec1.Idx → EReal)
    (Wo : Wide.Idx → EReal) (bo : Vec1.Idx → EReal) : Sq.Idx → EReal :=
  fun i => hidden xh c Wf bf Wi bi Wc bc Wo bo (i 0) (i 1)

/-- The output as an array, from the hidden state. -/
def probsArr (hn : Sq.Idx → EReal) (Wout : Sq.Idx → EReal) (bout : Vec1.Idx → EReal) : Sq.Idx → EReal :=
  fun i => softmax (logit hn Wout bout) (i 0) (i 1)

end Cert.Spec

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelIdeal.SoftmaxValue.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«176059_j79517024518378_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.KernelIdeal.SoftmaxValue.Pay3.lean ====
/-
  The last step of the softmax kernel read entry by entry on the extended reals. From the finished accumulator and
  the bias row it forms x(r, v) = accumulator(r, v) + bias(v), takes each row's maximum M(r) as the fold of max
  from −∞ over the row, and stores exp (x(r, v) − M(r)) divided by the row's sum of exp (x(r, v') − M(r)). The maximum
  and the sum are vectors of one entry per row, turned into a column and laid along the row again; read at (r, v)
  both give the row's entry. So whenever x(r, ·) is row b of a table l of logits, the stored value at (r, v) is the
  specification's softmax of l at (b, v).
-/
import proofs.«176059_j79517024518378_2_alg».proof.Proof.Gen.KernelIdeal.Skeleton
import proofs.«176059_j79517024518378_2_alg».proof.Proof.Spec
import proofs.«176059_j79517024518378_2_alg».proof.Proof.LibLayout
import proofs.«176059_j79517024518378_2_alg».proof.Proof.KernelIdeal.SoftmaxValue.LibLay3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SoftmaxValue

open Idealize.ShloMosaic Idealize.ShloMosaic.ValueIdx
open Cert.KernelIdeal Cert.KernelIdeal.Gen

/-- The accumulator with the bias row added to every row. -/
def withBias (acc : Vec Ideal S256x4096 .f32) (bias : Vec Ideal S1x4096 .f32) : FVec Ideal S256x4096 .f32 :=
  addf acc (broadcastTo S256x4096 (shapeCast S1x4096 bias shapeCasts_S1x4096_S1x4096) broadcasts_S1x4096_S256x4096)

/-- Each row's maximum, taken from −∞. -/
def rowMaxVec (x : FVec Ideal S256x4096 .f32) : FVec Ideal S256 .f32 :=
  multiReduction (F := Ideal) .maximumf [1] S256 x 0xFF800000#32 reduces_S256x4096_S256 (.inl rfl) rfl

/-- Each row's sum, taken from zero. -/
def rowSumVec (x : FVec Ideal S256x4096 .f32) : FVec Ideal S256 .f32 :=
  multiReduction (F := Ideal) .add [1] S256 x 0x00000000#32 reduces_S256x4096_S256 (.inl rfl) rfl

/-- One entry per row, laid along the row. -/
def alongRows (m : FVec Ideal S256 .f32) : FVec Ideal S256x4096 .f32 :=
  broadcastTo S256x4096 (shapeCast S256x1 m shapeCasts_S256_S256x1) broadcasts_S256x1_S256x4096

/-- The exponentials of the entries shifted by their row's maximum. -/
def shiftedExp (x : FVec Ideal S256x4096 .f32) : FVec Ideal S256x4096 .f32 :=
  exp (subf x (alongRows (rowMaxVec x)))

/-- Each shifted exponential over its row's sum of them. -/
def normalised (x : FVec Ideal S256x4096 .f32) : FVec Ideal S256x4096 .f32 :=
  divf (shiftedExp x) (alongRows (rowSumVec (shiftedExp x)))

/-- The kernel's last step is these stages in order. -/
theorem pay3_eq (acc : Vec Ideal S256x4096 .f32) (bias : Vec Ideal S1x4096 .f32) :
    k1_pay3 acc bias = normalised (withBias acc bias) := rfl

/-- The bit pattern the maximum starts from is −∞. -/
theorem negInf : Ideal.ofBits .f32 0xFF800000#32 = (⊥ : EReal) := by simp [Ideal.ofBits, Ideal.ieee]

theorem withBias_apply (acc : Vec Ideal S256x4096 .f32) (bias : Vec Ideal S1x4096 .f32) (r : Fin 256) (v : Fin 4096) :
    withBias acc bias (ix2 r v) = acc (ix2 r v) + bias (ix2 (0 : Fin 1) v) := by
  unfold withBias
  rw [shapeCast_self]
  exact congrArg (acc (ix2 r v) + ·) (broadcastTo_1b_ab_apply bias broadcasts_S1x4096_S256x4096 r v)

theorem alongRows_apply (m : FVec Ideal S256 .f32) (r : Fin 256) (v : Fin 4096) : alongRows m (ix2 r v) = m (ix1 r) := by
  unfold alongRows
  exact (Cert.Attn.Layout.broadcastTo_a1_ab_apply _ broadcasts_S256x1_S256x4096 r v).trans
    (Cert.Attn.Layout.shapeCast_a_a1_apply m shapeCasts_S256_S256x1 r 0)

theorem rowMaxVec_apply (x : FVec Ideal S256x4096 .f32) (r : Fin 256) :
    rowMaxVec x (ix1 r) = Finset.univ.fold max (⊥ : EReal) (fun v : Fin 4096 => x (ix2 r v)) := by
  unfold rowMaxVec
  refine (Cert.GQA.Lay.rowMax_apply x 0xFF800000#32 reduces_S256x4096_S256 (.inl rfl) rfl r).trans ?_
  rw [negInf]

theorem rowSumVec_apply (x : FVec Ideal S256x4096 .f32) (r : Fin 256) :
    rowSumVec x (ix1 r) = ∑ v : Fin 4096, x (ix2 r v) := by
  unfold rowSumVec
  exact Cert.Attn.Layout.rowSum_apply x reduces_S256x4096_S256 (.inl rfl) rfl r

theorem shiftedExp_apply (x : FVec Ideal S256x4096 .f32) (r : Fin 256) (v : Fin 4096) :
    shiftedExp x (ix2 r v)
      = Ideal.exp (x (ix2 r v) - Finset.univ.fold max (⊥ : EReal) (fun v' : Fin 4096 => x (ix2 r v'))) := by
  show Ideal.exp (x (ix2 r v) - alongRows (rowMaxVec x) (ix2 r v)) = _
  rw [alongRows_apply, rowMaxVec_apply]

theorem normalised_apply (x : FVec Ideal S256x4096 .f32) (r : Fin 256) (v : Fin 4096) :
    normalised x (ix2 r v)
      = Ideal.div (Ideal.exp (x (ix2 r v) - Finset.univ.fold max (⊥ : EReal) (fun v' : Fin 4096 => x (ix2 r v'))))
          (∑ w : Fin 4096, Ideal.exp (x (ix2 r w) - Finset.univ.fold max (⊥ : EReal) (fun v' : Fin 4096 => x (ix2 r v')))) := by
  show Ideal.div (shiftedExp x (ix2 r v)) (alongRows (rowSumVec (shiftedExp x)) (ix2 r v)) = _
  rw [alongRows_apply, rowSumVec_apply, shiftedExp_apply]
  exact congrArg (Ideal.div _) (Finset.sum_congr rfl fun w _ => shiftedExp_apply x r w)

/-- **The last step at row r and class v**: when the accumulator plus the bias along row r is row b of a table l of
    logits, the stored value is the specification's softmax of l at (b, v). -/
theorem pay3_apply (acc : Vec Ideal S256x4096 .f32) (bias : Vec Ideal S1x4096 .f32) (l : Fin 4096 → Fin 4096 → EReal)
    (b : Fin 4096) (r : Fin 256) (hl : ∀ v : Fin 4096, acc (ix2 r v) + bias (ix2 (0 : Fin 1) v) = l b v) (v : Fin 4096) :
    k1_pay3 acc bias (ix2 r v) = Cert.Spec.softmax l b v := by
  have hx : ∀ w : Fin 4096, withBias acc bias (ix2 r w) = l b w := fun w => (withBias_apply acc bias r w).trans (hl w)
  rw [pay3_eq, normalised_apply]
  unfold Cert.Spec.softmax Cert.Spec.rowMax
  simp only [hx]

end Cert.KernelIdeal.SoftmaxValue

end
-- ==== Proof.KernelIdeal.SoftmaxValue.Final.lean ====
/-
  The softmax kernel's result array on the extended reals: the specification's output of the hidden state, the
  output weights and the bias as the kernel's region finds them. The output window is written back at the last block
  of each row-tile, point 4·T + 3 for tile T, and what is written back there is rows 256·T … 256·T + 255 of the
  specification's array: at row r and class v the body stored the row softmax of the finished logits plus the bias,
  and the finished logits of tile row r are the full contraction for the array's row 256·T + r. The sixteen blocks
  written back tile the array — the row b lies in the block of tile b / 256 — so the array ends holding the
  specification's output everywhere.
-/
import proofs.«176059_j79517024518378_2_alg».proof.Proof.KernelIdeal.SoftmaxValue.Logits
import proofs.«176059_j79517024518378_2_alg».proof.Proof.KernelIdeal.SoftmaxValue.Pay3
import Idealize.ShloMosaic.Lib.Pipeline.Value

set_option maxRecDepth 16384

noncomputable section

namespace Cert.KernelIdeal.SoftmaxValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Softmax

variable (V : (c : Dev nD) → (b : Ref sig .tc) → Buf (Elt Ideal) ((c : Thread nD τ).loc b))

/-- The bias as a vector: the one row of the bias array. -/
abbrev biasVec (c : Dev nD) : Cert.Spec.Vec1.Idx → EReal := fun i => V c main_v12 (ix2 (0 : Fin 1) (i 0))

/-- The logits of the specification over the arrays the region finds. -/
abbrev logits (c : Dev nD) : Fin 4096 → Fin 4096 → EReal :=
  Cert.Spec.logit (V c main_v13) (V c main_v7) (biasVec V c)

/-- The specification's output over the arrays the region finds. -/
abbrev target (c : Dev nD) : S4096x4096.Idx → EReal :=
  Cert.Spec.probsArr (V c main_v13) (V c main_v7) (biasVec V c)

/-- What the body stores at the last block of a row-tile, at row r and class v: the specification's softmax at the
    array's row b = 256·(tile) + r. -/
theorem out_entry (c : Dev nD) (t : Fin cfg1.N) (h1 : t.val % 4 = 3) (r : Fin 256) (v b : Fin 4096)
    (hb : b.val = 256 * (t.val / 4) + r.val) :
    k1_pay3 (k1_pay2 (accAt V c (prev t)) (iblk V c 0 t) (iblk V c 1 t)) (iblk V c 2 t) (ix2 r v)
      = Cert.Spec.softmax (logits V c) b v :=
  pay3_apply (k1_pay2 (accAt V c (prev t)) (iblk V c 0 t) (iblk V c 1 t)) (iblk V c 2 t) (logits V c) b r
    (fun w => by
      rw [logits_apply V c t h1 r w b hb, bias_block V c t w]
      rfl) v

/-- What a flushing point writes back is its block of the specification's output. -/
theorem flushed_eq (c : Dev nD) (t : Fin cfg1.N) (hf : (cfg1.win 3).flush t = true) :
    (dat V c).flushed 3 t = ((cfg1.win 3).blk t).view.read (Elt Ideal) (target V c) := by
  have h1 : t.val % 4 = 3 := (flush1_3 t).mp hf
  have h0 : ¬t.val % 4 = 0 := by omega
  have hN : t.val < 64 := lt_of_lt_of_eq t.isLt (show cfg1.N = 64 from N_1)
  obtain ⟨-, -, -, -, -, -, e0, e1⟩ := index_facts t
  show (cfg1.win 3).cut (grid1.coords t) ((dat V c).after 3 t) = _
  rw [after_3, outAt_last V c t h0 h1]
  funext y
  rw [View.read_apply]
  obtain ⟨r, v, rfl⟩ : ∃ (r : Fin 256) (v : Fin 4096), y = ix2 r v := ⟨y 0, y 1, eq_ix2 y⟩
  have hbl : 256 * (t.val / 4) + r.val < 4096 := by have := r.isLt; omega
  refine (out_entry V c t h1 r v ⟨256 * (t.val / 4) + r.val, hbl⟩ rfl).trans ?_
  show Cert.Spec.softmax (logits V c) _ _
    = Cert.Spec.softmax (logits V c) ((((cfg1.win 3).blk t).view.emb (ix2 r v)) 0) ((((cfg1.win 3).blk t).view.emb (ix2 r v)) 1)
  refine congrArg₂ (Cert.Spec.softmax (logits V c)) (Fin.ext ?_) (Fin.ext ?_)
  · show 256 * (t.val / 4) + r.val = win1_3.index t (0 : Fin 2) * 256 + 1 * r.val
    rw [e0]; omega
  · show v.val = win1_3.index t (1 : Fin 2) * 4096 + 1 * v.val
    rw [e1]; omega

/-- **The result array** after the region: the specification's output of the hidden state, the output weights and
    the bias row as the region finds them. -/
theorem final (c : Dev nD) :
    (dat (F := Ideal) V c).arrAt 3 cfg1.N
      = Cert.Spec.probsArr (V c main_v13) (V c main_v7) (fun i => V c main_v12 (ix2 (0 : Fin 1) (i 0))) :=
  (dat V c).arrAt_eq_of_cover 3 (target V c) (flushed_eq V c) fun i => by
    have hi0 : (i 0).val < 4096 := (i 0).isLt
    have hi1 : (i 1).val < 4096 := (i 1).isLt
    have hlt : 4 * ((i 0).val / 256) + 3 < cfg1.N := by rw [show cfg1.N = 64 from N_1]; omega
    obtain ⟨-, -, -, -, -, -, e0, e1⟩ := index_facts ⟨4 * ((i 0).val / 256) + 3, hlt⟩
    refine ⟨⟨4 * ((i 0).val / 256) + 3, hlt⟩, (flush1_3 _).mpr (by show (4 * ((i 0).val / 256) + 3) % 4 = 3; omega), ?_⟩
    show i ∈ ((View.whole main_v14).slice (win1_3.rect ⟨4 * ((i 0).val / 256) + 3, hlt⟩)).set
    rw [View.set_slice_whole, Rect.mem_set_unit]
    intro a
    match a with
    | ⟨0, _⟩ =>
      show win1_3.index ⟨4 * ((i 0).val / 256) + 3, hlt⟩ (0 : Fin 2) * 256 ≤ (i 0).val
        ∧ (i 0).val < win1_3.index ⟨4 * ((i 0).val / 256) + 3, hlt⟩ (0 : Fin 2) * 256 + 256
      rw [e0]
      show (4 * ((i 0).val / 256) + 3) / 4 * 256 ≤ (i 0).val ∧ (i 0).val < (4 * ((i 0).val / 256) + 3) / 4 * 256 + 256
      omega
    | ⟨1, _⟩ =>
      show win1_3.index ⟨4 * ((i 0).val / 256) + 3, hlt⟩ (1 : Fin 2) * 4096 ≤ (i 1).val
        ∧ (i 1).val < win1_3.index ⟨4 * ((i 0).val / 256) + 3, hlt⟩ (1 : Fin 2) * 4096 + 4096
      rw [e1]
      omega

end Cert.KernelIdeal.SoftmaxValue

end
-- ==== Proof.KernelIdeal.GatesValue.Origin.lean ====
/-
  Every load and store of the gate kernel's body addresses a whole buffer: its rectangle starts at the origin
  of a two-axis buffer. The one fact about that starting point, shared by the modules that read the body's stores back.
-/
import Mathlib.Data.Fin.VecNotation

namespace Cert.KernelIdeal.GatesValue

/-- The offsets (0, 0) are the zero function on the two axes. -/
theorem origin2 : (![0, 0] : Fin 2 → Nat) = fun _ => 0 := funext fun a => match a with
  | ⟨0, _⟩ => rfl
  | ⟨1, _⟩ => rfl

end Cert.KernelIdeal.GatesValue
-- ==== Proof.KernelIdeal.GatesValue.PiecesFirst.lean ====
/-
  The gate kernel's body at the FIRST block of the contracted axis, read back as values. The body first stores a zero
  block into each of the four accumulators, then loads it again and stores, into each accumulator, what it loaded plus
  the product of the input block with that gate's weight block. Every store covers its whole buffer, so the last store
  into a buffer is what the buffer holds, and a load that follows a store reads the stored value:
      accumulator of gate g  =  (zero block) + input-block · (weight-block of g)ᵀ        g = forget, input, candidate, output.
  The statements hold for any float values.
-/
import proofs.«176059_j79517024518378_2_alg».proof.Proof.KernelIdeal.Gates.Data
import proofs.«176059_j79517024518378_2_alg».proof.Proof.KernelIdeal.GatesValue.Origin
import Idealize.ShloMosaic.Lib.Pipeline.Value
import Idealize.ShloMosaic.Lib.Tactic

set_option maxRecDepth 16384

noncomputable section

namespace Cert.KernelIdeal.GatesValue

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Gates

variable {F : FTy → Type} [FloatOps F]
variable (V : (c : Dev nD) → (b : Ref sig .tc) → Buf (Elt F) ((c : Thread nD τ).loc b))

/-- Forget gate, first block: the zero block plus the block product with the forget weights. -/
theorem accFFirst_eq (c : Dev nD) (t : Fin cfg0.N) (hc0 : isFirst (grid0.coords t)) (hc1 : ¬isLast (grid0.coords t)) :
    accFFirst V c t hc0 hc1 = k0_pay8 (iblk V c 0 t) (k0_pay3 (F := F)) (iblk V c 1 t) := by
  unfold accFFirst
  rw [View.read_writes_eq_canon _ _ _ (cover_accFFirst V c t hc0 hc1)]
  unfold runFirst
  dsimp only
  sl_unfold_words
  rw [View.canon_cons_unit_zero (S := S1024x512) origin2, View.readCov_unit_zero (S := S1024x512) _ origin2]
  simp only [View.readAt_eq_ld, (hs0 t).read_unread, (hs1 t).read_unread,
    View.ld_unit_zero (S := S1024x1024) origin2, View.ld_unit_zero (S := S512x1024) origin2]

/-- Input gate, first block. -/
theorem accIFirst_eq (c : Dev nD) (t : Fin cfg0.N) (hc0 : isFirst (grid0.coords t)) (hc1 : ¬isLast (grid0.coords t)) :
    accIFirst V c t hc0 hc1 = k0_pay9 (iblk V c 0 t) (k0_pay4 (F := F)) (iblk V c 2 t) := by
  unfold accIFirst
  rw [View.read_writes_eq_canon _ _ _ (cover_accIFirst V c t hc0 hc1)]
  unfold runFirst
  dsimp only
  sl_unfold_words
  rw [View.canon_cons_unit_zero (S := S1024x512) origin2, View.readCov_unit_zero (S := S1024x512) _ origin2]
  simp only [View.readAt_eq_ld, (hs0 t).read_unread, (hs2 t).read_unread,
    View.ld_unit_zero (S := S1024x1024) origin2, View.ld_unit_zero (S := S512x1024) origin2]

/-- Candidate, first block. -/
theorem accCFirst_eq (c : Dev nD) (t : Fin cfg0.N) (hc0 : isFirst (grid0.coords t)) (hc1 : ¬isLast (grid0.coords t)) :
    accCFirst V c t hc0 hc1 = k0_pay10 (iblk V c 0 t) (k0_pay5 (F := F)) (iblk V c 3 t) := by
  unfold accCFirst
  rw [View.read_writes_eq_canon _ _ _ (cover_accCFirst V c t hc0 hc1)]
  unfold runFirst
  dsimp only
  sl_unfold_words
  rw [View.canon_cons_unit_zero (S := S1024x512) origin2, View.readCov_unit_zero (S := S1024x512) _ origin2]
  simp only [View.readAt_eq_ld, (hs0 t).read_unread, (hs3 t).read_unread,
    View.ld_unit_zero (S := S1024x1024) origin2, View.ld_unit_zero (S := S512x1024) origin2]

/-- Output gate, first block. -/
theorem accOFirst_eq (c : Dev nD) (t : Fin cfg0.N) (hc0 : isFirst (grid0.coords t)) (hc1 : ¬isLast (grid0.coords t)) :
    accOFirst V c t hc0 hc1 = k0_pay1 (k0_pay7 (iblk V c 0 t)) (k0_pay6 (F := F)) (iblk V c 4 t) := by
  unfold accOFirst
  rw [View.read_writes_eq_canon _ _ _ (cover_accOFirst V c t hc0 hc1)]
  unfold runFirst
  dsimp only
  sl_unfold_words
  rw [View.canon_cons_unit_zero (S := S1024x512) origin2, View.readCov_unit_zero (S := S1024x512) _ origin2]
  simp only [View.readAt_eq_ld, (hs0 t).read_unread, (hs4 t).read_unread,
    View.ld_unit_zero (S := S1024x1024) origin2, View.ld_unit_zero (S := S512x1024) origin2]

end Cert.KernelIdeal.GatesValue

end
-- ==== Proof.KernelIdeal.GatesValue.PiecesMid.lean ====
/-
  The gate kernel's body at a MIDDLE block of the contracted axis, read back as values. Nothing is reset and nothing is
  written out: each accumulator is loaded, the product of the input block with that gate's weight block is added, and
  the sum is stored over the whole buffer:
      accumulator of gate g  =  (accumulator of g before) + input-block · (weight-block of g)ᵀ.
  The statements hold for any float values and any contents the block before may have left.
-/
import proofs.«176059_j79517024518378_2_alg».proof.Proof.KernelIdeal.Gates.Data
import proofs.«176059_j79517024518378_2_alg».proof.Proof.KernelIdeal.GatesValue.Origin
import Idealize.ShloMosaic.Lib.Pipeline.Value
import Idealize.ShloMosaic.Lib.Tactic

set_option maxRecDepth 16384

noncomputable section

namespace Cert.KernelIdeal.GatesValue

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Gates

variable {F : FTy → Type} [FloatOps F]
variable (V : (c : Dev nD) → (b : Ref sig .tc) → Buf (Elt F) ((c : Thread nD τ).loc b))

/-- Forget gate, middle block. -/
theorem accFMid_eq (c : Dev nD) (t : Fin cfg0.N) (hc0 : ¬isFirst (grid0.coords t)) (hc1 : ¬isLast (grid0.coords t))
    (xs0 xs1 xs2 xs3 : Vec F S1024x512 .f32) :
    accFMid V c t hc0 hc1 xs0 xs1 xs2 xs3 = k0_pay8 (iblk V c 0 t) xs0 (iblk V c 1 t) := by
  unfold accFMid
  rw [View.read_writes_eq_canon _ _ _ (cover_accFMid V c t hc0 hc1 xs0 xs1 xs2 xs3)]
  unfold runMid
  dsimp only
  try sl_unfold_words
  rw [View.canon_unit_zero origin2]
  simp only [View.readAt_eq_ld, (hs0 t).read_unread, (hs1 t).read_unread, (Memref.isWhole_whole cc0_scratch0).read_unread,
    View.ld_unit_zero (S := S1024x512) origin2, View.ld_unit_zero (S := S1024x1024) origin2,
    View.ld_unit_zero (S := S512x1024) origin2]

/-- Input gate, middle block. -/
theorem accIMid_eq (c : Dev nD) (t : Fin cfg0.N) (hc0 : ¬isFirst (grid0.coords t)) (hc1 : ¬isLast (grid0.coords t))
    (xs0 xs1 xs2 xs3 : Vec F S1024x512 .f32) :
    accIMid V c t hc0 hc1 xs0 xs1 xs2 xs3 = k0_pay9 (iblk V c 0 t) xs1 (iblk V c 2 t) := by
  unfold accIMid
  rw [View.read_writes_eq_canon _ _ _ (cover_accIMid V c t hc0 hc1 xs0 xs1 xs2 xs3)]
  unfold runMid
  dsimp only
  try sl_unfold_words
  rw [View.canon_unit_zero origin2]
  simp only [View.readAt_eq_ld, (hs0 t).read_unread, (hs2 t).read_unread, (Memref.isWhole_whole cc0_scratch1).read_unread,
    View.ld_unit_zero (S := S1024x512) origin2, View.ld_unit_zero (S := S1024x1024) origin2,
    View.ld_unit_zero (S := S512x1024) origin2]

/-- Candidate, middle block. -/
theorem accCMid_eq (c : Dev nD) (t : Fin cfg0.N) (hc0 : ¬isFirst (grid0.coords t)) (hc1 : ¬isLast (grid0.coords t))
    (xs0 xs1 xs2 xs3 : Vec F S1024x512 .f32) :
    accCMid V c t hc0 hc1 xs0 xs1 xs2 xs3 = k0_pay10 (iblk V c 0 t) xs2 (iblk V c 3 t) := by
  unfold accCMid
  rw [View.read_writes_eq_canon _ _ _ (cover_accCMid V c t hc0 hc1 xs0 xs1 xs2 xs3)]
  unfold runMid
  dsimp only
  try sl_unfold_words
  rw [View.canon_unit_zero origin2]
  simp only [View.readAt_eq_ld, (hs0 t).read_unread, (hs3 t).read_unread, (Memref.isWhole_whole cc0_scratch2).read_unread,
    View.ld_unit_zero (S := S1024x512) origin2, View.ld_unit_zero (S := S1024x1024) origin2,
    View.ld_unit_zero (S := S512x1024) origin2]

/-- Output gate, middle block. -/
theorem accOMid_eq (c : Dev nD) (t : Fin cfg0.N) (hc0 : ¬isFirst (grid0.coords t)) (hc1 : ¬isLast (grid0.coords t))
    (xs0 xs1 xs2 xs3 : Vec F S1024x512 .f32) :
    accOMid V c t hc0 hc1 xs0 xs1 xs2 xs3 = k0_pay1 (k0_pay7 (iblk V c 0 t)) xs3 (iblk V c 4 t) := by
  unfold accOMid
  rw [View.read_writes_eq_canon _ _ _ (cover_accOMid V c t hc0 hc1 xs0 xs1 xs2 xs3)]
  unfold runMid
  dsimp only
  try sl_unfold_words
  rw [View.canon_unit_zero origin2]
  simp only [View.readAt_eq_ld, (hs0 t).read_unread, (hs4 t).read_unread, (Memref.isWhole_whole cc0_scratch3).read_unread,
    View.ld_unit_zero (S := S1024x512) origin2, View.ld_unit_zero (S := S1024x1024) origin2,
    View.ld_unit_zero (S := S512x1024) origin2]

end Cert.KernelIdeal.GatesValue

end
-- ==== Proof.KernelIdeal.GatesValue.PiecesLast.lean ====
/-
  The gate kernel's body at the LAST block of the contracted axis, read back as values. The accumulators are updated as
  at a middle block,
      accumulator of gate g  =  (accumulator of g before) + input-block · (weight-block of g)ᵀ,
  and then the finished accumulators are loaded again — each load reads what was just stored — together with the four
  bias rows and the cell-state block, and the new hidden state computed from them is stored over the whole output buffer.
  The statements hold for any float values and any contents the block before may have left.
-/
import proofs.«176059_j79517024518378_2_alg».proof.Proof.KernelIdeal.Gates.Data
import proofs.«176059_j79517024518378_2_alg».proof.Proof.KernelIdeal.GatesValue.Origin
import Idealize.ShloMosaic.Lib.Pipeline.Value
import Idealize.ShloMosaic.Lib.Tactic

set_option maxRecDepth 16384

noncomputable section

namespace Cert.KernelIdeal.GatesValue

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Gates

variable {F : FTy → Type} [FloatOps F]
variable (V : (c : Dev nD) → (b : Ref sig .tc) → Buf (Elt F) ((c : Thread nD τ).loc b))

/-- Forget gate, last block. -/
theorem accFLast_eq (c : Dev nD) (t : Fin cfg0.N) (hc0 : ¬isFirst (grid0.coords t)) (hc1 : isLast (grid0.coords t))
    (xs0 xs1 xs2 xs3 : Vec F S1024x512 .f32) :
    accFLast V c t hc0 hc1 xs0 xs1 xs2 xs3 = k0_pay8 (iblk V c 0 t) xs0 (iblk V c 1 t) := by
  unfold accFLast
  rw [View.read_writes_eq_canon _ _ _ (cover_accFLast V c t hc0 hc1 xs0 xs1 xs2 xs3)]
  unfold runLast
  dsimp only
  try sl_unfold_words
  rw [View.canon_unit_zero origin2]
  simp only [View.readAt_eq_ld, (hs0 t).read_unread, (hs1 t).read_unread, (Memref.isWhole_whole cc0_scratch0).read_unread,
    View.ld_unit_zero (S := S1024x512) origin2, View.ld_unit_zero (S := S1024x1024) origin2,
    View.ld_unit_zero (S := S512x1024) origin2]

/-- Input gate, last block. -/
theorem accILast_eq (c : Dev nD) (t : Fin cfg0.N) (hc0 : ¬isFirst (grid0.coords t)) (hc1 : isLast (grid0.coords t))
    (xs0 xs1 xs2 xs3 : Vec F S1024x512 .f32) :
    accILast V c t hc0 hc1 xs0 xs1 xs2 xs3 = k0_pay9 (iblk V c 0 t) xs1 (iblk V c 2 t) := by
  unfold accILast
  rw [View.read_writes_eq_canon _ _ _ (cover_accILast V c t hc0 hc1 xs0 xs1 xs2 xs3)]
  unfold runLast
  dsimp only
  try sl_unfold_words
  rw [View.canon_unit_zero origin2]
  simp only [View.readAt_eq_ld, (hs0 t).read_unread, (hs2 t).read_unread, (Memref.isWhole_whole cc0_scratch1).read_unread,
    View.ld_unit_zero (S := S1024x512) origin2, View.ld_unit_zero (S := S1024x1024) origin2,
    View.ld_unit_zero (S := S512x1024) origin2]

/-- Candidate, last block. -/
theorem accCLast_eq (c : Dev nD) (t : Fin cfg0.N) (hc0 : ¬isFirst (grid0.coords t)) (hc1 : isLast (grid0.coords t))
    (xs0 xs1 xs2 xs3 : Vec F S1024x512 .f32) :
    accCLast V c t hc0 hc1 xs0 xs1 xs2 xs3 = k0_pay10 (iblk V c 0 t) xs2 (iblk V c 3 t) := by
  unfold accCLast
  rw [View.read_writes_eq_canon _ _ _ (cover_accCLast V c t hc0 hc1 xs0 xs1 xs2 xs3)]
  unfold runLast
  dsimp only
  try sl_unfold_words
  rw [View.canon_unit_zero origin2]
  simp only [View.readAt_eq_ld, (hs0 t).read_unread, (hs3 t).read_unread, (Memref.isWhole_whole cc0_scratch2).read_unread,
    View.ld_unit_zero (S := S1024x512) origin2, View.ld_unit_zero (S := S1024x1024) origin2,
    View.ld_unit_zero (S := S512x1024) origin2]

/-- Output gate, last block. -/
theorem accOLast_eq (c : Dev nD) (t : Fin cfg0.N) (hc0 : ¬isFirst (grid0.coords t)) (hc1 : isLast (grid0.coords t))
    (xs0 xs1 xs2 xs3 : Vec F S1024x512 .f32) :
    accOLast V c t hc0 hc1 xs0 xs1 xs2 xs3 = k0_pay1 (k0_pay7 (iblk V c 0 t)) xs3 (iblk V c 4 t) := by
  unfold accOLast
  rw [View.read_writes_eq_canon _ _ _ (cover_accOLast V c t hc0 hc1 xs0 xs1 xs2 xs3)]
  unfold runLast
  dsimp only
  try sl_unfold_words
  rw [View.canon_unit_zero origin2]
  simp only [View.readAt_eq_ld, (hs0 t).read_unread, (hs4 t).read_unread, (Memref.isWhole_whole cc0_scratch3).read_unread,
    View.ld_unit_zero (S := S1024x512) origin2, View.ld_unit_zero (S := S1024x1024) origin2,
    View.ld_unit_zero (S := S512x1024) origin2]

/-- The output at the last block: the epilogue applied to the four finished accumulators, the four bias rows and the
    cell-state block. -/
theorem outLast_eq (c : Dev nD) (t : Fin cfg0.N) (hc0 : ¬isFirst (grid0.coords t)) (hc1 : isLast (grid0.coords t))
    (xs0 xs1 xs2 xs3 : Vec F S1024x512 .f32) :
    outLast V c t hc0 hc1 xs0 xs1 xs2 xs3
      = k0_pay2 (k0_pay8 (iblk V c 0 t) xs0 (iblk V c 1 t)) (iblk V c 5 t)
          (k0_pay9 (iblk V c 0 t) xs1 (iblk V c 2 t)) (iblk V c 6 t)
          (k0_pay10 (iblk V c 0 t) xs2 (iblk V c 3 t)) (iblk V c 7 t)
          (k0_pay1 (k0_pay7 (iblk V c 0 t)) xs3 (iblk V c 4 t)) (iblk V c 8 t) (iblk V c 9 t) := by
  unfold outLast
  rw [View.read_writes_eq_canon _ _ _ (cover_outLast V c t hc0 hc1 xs0 xs1 xs2 xs3)]
  unfold runLast
  dsimp only
  try sl_unfold_words
  rw [View.canon_unit_zero origin2]
  simp only [View.readCov_unit_zero (S := S1024x512) _ origin2]
  simp only [View.readAt_eq_ld, (hs0 t).read_unread, (hs1 t).read_unread, (hs2 t).read_unread, (hs3 t).read_unread,
    (hs4 t).read_unread, (hs5 t).read_unread, (hs6 t).read_unread, (hs7 t).read_unread, (hs8 t).read_unread,
    (hs9 t).read_unread,
    (Memref.isWhole_whole cc0_scratch0).read_unread, (Memref.isWhole_whole cc0_scratch1).read_unread,
    (Memref.isWhole_whole cc0_scratch2).read_unread, (Memref.isWhole_whole cc0_scratch3).read_unread,
    View.ld_unit_zero (S := S1024x512) origin2, View.ld_unit_zero (S := S1024x1024) origin2,
    View.ld_unit_zero (S := S512x1024) origin2, View.ld_unit_zero (S := S1x512) origin2]

end Cert.KernelIdeal.GatesValue

end
-- ==== Proof.KernelIdeal.GatesValue.Pay.lean ====
/-
  The gate kernel's arithmetic read entry by entry on the extended reals, over the blocks it loads: an input block of
  1024 rows by 1024 positions, a weight block of 512 units by 1024 positions, accumulators and a cell-state block of
  1024 rows by 512 units, bias rows of 512 units.

  * The block stored at the first point of a sweep is zero everywhere.
  * An accumulation step adds to the accumulator, at row r and unit u, the product of row r of the input block with
    row u of the weight block: the sum over the 1024 positions kk of input(r, kk) · weight(u, kk). The matrix product
    contracts the second axis of both operands; accumulating it into a zero splat leaves exactly that sum, and the
    format changes around it are the identity.
  * The epilogue is pointwise: with F, I, C, O the four finished accumulators, bf, bi, bc, bo the bias rows (each read
    at unit u whatever the row) and c the cell state, the entry at (r, u) is
        tanh (c · σ(F + bf) + tanh (C + bc) · σ(I + bi)) · σ(O + bo),      σ the logistic function.
-/
import proofs.«176059_j79517024518378_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GatesValue

open Idealize.ShloMosaic Idealize.ShloMosaic.ValueIdx
open Cert.KernelIdeal Cert.KernelIdeal.Gen

/-! ## The zero blocks -/

theorem zeroF_apply (j : S1024x512.Idx) : k0_pay3 (F := Ideal) j = 0 := by
  unfold k0_pay3
  rw [shapeCast_self]
  exact Ideal.ofBits_zero_f32

theorem zeroI_apply (j : S1024x512.Idx) : k0_pay4 (F := Ideal) j = 0 := by
  unfold k0_pay4
  rw [shapeCast_self]
  exact Ideal.ofBits_zero_f32

theorem zeroC_apply (j : S1024x512.Idx) : k0_pay5 (F := Ideal) j = 0 := by
  unfold k0_pay5
  rw [shapeCast_self]
  exact Ideal.ofBits_zero_f32

theorem zeroO_apply (j : S1024x512.Idx) : k0_pay6 (F := Ideal) j = 0 := by
  unfold k0_pay6
  rw [shapeCast_self]
  exact Ideal.ofBits_zero_f32

/-! ## The block product -/

/-- The dimension numbers of the four gate products: both operands contract their second axis, no batch axis. -/
abbrev gateDot : DotDims S1024x1024 S512x1024 S1024x512 := dot_S1024x1024_S512x1024_S1024x512_1_1_0_0_n_n

/-- The input block is read at the result's row -/
theorem gateDot_lhs_row (i : S1024x512.Idx) (q : gateDot.contr.Idx) : (gateDot.lhsIdx i q 0).val = (i 0).val := by
  unfold DotDims.lhsIdx
  rw [dif_neg (show ¬(0 : Fin S1024x1024.rank) ∈ gateDot.lhsBatch by decide),
    dif_pos (show (0 : Fin S1024x1024.rank) ∈ gateDot.lhsNonContracting by decide)]
  rfl
/-- and at the contracted position; -/
theorem gateDot_lhs_pos (i : S1024x512.Idx) (q : gateDot.contr.Idx) :
    (gateDot.lhsIdx i q 1).val = (q ⟨0, by decide⟩).val :=
  gateDot.lhsIdx_val_of_single rfl i q
/-- the weight block at the result's unit -/
theorem gateDot_rhs_unit (i : S1024x512.Idx) (q : gateDot.contr.Idx) : (gateDot.rhsIdx i q 0).val = (i 1).val := by
  unfold DotDims.rhsIdx
  rw [dif_neg (show ¬(0 : Fin S512x1024.rank) ∈ gateDot.rhsBatch by decide),
    dif_pos (show (0 : Fin S512x1024.rank) ∈ gateDot.rhsNonContracting by decide)]
  rfl
/-- and at the contracted position. -/
theorem gateDot_rhs_pos (i : S1024x512.Idx) (q : gateDot.contr.Idx) :
    (gateDot.rhsIdx i q 1).val = (q ⟨0, by decide⟩).val :=
  gateDot.rhsIdx_val_of_single rfl i q

/-- The block product into a zero splat, at row r and unit u. -/
theorem gateProduct_apply (x : FVec Ideal S1024x1024 .bf16) (w : FVec Ideal S512x1024 .bf16) (r : Fin 1024) (u : Fin 512) :
    matmul gateDot none x w (constant S1024x512 .f32 0x00000000#32) (ix2 r u)
      = ∑ kk : Fin 1024, x (ix2 r kk) * w (ix2 u kk) := by
  show FloatOps.matmul gateDot none x w (constant S1024x512 .f32 0x00000000#32) (ix2 r u) = _
  rw [Ideal.matmul_constant_zero_apply, ← Equiv.sum_comp (contrEquiv1 gateDot 1024 rfl rfl).symm]
  refine Finset.sum_congr rfl fun kk _ => ?_
  have hk := contrEquiv1_symm_val gateDot 1024 rfl rfl kk
  have el : gateDot.lhsIdx (ix2 r u) ((contrEquiv1 gateDot 1024 rfl rfl).symm kk) = ix2 r kk :=
    funext fun ax => Fin.ext (by
      match ax with
      | ⟨0, _⟩ => exact gateDot_lhs_row _ _
      | ⟨1, _⟩ => exact (gateDot_lhs_pos _ _).trans hk)
  have er : gateDot.rhsIdx (ix2 r u) ((contrEquiv1 gateDot 1024 rfl rfl).symm kk) = ix2 u kk :=
    funext fun ax => Fin.ext (by
      match ax with
      | ⟨0, _⟩ => exact gateDot_rhs_unit _ _
      | ⟨1, _⟩ => exact (gateDot_rhs_pos _ _).trans hk)
  rw [el, er]

/-! ## The accumulation steps -/

/-- Forget gate: the accumulator plus the block product. -/
theorem stepF_apply (x : Vec Ideal S1024x1024 .bf16) (acc : Vec Ideal S1024x512 .f32) (w : Vec Ideal S512x1024 .bf16)
    (r : Fin 1024) (u : Fin 512) :
    k0_pay8 x acc w (ix2 r u) = acc (ix2 r u) + ∑ kk : Fin 1024, x (ix2 r kk) * w (ix2 u kk) := by
  unfold k0_pay8 k0_pay7
  rw [shapeCast_self, shapeCast_self, shapeCast_self]
  exact congrArg (acc (ix2 r u) + ·) (gateProduct_apply x w r u)

/-- Input gate. -/
theorem stepI_apply (x : Vec Ideal S1024x1024 .bf16) (acc : Vec Ideal S1024x512 .f32) (w : Vec Ideal S512x1024 .bf16)
    (r : Fin 1024) (u : Fin 512) :
    k0_pay9 x acc w (ix2 r u) = acc (ix2 r u) + ∑ kk : Fin 1024, x (ix2 r kk) * w (ix2 u kk) := by
  unfold k0_pay9 k0_pay7
  rw [shapeCast_self, shapeCast_self, shapeCast_self]
  exact congrArg (acc (ix2 r u) + ·) (gateProduct_apply x w r u)

/-- Candidate. -/
theorem stepC_apply (x : Vec Ideal S1024x1024 .bf16) (acc : Vec Ideal S1024x512 .f32) (w : Vec Ideal S512x1024 .bf16)
    (r : Fin 1024) (u : Fin 512) :
    k0_pay10 x acc w (ix2 r u) = acc (ix2 r u) + ∑ kk : Fin 1024, x (ix2 r kk) * w (ix2 u kk) := by
  unfold k0_pay10 k0_pay7
  rw [shapeCast_self, shapeCast_self, shapeCast_self]
  exact congrArg (acc (ix2 r u) + ·) (gateProduct_apply x w r u)

/-- Output gate. -/
theorem stepO_apply (x : Vec Ideal S1024x1024 .bf16) (acc : Vec Ideal S1024x512 .f32) (w : Vec Ideal S512x1024 .bf16)
    (r : Fin 1024) (u : Fin 512) :
    k0_pay1 (k0_pay7 x) acc w (ix2 r u) = acc (ix2 r u) + ∑ kk : Fin 1024, x (ix2 r kk) * w (ix2 u kk) := by
  unfold k0_pay1 k0_pay7
  rw [shapeCast_self, shapeCast_self, shapeCast_self]
  exact congrArg (acc (ix2 r u) + ·) (gateProduct_apply x w r u)

/-! ## The epilogue -/

/-- The new hidden state at row r and unit u, from the finished accumulators, the bias rows and the cell state. -/
theorem epilogue_apply (aF : Vec Ideal S1024x512 .f32) (bF : Vec Ideal S1x512 .f32)
    (aI : Vec Ideal S1024x512 .f32) (bI : Vec Ideal S1x512 .f32)
    (aC : Vec Ideal S1024x512 .f32) (bC : Vec Ideal S1x512 .f32)
    (aO : Vec Ideal S1024x512 .f32) (bO : Vec Ideal S1x512 .f32)
    (cs : Vec Ideal S1024x512 .f32) (r : Fin 1024) (u : Fin 512) :
    k0_pay2 aF bF aI bI aC bC aO bO cs (ix2 r u)
      = Ideal.tanh (cs (ix2 r u) * Ideal.logistic (aF (ix2 r u) + bF (ix2 (0 : Fin 1) u))
            + Ideal.tanh (aC (ix2 r u) + bC (ix2 (0 : Fin 1) u)) * Ideal.logistic (aI (ix2 r u) + bI (ix2 (0 : Fin 1) u)))
          * Ideal.logistic (aO (ix2 r u) + bO (ix2 (0 : Fin 1) u)) := by
  unfold k0_pay2
  simp only [shapeCast_self]
  show Ideal.tanh (cs (ix2 r u) * Ideal.logistic (aF (ix2 r u) + broadcastTo S1024x512 bF broadcasts_S1x512_S1024x512 (ix2 r u))
            + Ideal.tanh (aC (ix2 r u) + broadcastTo S1024x512 bC broadcasts_S1x512_S1024x512 (ix2 r u))
              * Ideal.logistic (aI (ix2 r u) + broadcastTo S1024x512 bI broadcasts_S1x512_S1024x512 (ix2 r u)))
          * Ideal.logistic (aO (ix2 r u) + broadcastTo S1024x512 bO broadcasts_S1x512_S1024x512 (ix2 r u)) = _
  rw [broadcastTo_1b_ab_apply bF, broadcastTo_1b_ab_apply bI, broadcastTo_1b_ab_apply bC, broadcastTo_1b_ab_apply bO]

end Cert.KernelIdeal.GatesValue

end
-- ==== Proof.KernelIdeal.GatesValue.Contraction.lean ====
/-
  The contraction of a gate's pre-activation, cut into the eight blocks the kernel sweeps. For arrays x and W of
  4096 rows by 8192 positions, row b of x against row j of W is the sum over the 8192 positions k of x(b, k) · W(j, k).
  Block s holds the positions 1024·s … 1024·s + 1023; the sum over the first n blocks is the partial contraction,
  it starts at zero, each further block adds that block's sum, and after eight blocks it is the whole contraction:
  a sum over 8192 positions is the sum over the 8 blocks of the sums over each block's 1024 positions (addition on
  the extended reals is commutative and associative; nothing has to be finite).

  Coordinates are carried as natural numbers, an entry outside the array reading as zero, so that a row or a position
  computed from a grid point needs no bound in a statement; the bounds come in once, where the whole contraction is read.
-/
import Idealize.ShloMosaic.Lib.ValueIdx
import Mathlib.Algebra.BigOperators.Fin
import Mathlib.Logic.Equiv.Fin.Basic
import Mathlib.Data.EReal.Basic

noncomputable section

namespace Cert.KernelIdeal.GatesValue

open Idealize.ShloMosaic Idealize.ShloMosaic.ValueIdx
open scoped BigOperators

/-- The entry of a two-axis array at natural-number coordinates; zero outside the array. -/
def entry {n0 n1 : ℕ} (x : (⟨2, ![n0, n1]⟩ : Shape).Idx → EReal) (b k : ℕ) : EReal :=
  if h : b < n0 ∧ k < n1 then x (ix2 ⟨b, h.1⟩ ⟨k, h.2⟩) else 0

/-- Inside the array it is the array's entry. -/
theorem entry_of_lt {n0 n1 : ℕ} (x : (⟨2, ![n0, n1]⟩ : Shape).Idx → EReal) {b k : ℕ} (hb : b < n0) (hk : k < n1) :
    entry x b k = x (ix2 ⟨b, hb⟩ ⟨k, hk⟩) := dif_pos ⟨hb, hk⟩

/-- An entry at an index is the entry at the index's coordinates. -/
theorem eq_entry {n0 n1 : ℕ} (x : (⟨2, ![n0, n1]⟩ : Shape).Idx → EReal) (i : (⟨2, ![n0, n1]⟩ : Shape).Idx)
    {b k : ℕ} (h0 : (i 0).val = b) (h1 : (i 1).val = k) : x i = entry x b k := by
  subst h0 h1
  rw [entry_of_lt x (idx2_lt0 i) (idx2_lt1 i)]
  exact congrArg x (eq_ix2 i)

/-- Block s of the contraction of row b of x with row j of W: the positions 1024·s … 1024·s + 1023. -/
def blockDot (x W : (⟨2, ![4096, 8192]⟩ : Shape).Idx → EReal) (b j s : ℕ) : EReal :=
  ∑ q : Fin 1024, entry x b (1024 * s + q.val) * entry W j (1024 * s + q.val)

/-- The contraction over the first n blocks. -/
def partialDot (x W : (⟨2, ![4096, 8192]⟩ : Shape).Idx → EReal) (b j n : ℕ) : EReal :=
  ∑ s ∈ Finset.range n, blockDot x W b j s

theorem partialDot_zero (x W : (⟨2, ![4096, 8192]⟩ : Shape).Idx → EReal) (b j : ℕ) : partialDot x W b j 0 = 0 :=
  Finset.sum_range_zero _

theorem partialDot_succ (x W : (⟨2, ![4096, 8192]⟩ : Shape).Idx → EReal) (b j n : ℕ) :
    partialDot x W b j (n + 1) = partialDot x W b j n + blockDot x W b j n :=
  Finset.sum_range_succ _ _

/-- A sum over 8192 positions is the sum over eight blocks of the sums over each block's 1024 positions. -/
theorem sum_blocks8 {M : Type*} [AddCommMonoid M] (f : Fin 8192 → M) :
    ∑ k : Fin 8192, f k
      = ∑ s : Fin 8, ∑ q : Fin 1024, f ⟨1024 * s.val + q.val, by have := s.isLt; have := q.isLt; omega⟩ := by
  have h := (Equiv.sum_comp (finProdFinEquiv (m := 8) (n := 1024)) (fun k : Fin (8 * 1024) => f k)).symm
  rw [Fintype.sum_prod_type] at h
  refine h.trans (Finset.sum_congr rfl fun s _ => Finset.sum_congr rfl fun q _ => congrArg f (Fin.ext ?_))
  show q.val + 1024 * s.val = 1024 * s.val + q.val
  omega

/-- After eight blocks the partial contraction is the whole one. -/
theorem partialDot_full (x W : (⟨2, ![4096, 8192]⟩ : Shape).Idx → EReal) (b j : Fin 4096) :
    partialDot x W b.val j.val 8 = ∑ k : Fin 8192, x (ix2 b k) * W (ix2 j k) := by
  unfold partialDot blockDot
  rw [Finset.sum_range, sum_blocks8 (fun k => x (ix2 b k) * W (ix2 j k))]
  refine Finset.sum_congr rfl fun s _ => Finset.sum_congr rfl fun q _ => ?_
  have hk : 1024 * (s : ℕ) + q.val < 8192 := by have := s.isLt; have := q.isLt; omega
  rw [entry_of_lt x b.isLt hk, entry_of_lt W j.isLt hk]

end Cert.KernelIdeal.GatesValue

end
-- ==== Proof.KernelIdeal.GatesValue.Blocks.lean ====
/-
  Where the gate kernel's windows sit at a grid point. The grid has 4 × 8 × 8 points; point t has the coordinates
  (t / 64, t / 8 mod 8, t mod 8) = (row-tile, unit-tile, block of the contracted axis). At point t
    the input window          holds rows 1024·(t/64) …, positions 1024·(t mod 8) … of the concatenated input,
    each weight window        holds units 512·(t/8 mod 8) …, positions 1024·(t mod 8) … of that gate's weights,
    each bias window          holds units 512·(t/8 mod 8) … of that gate's bias row,
    the cell-state window and the output window hold rows 1024·(t/64) …, units 512·(t/8 mod 8) ….
  An element of a block sits in its array at block index × block size + its coordinate inside the block. The block
  indices are decided once over the 256 points; each block entry is then an entry of the array.
-/
import proofs.«176059_j79517024518378_2_alg».proof.Proof.KernelIdeal.Gates.Data
import proofs.«176059_j79517024518378_2_alg».proof.Proof.KernelIdeal.GatesValue.Contraction
import Idealize.ShloMosaic.Lib.Pipeline.Value

set_option maxRecDepth 16384

noncomputable section

namespace Cert.KernelIdeal.GatesValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Gates

/-! ## The block indices over the grid -/

/-- The input window moves with the row-tile and the block of the contracted axis. -/
theorem index_in : ∀ t : Fin cfg0.N, win0_0.index t (0 : Fin 2) = t.val / 64 ∧ win0_0.index t (1 : Fin 2) = t.val % 8 :=
  (by decide +kernel : ∀ t : Fin grid0.N, win0_0.index t (0 : Fin 2) = t.val / 64 ∧ win0_0.index t (1 : Fin 2) = t.val % 8)

/-- The four weight windows move with the unit-tile and the block of the contracted axis. -/
theorem index_w1 : ∀ t : Fin cfg0.N, win0_1.index t (0 : Fin 2) = t.val / 8 % 8 ∧ win0_1.index t (1 : Fin 2) = t.val % 8 :=
  (by decide +kernel : ∀ t : Fin grid0.N, win0_1.index t (0 : Fin 2) = t.val / 8 % 8 ∧ win0_1.index t (1 : Fin 2) = t.val % 8)
theorem index_w2 : ∀ t : Fin cfg0.N, win0_2.index t (0 : Fin 2) = t.val / 8 % 8 ∧ win0_2.index t (1 : Fin 2) = t.val % 8 :=
  (by decide +kernel : ∀ t : Fin grid0.N, win0_2.index t (0 : Fin 2) = t.val / 8 % 8 ∧ win0_2.index t (1 : Fin 2) = t.val % 8)
theorem index_w3 : ∀ t : Fin cfg0.N, win0_3.index t (0 : Fin 2) = t.val / 8 % 8 ∧ win0_3.index t (1 : Fin 2) = t.val % 8 :=
  (by decide +kernel : ∀ t : Fin grid0.N, win0_3.index t (0 : Fin 2) = t.val / 8 % 8 ∧ win0_3.index t (1 : Fin 2) = t.val % 8)
theorem index_w4 : ∀ t : Fin cfg0.N, win0_4.index t (0 : Fin 2) = t.val / 8 % 8 ∧ win0_4.index t (1 : Fin 2) = t.val % 8 :=
  (by decide +kernel : ∀ t : Fin grid0.N, win0_4.index t (0 : Fin 2) = t.val / 8 % 8 ∧ win0_4.index t (1 : Fin 2) = t.val % 8)

/-- The four bias windows move with the unit-tile along their one row. -/
theorem index_b5 : ∀ t : Fin cfg0.N, win0_5.index t (0 : Fin 2) = 0 ∧ win0_5.index t (1 : Fin 2) = t.val / 8 % 8 :=
  (by decide +kernel : ∀ t : Fin grid0.N, win0_5.index t (0 : Fin 2) = 0 ∧ win0_5.index t (1 : Fin 2) = t.val / 8 % 8)
theorem index_b6 : ∀ t : Fin cfg0.N, win0_6.index t (0 : Fin 2) = 0 ∧ win0_6.index t (1 : Fin 2) = t.val / 8 % 8 :=
  (by decide +kernel : ∀ t : Fin grid0.N, win0_6.index t (0 : Fin 2) = 0 ∧ win0_6.index t (1 : Fin 2) = t.val / 8 % 8)
theorem index_b7 : ∀ t : Fin cfg0.N, win0_7.index t (0 : Fin 2) = 0 ∧ win0_7.index t (1 : Fin 2) = t.val / 8 % 8 :=
  (by decide +kernel : ∀ t : Fin grid0.N, win0_7.index t (0 : Fin 2) = 0 ∧ win0_7.index t (1 : Fin 2) = t.val / 8 % 8)
theorem index_b8 : ∀ t : Fin cfg0.N, win0_8.index t (0 : Fin 2) = 0 ∧ win0_8.index t (1 : Fin 2) = t.val / 8 % 8 :=
  (by decide +kernel : ∀ t : Fin grid0.N, win0_8.index t (0 : Fin 2) = 0 ∧ win0_8.index t (1 : Fin 2) = t.val / 8 % 8)

/-- The cell-state window and the output window move with the row-tile and the unit-tile. -/
theorem index_cell : ∀ t : Fin cfg0.N, win0_9.index t (0 : Fin 2) = t.val / 64 ∧ win0_9.index t (1 : Fin 2) = t.val / 8 % 8 :=
  (by decide +kernel : ∀ t : Fin grid0.N, win0_9.index t (0 : Fin 2) = t.val / 64 ∧ win0_9.index t (1 : Fin 2) = t.val / 8 % 8)
theorem index_out : ∀ t : Fin cfg0.N, win0_10.index t (0 : Fin 2) = t.val / 64 ∧ win0_10.index t (1 : Fin 2) = t.val / 8 % 8 :=
  (by decide +kernel : ∀ t : Fin grid0.N, win0_10.index t (0 : Fin 2) = t.val / 64 ∧ win0_10.index t (1 : Fin 2) = t.val / 8 % 8)

/-! ## Block entries as array entries -/

section AnyValues

variable {F : FTy → Type} [FloatOps F]
variable (V : (c : Dev nD) → (b : Ref sig .tc) → Buf (Elt F) ((c : Thread nD τ).loc b))

/-- The input block at point t, at row r and position kk, is the concatenated input at any index whose coordinates
    are row 1024·(t/64) + r and position 1024·(t mod 8) + kk. -/
theorem iblk0_apply (c : Dev nD) (t : Fin cfg0.N) (r kk : Fin 1024) (k : S4096x8192.Idx)
    (hk0 : (k 0).val = 1024 * (t.val / 64) + r.val) (hk1 : (k 1).val = 1024 * (t.val % 8) + kk.val) :
    (iblk V c 0 t : Vec F S1024x1024 .bf16) (ix2 r kk) = (V c main_v2 : S4096x8192.Idx → Elt F .bf16) k := by
  obtain ⟨e0, e1⟩ := index_in t
  unfold iblk
  rw [View.read_apply]
  show V c main_v2 _ = V c main_v2 _
  refine congrArg (V c main_v2) (funext fun a => Fin.ext ?_)
  match a with
  | ⟨0, _⟩ => show win0_0.index t (0 : Fin 2) * 1024 + 1 * r.val = (k 0).val; rw [e0, hk0]; omega
  | ⟨1, _⟩ => show win0_0.index t (1 : Fin 2) * 1024 + 1 * kk.val = (k 1).val; rw [e1, hk1]; omega

/-- The forget weight block at point t, at unit u and position kk: unit 512·(t/8 mod 8) + u, position 1024·(t mod 8) + kk. -/
theorem iblk1_apply (c : Dev nD) (t : Fin cfg0.N) (u : Fin 512) (kk : Fin 1024) (k : S4096x8192.Idx)
    (hk0 : (k 0).val = 512 * (t.val / 8 % 8) + u.val) (hk1 : (k 1).val = 1024 * (t.val % 8) + kk.val) :
    (iblk V c 1 t : Vec F S512x1024 .bf16) (ix2 u kk) = (V c main_v3 : S4096x8192.Idx → Elt F .bf16) k := by
  obtain ⟨e0, e1⟩ := index_w1 t
  unfold iblk
  rw [View.read_apply]
  show V c main_v3 _ = V c main_v3 _
  refine congrArg (V c main_v3) (funext fun a => Fin.ext ?_)
  match a with
  | ⟨0, _⟩ => show win0_1.index t (0 : Fin 2) * 512 + 1 * u.val = (k 0).val; rw [e0, hk0]; omega
  | ⟨1, _⟩ => show win0_1.index t (1 : Fin 2) * 1024 + 1 * kk.val = (k 1).val; rw [e1, hk1]; omega

/-- The input weight block at point t, at unit u and position kk: unit 512·(t/8 mod 8) + u, position 1024·(t mod 8) + kk. -/
theorem iblk2_apply (c : Dev nD) (t : Fin cfg0.N) (u : Fin 512) (kk : Fin 1024) (k : S4096x8192.Idx)
    (hk0 : (k 0).val = 512 * (t.val / 8 % 8) + u.val) (hk1 : (k 1).val = 1024 * (t.val % 8) + kk.val) :
    (iblk V c 2 t : Vec F S512x1024 .bf16) (ix2 u kk) = (V c main_v4 : S4096x8192.Idx → Elt F .bf16) k := by
  obtain ⟨e0, e1⟩ := index_w2 t
  unfold iblk
  rw [View.read_apply]
  show V c main_v4 _ = V c main_v4 _
  refine congrArg (V c main_v4) (funext fun a => Fin.ext ?_)
  match a with
  | ⟨0, _⟩ => show win0_2.index t (0 : Fin 2) * 512 + 1 * u.val = (k 0).val; rw [e0, hk0]; omega
  | ⟨1, _⟩ => show win0_2.index t (1 : Fin 2) * 1024 + 1 * kk.val = (k 1).val; rw [e1, hk1]; omega

/-- The candidate weight block at point t, at unit u and position kk: unit 512·(t/8 mod 8) + u, position 1024·(t mod 8) + kk. -/
theorem iblk3_apply (c : Dev nD) (t : Fin cfg0.N) (u : Fin 512) (kk : Fin 1024) (k : S4096x8192.Idx)
    (hk0 : (k 0).val = 512 * (t.val / 8 % 8) + u.val) (hk1 : (k 1).val = 1024 * (t.val % 8) + kk.val) :
    (iblk V c 3 t : Vec F S512x1024 .bf16) (ix2 u kk) = (V c main_v5 : S4096x8192.Idx → Elt F .bf16) k := by
  obtain ⟨e0, e1⟩ := index_w3 t
  unfold iblk
  rw [View.read_apply]
  show V c main_v5 _ = V c main_v5 _
  refine congrArg (V c main_v5) (funext fun a => Fin.ext ?_)
  match a with
  | ⟨0, _⟩ => show win0_3.index t (0 : Fin 2) * 512 + 1 * u.val = (k 0).val; rw [e0, hk0]; omega
  | ⟨1, _⟩ => show win0_3.index t (1 : Fin 2) * 1024 + 1 * kk.val = (k 1).val; rw [e1, hk1]; omega

/-- The output weight block at point t, at unit u and position kk: unit 512·(t/8 mod 8) + u, position 1024·(t mod 8) + kk. -/
theorem iblk4_apply (c : Dev nD) (t : Fin cfg0.N) (u : Fin 512) (kk : Fin 1024) (k : S4096x8192.Idx)
    (hk0 : (k 0).val = 512 * (t.val / 8 % 8) + u.val) (hk1 : (k 1).val = 1024 * (t.val % 8) + kk.val) :
    (iblk V c 4 t : Vec F S512x1024 .bf16) (ix2 u kk) = (V c main_v6 : S4096x8192.Idx → Elt F .bf16) k := by
  obtain ⟨e0, e1⟩ := index_w4 t
  unfold iblk
  rw [View.read_apply]
  show V c main_v6 _ = V c main_v6 _
  refine congrArg (V c main_v6) (funext fun a => Fin.ext ?_)
  match a with
  | ⟨0, _⟩ => show win0_4.index t (0 : Fin 2) * 512 + 1 * u.val = (k 0).val; rw [e0, hk0]; omega
  | ⟨1, _⟩ => show win0_4.index t (1 : Fin 2) * 1024 + 1 * kk.val = (k 1).val; rw [e1, hk1]; omega

/-- The forget bias block at point t, at unit u of its one row: unit 512·(t/8 mod 8) + u. -/
theorem iblk5_apply (c : Dev nD) (t : Fin cfg0.N) (u : Fin 512) (k : S1x4096.Idx)
    (hk0 : (k 0).val = 0) (hk1 : (k 1).val = 512 * (t.val / 8 % 8) + u.val) :
    (iblk V c 5 t : Vec F S1x512 .f32) (ix2 (0 : Fin 1) u) = (V c main_v8 : S1x4096.Idx → Elt F .f32) k := by
  obtain ⟨e0, e1⟩ := index_b5 t
  unfold iblk
  rw [View.read_apply]
  show V c main_v8 _ = V c main_v8 _
  refine congrArg (V c main_v8) (funext fun a => Fin.ext ?_)
  match a with
  | ⟨0, _⟩ => show win0_5.index t (0 : Fin 2) * 1 + 1 * 0 = (k 0).val; rw [e0, hk0]
  | ⟨1, _⟩ => show win0_5.index t (1 : Fin 2) * 512 + 1 * u.val = (k 1).val; rw [e1, hk1]; omega

/-- The input bias block at point t, at unit u of its one row: unit 512·(t/8 mod 8) + u. -/
theorem iblk6_apply (c : Dev nD) (t : Fin cfg0.N) (u : Fin 512) (k : S1x4096.Idx)
    (hk0 : (k 0).val = 0) (hk1 : (k 1).val = 512 * (t.val / 8 % 8) + u.val) :
    (iblk V c 6 t : Vec F S1x512 .f32) (ix2 (0 : Fin 1) u) = (V c main_v9 : S1x4096.Idx → Elt F .f32) k := by
  obtain ⟨e0, e1⟩ := index_b6 t
  unfold iblk
  rw [View.read_apply]
  show V c main_v9 _ = V c main_v9 _
  refine congrArg (V c main_v9) (funext fun a => Fin.ext ?_)
  match a with
  | ⟨0, _⟩ => show win0_6.index t (0 : Fin 2) * 1 + 1 * 0 = (k 0).val; rw [e0, hk0]
  | ⟨1, _⟩ => show win0_6.index t (1 : Fin 2) * 512 + 1 * u.val = (k 1).val; rw [e1, hk1]; omega

/-- The candidate bias block at point t, at unit u of its one row: unit 512·(t/8 mod 8) + u. -/
theorem iblk7_apply (c : Dev nD) (t : Fin cfg0.N) (u : Fin 512) (k : S1x4096.Idx)
    (hk0 : (k 0).val = 0) (hk1 : (k 1).val = 512 * (t.val / 8 % 8) + u.val) :
    (iblk V c 7 t : Vec F S1x512 .f32) (ix2 (0 : Fin 1) u) = (V c main_v10 : S1x4096.Idx → Elt F .f32) k := by
  obtain ⟨e0, e1⟩ := index_b7 t
  unfold iblk
  rw [View.read_apply]
  show V c main_v10 _ = V c main_v10 _
  refine congrArg (V c main_v10) (funext fun a => Fin.ext ?_)
  match a with
  | ⟨0, _⟩ => show win0_7.index t (0 : Fin 2) * 1 + 1 * 0 = (k 0).val; rw [e0, hk0]
  | ⟨1, _⟩ => show win0_7.index t (1 : Fin 2) * 512 + 1 * u.val = (k 1).val; rw [e1, hk1]; omega

/-- The output bias block at point t, at unit u of its one row: unit 512·(t/8 mod 8) + u. -/
theorem iblk8_apply (c : Dev nD) (t : Fin cfg0.N) (u : Fin 512) (k : S1x4096.Idx)
    (hk0 : (k 0).val = 0) (hk1 : (k 1).val = 512 * (t.val / 8 % 8) + u.val) :
    (iblk V c 8 t : Vec F S1x512 .f32) (ix2 (0 : Fin 1) u) = (V c main_v11 : S1x4096.Idx → Elt F .f32) k := by
  obtain ⟨e0, e1⟩ := index_b8 t
  unfold iblk
  rw [View.read_apply]
  show V c main_v11 _ = V c main_v11 _
  refine congrArg (V c main_v11) (funext fun a => Fin.ext ?_)
  match a with
  | ⟨0, _⟩ => show win0_8.index t (0 : Fin 2) * 1 + 1 * 0 = (k 0).val; rw [e0, hk0]
  | ⟨1, _⟩ => show win0_8.index t (1 : Fin 2) * 512 + 1 * u.val = (k 1).val; rw [e1, hk1]; omega

/-- The cell-state block at point t, at row r and unit u: row 1024·(t/64) + r, unit 512·(t/8 mod 8) + u. -/
theorem iblk9_apply (c : Dev nD) (t : Fin cfg0.N) (r : Fin 1024) (u : Fin 512) (k : S4096x4096.Idx)
    (hk0 : (k 0).val = 1024 * (t.val / 64) + r.val) (hk1 : (k 1).val = 512 * (t.val / 8 % 8) + u.val) :
    (iblk V c 9 t : Vec F S1024x512 .f32) (ix2 r u) = (V c main_arg2 : S4096x4096.Idx → Elt F .f32) k := by
  obtain ⟨e0, e1⟩ := index_cell t
  unfold iblk
  rw [View.read_apply]
  show V c main_arg2 _ = V c main_arg2 _
  refine congrArg (V c main_arg2) (funext fun a => Fin.ext ?_)
  match a with
  | ⟨0, _⟩ => show win0_9.index t (0 : Fin 2) * 1024 + 1 * r.val = (k 0).val; rw [e0, hk0]; omega
  | ⟨1, _⟩ => show win0_9.index t (1 : Fin 2) * 512 + 1 * u.val = (k 1).val; rw [e1, hk1]; omega

end AnyValues

/-! ## The block sums on the extended reals -/

section Exact

variable (V : (c : Dev nD) → (b : Ref sig .tc) → Buf (Elt Ideal) ((c : Thread nD τ).loc b))

/-- A point of the grid lies below 256. -/
theorem point_lt (t : Fin cfg0.N) : t.val < 256 := lt_of_lt_of_eq t.isLt (show cfg0.N = 256 from N_0)

/-- The input block's entries are entries of the concatenated input. -/
theorem iblk0_entry (c : Dev nD) (t : Fin cfg0.N) (r kk : Fin 1024) :
    (iblk V c 0 t : Vec Ideal S1024x1024 .bf16) (ix2 r kk)
      = entry (V c main_v2 : (⟨2, ![4096, 8192]⟩ : Shape).Idx → EReal) (1024 * (t.val / 64) + r.val) (1024 * (t.val % 8) + kk.val) := by
  have ht := point_lt t
  have hb : 1024 * (t.val / 64) + r.val < 4096 := by have := r.isLt; omega
  have hk : 1024 * (t.val % 8) + kk.val < 8192 := by have := kk.isLt; omega
  rw [entry_of_lt _ hb hk]
  exact iblk0_apply V c t r kk _ rfl rfl

theorem iblk1_entry (c : Dev nD) (t : Fin cfg0.N) (u : Fin 512) (kk : Fin 1024) :
    (iblk V c 1 t : Vec Ideal S512x1024 .bf16) (ix2 u kk)
      = entry (V c main_v3 : (⟨2, ![4096, 8192]⟩ : Shape).Idx → EReal) (512 * (t.val / 8 % 8) + u.val) (1024 * (t.val % 8) + kk.val) := by
  have hb : 512 * (t.val / 8 % 8) + u.val < 4096 := by have := u.isLt; omega
  have hk : 1024 * (t.val % 8) + kk.val < 8192 := by have := kk.isLt; omega
  rw [entry_of_lt _ hb hk]
  exact iblk1_apply V c t u kk _ rfl rfl

theorem iblk2_entry (c : Dev nD) (t : Fin cfg0.N) (u : Fin 512) (kk : Fin 1024) :
    (iblk V c 2 t : Vec Ideal S512x1024 .bf16) (ix2 u kk)
      = entry (V c main_v4 : (⟨2, ![4096, 8192]⟩ : Shape).Idx → EReal) (512 * (t.val / 8 % 8) + u.val) (1024 * (t.val % 8) + kk.val) := by
  have hb : 512 * (t.val / 8 % 8) + u.val < 4096 := by have := u.isLt; omega
  have hk : 1024 * (t.val % 8) + kk.val < 8192 := by have := kk.isLt; omega
  rw [entry_of_lt _ hb hk]
  exact iblk2_apply V c t u kk _ rfl rfl

theorem iblk3_entry (c : Dev nD) (t : Fin cfg0.N) (u : Fin 512) (kk : Fin 1024) :
    (iblk V c 3 t : Vec Ideal S512x1024 .bf16) (ix2 u kk)
      = entry (V c main_v5 : (⟨2, ![4096, 8192]⟩ : Shape).Idx → EReal) (512 * (t.val / 8 % 8) + u.val) (1024 * (t.val % 8) + kk.val) := by
  have hb : 512 * (t.val / 8 % 8) + u.val < 4096 := by have := u.isLt; omega
  have hk : 1024 * (t.val % 8) + kk.val < 8192 := by have := kk.isLt; omega
  rw [entry_of_lt _ hb hk]
  exact iblk3_apply V c t u kk _ rfl rfl

theorem iblk4_entry (c : Dev nD) (t : Fin cfg0.N) (u : Fin 512) (kk : Fin 1024) :
    (iblk V c 4 t : Vec Ideal S512x1024 .bf16) (ix2 u kk)
      = entry (V c main_v6 : (⟨2, ![4096, 8192]⟩ : Shape).Idx → EReal) (512 * (t.val / 8 % 8) + u.val) (1024 * (t.val % 8) + kk.val) := by
  have hb : 512 * (t.val / 8 % 8) + u.val < 4096 := by have := u.isLt; omega
  have hk : 1024 * (t.val % 8) + kk.val < 8192 := by have := kk.isLt; omega
  rw [entry_of_lt _ hb hk]
  exact iblk4_apply V c t u kk _ rfl rfl

/-- A block product is a block of the contraction: when the input block's row r reads row b of an array at the
    positions 1024·s …, and the weight block's row u reads row j of another at the same positions, the sum over the
    block's 1024 positions is block s of the contraction of row b with row j. -/
theorem blockSum_of (x : Vec Ideal S1024x1024 .bf16) (w : Vec Ideal S512x1024 .bf16)
    (xa Wa : (⟨2, ![4096, 8192]⟩ : Shape).Idx → EReal) (r : Fin 1024) (u : Fin 512) (b j s : ℕ)
    (hx : ∀ kk : Fin 1024, x (ix2 r kk) = entry xa b (1024 * s + kk.val))
    (hw : ∀ kk : Fin 1024, w (ix2 u kk) = entry Wa j (1024 * s + kk.val)) :
    ∑ kk : Fin 1024, x (ix2 r kk) * w (ix2 u kk) = blockDot xa Wa b j s := by
  unfold blockDot
  exact Finset.sum_congr rfl fun kk _ => by rw [hx kk, hw kk]

end Exact

end Cert.KernelIdeal.GatesValue

end
-- ==== Proof.KernelIdeal.GatesValue.Sweep.lean ====
/-
  The sweep of an accumulator over the grid, as pure arithmetic. Point n of the 256 has the row-tile n / 64, the
  unit-tile n / 8 mod 8 and the block n mod 8 of the contracted axis; the eight blocks of one (row-tile, unit-tile)
  pair are eight consecutive points. A quantity that at every first block (n mod 8 = 0) is zero plus that block's sum,
  and at every other point is its value at the point before plus the point's block sum, is at every point the partial
  contraction over the blocks 0 … n mod 8: by induction on the point, the row and the unit not changing inside a sweep.
-/
import proofs.«176059_j79517024518378_2_alg».proof.Proof.KernelIdeal.GatesValue.Contraction

noncomputable section

namespace Cert.KernelIdeal.GatesValue

open Idealize.ShloMosaic

/-- An accumulator started afresh at each first block and stepped by the block sums holds the partial contraction. -/
theorem sweep_eq (x W : (⟨2, ![4096, 8192]⟩ : Shape).Idx → EReal)
    (a : (n : ℕ) → n < 256 → Fin 1024 → Fin 512 → EReal)
    (hfirst : ∀ (n : ℕ) (h : n < 256), n % 8 = 0 → ∀ (r : Fin 1024) (u : Fin 512),
      a n h r u = 0 + blockDot x W (1024 * (n / 64) + r.val) (512 * (n / 8 % 8) + u.val) (n % 8))
    (hnext : ∀ (n : ℕ) (h : n + 1 < 256), ¬(n + 1) % 8 = 0 → ∀ (r : Fin 1024) (u : Fin 512),
      a (n + 1) h r u = a n (Nat.lt_of_succ_lt h) r u
        + blockDot x W (1024 * ((n + 1) / 64) + r.val) (512 * ((n + 1) / 8 % 8) + u.val) ((n + 1) % 8)) :
    ∀ (n : ℕ) (h : n < 256) (r : Fin 1024) (u : Fin 512),
      a n h r u = partialDot x W (1024 * (n / 64) + r.val) (512 * (n / 8 % 8) + u.val) (n % 8 + 1)
  | 0, h, r, u => by
    rw [hfirst 0 h rfl r u, partialDot_succ, partialDot_zero]
  | n + 1, h, r, u => by
    by_cases h0 : (n + 1) % 8 = 0
    · rw [hfirst (n + 1) h h0 r u, h0, partialDot_succ, partialDot_zero]
    · have e1 : n / 64 = (n + 1) / 64 := by omega
      have e2 : n / 8 % 8 = (n + 1) / 8 % 8 := by omega
      have e3 : n % 8 + 1 = (n + 1) % 8 := by omega
      rw [hnext n h h0 r u, sweep_eq x W a hfirst hnext n (Nat.lt_of_succ_lt h) r u, e1, e2, e3, ← partialDot_succ]

end Cert.KernelIdeal.GatesValue

end
-- ==== Proof.KernelIdeal.GatesValue.Accum.lean ====
/-
  The four accumulators of the gate kernel after every grid point, on the extended reals. At point t — row-tile t / 64,
  unit-tile t / 8 mod 8, block t mod 8 of the contracted axis — the accumulator of a gate holds, at row r and unit u of
  its tile, the contraction of row 1024·(t/64) + r of the concatenated input with row 512·(t/8 mod 8) + u of the gate's
  weights over the blocks 0 … t mod 8. For each gate: at a first block the body stores zero plus the block's sum; at
  every later block it stores what the block before left plus the block's sum; the block's sum is block t mod 8 of the
  contraction because the input and weight windows sit on exactly those rows and positions; and the two facts are the
  hypotheses of the sweep, an induction on the point.
-/
import proofs.«176059_j79517024518378_2_alg».proof.Proof.KernelIdeal.GatesValue.PiecesFirst
import proofs.«176059_j79517024518378_2_alg».proof.Proof.KernelIdeal.GatesValue.PiecesMid
import proofs.«176059_j79517024518378_2_alg».proof.Proof.KernelIdeal.GatesValue.PiecesLast
import proofs.«176059_j79517024518378_2_alg».proof.Proof.KernelIdeal.GatesValue.Pay
import proofs.«176059_j79517024518378_2_alg».proof.Proof.KernelIdeal.GatesValue.Blocks
import proofs.«176059_j79517024518378_2_alg».proof.Proof.KernelIdeal.GatesValue.Sweep

set_option maxRecDepth 16384

noncomputable section

namespace Cert.KernelIdeal.GatesValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Gates

variable (V : (c : Dev nD) → (b : Ref sig .tc) → Buf (Elt Ideal) ((c : Thread nD τ).loc b))

/-! ## The forget gate -/

/-- At a first block: zero plus the block's sum. -/
theorem accF_first (c : Dev nD) (t : Fin cfg0.N) (h0 : t.val % 8 = 0) (r : Fin 1024) (u : Fin 512) :
    (outsAt V c t.val t.isLt).2.1 (ix2 r u)
      = 0 + blockDot (V c main_v2) (V c main_v3) (1024 * (t.val / 64) + r.val) (512 * (t.val / 8 % 8) + u.val) (t.val % 8) := by
  have hf : isFirst (grid0.coords t) := (isFirst_iff t).mpr h0
  have hl : ¬isLast (grid0.coords t) := fun h => by have := (isLast_iff t).mp h; omega
  rw [outsAt_first V c t h0]
  dsimp only
  refine (congrFun (accFFirst_eq V c t hf hl) (ix2 r u)).trans ?_
  refine (stepF_apply (iblk V c 0 t) (k0_pay3 (F := Ideal)) (iblk V c 1 t) r u).trans ?_
  rw [zeroF_apply]
  exact congrArg (0 + ·) (blockSum_of (iblk V c 0 t) (iblk V c 1 t) (V c main_v2) (V c main_v3) r u _ _ _
    (iblk0_entry V c t r) (iblk1_entry V c t u))

/-- At a later block: what the block before left plus the block's sum. -/
theorem accF_next (c : Dev nD) (t : Fin cfg0.N) (h0 : ¬t.val % 8 = 0) (r : Fin 1024) (u : Fin 512) :
    (outsAt V c t.val t.isLt).2.1 (ix2 r u)
      = (outsAt V c (t.val - 1) (Nat.lt_of_le_of_lt (Nat.sub_le _ _) t.isLt)).2.1 (ix2 r u)
        + blockDot (V c main_v2) (V c main_v3) (1024 * (t.val / 64) + r.val) (512 * (t.val / 8 % 8) + u.val) (t.val % 8) := by
  have hf : ¬isFirst (grid0.coords t) := fun h => h0 ((isFirst_iff t).mp h)
  by_cases h1 : t.val % 8 = 7
  · have hl : isLast (grid0.coords t) := (isLast_iff t).mpr h1
    rw [outsAt_last V c t h0 h1]
    dsimp only
    refine (congrFun (accFLast_eq V c t hf hl _ _ _ _) (ix2 r u)).trans ?_
    refine (stepF_apply (iblk V c 0 t) _ (iblk V c 1 t) r u).trans ?_
    exact congrArg (_ + ·) (blockSum_of (iblk V c 0 t) (iblk V c 1 t) (V c main_v2) (V c main_v3) r u _ _ _
      (iblk0_entry V c t r) (iblk1_entry V c t u))
  · have hl : ¬isLast (grid0.coords t) := fun h => h1 ((isLast_iff t).mp h)
    rw [outsAt_mid V c t h0 h1]
    dsimp only
    refine (congrFun (accFMid_eq V c t hf hl _ _ _ _) (ix2 r u)).trans ?_
    refine (stepF_apply (iblk V c 0 t) _ (iblk V c 1 t) r u).trans ?_
    exact congrArg (_ + ·) (blockSum_of (iblk V c 0 t) (iblk V c 1 t) (V c main_v2) (V c main_v3) r u _ _ _
      (iblk0_entry V c t r) (iblk1_entry V c t u))

/-- After any point: the partial contraction over the blocks swept so far. -/
theorem accF_eq (c : Dev nD) (t : Fin cfg0.N) (r : Fin 1024) (u : Fin 512) :
    (outsAt V c t.val t.isLt).2.1 (ix2 r u)
      = partialDot (V c main_v2) (V c main_v3) (1024 * (t.val / 64) + r.val) (512 * (t.val / 8 % 8) + u.val) (t.val % 8 + 1) :=
  sweep_eq (V c main_v2) (V c main_v3)
    (fun n h r u => (outsAt V c n (lt_of_lt_of_eq h (show 256 = cfg0.N from N_0.symm))).2.1 (ix2 r u))
    (fun n h h0 r u => accF_first V c ⟨n, lt_of_lt_of_eq h (show 256 = cfg0.N from N_0.symm)⟩ h0 r u)
    (fun n h h0 r u => accF_next V c ⟨n + 1, lt_of_lt_of_eq h (show 256 = cfg0.N from N_0.symm)⟩ h0 r u)
    t.val (point_lt t) r u

/-! ## The input gate -/

/-- At a first block: zero plus the block's sum. -/
theorem accI_first (c : Dev nD) (t : Fin cfg0.N) (h0 : t.val % 8 = 0) (r : Fin 1024) (u : Fin 512) :
    (outsAt V c t.val t.isLt).2.2.1 (ix2 r u)
      = 0 + blockDot (V c main_v2) (V c main_v4) (1024 * (t.val / 64) + r.val) (512 * (t.val / 8 % 8) + u.val) (t.val % 8) := by
  have hf : isFirst (grid0.coords t) := (isFirst_iff t).mpr h0
  have hl : ¬isLast (grid0.coords t) := fun h => by have := (isLast_iff t).mp h; omega
  rw [outsAt_first V c t h0]
  dsimp only
  refine (congrFun (accIFirst_eq V c t hf hl) (ix2 r u)).trans ?_
  refine (stepI_apply (iblk V c 0 t) (k0_pay4 (F := Ideal)) (iblk V c 2 t) r u).trans ?_
  rw [zeroI_apply]
  exact congrArg (0 + ·) (blockSum_of (iblk V c 0 t) (iblk V c 2 t) (V c main_v2) (V c main_v4) r u _ _ _
    (iblk0_entry V c t r) (iblk2_entry V c t u))

/-- At a later block: what the block before left plus the block's sum. -/
theorem accI_next (c : Dev nD) (t : Fin cfg0.N) (h0 : ¬t.val % 8 = 0) (r : Fin 1024) (u : Fin 512) :
    (outsAt V c t.val t.isLt).2.2.1 (ix2 r u)
      = (outsAt V c (t.val - 1) (Nat.lt_of_le_of_lt (Nat.sub_le _ _) t.isLt)).2.2.1 (ix2 r u)
        + blockDot (V c main_v2) (V c main_v4) (1024 * (t.val / 64) + r.val) (512 * (t.val / 8 % 8) + u.val) (t.val % 8) := by
  have hf : ¬isFirst (grid0.coords t) := fun h => h0 ((isFirst_iff t).mp h)
  by_cases h1 : t.val % 8 = 7
  · have hl : isLast (grid0.coords t) := (isLast_iff t).mpr h1
    rw [outsAt_last V c t h0 h1]
    dsimp only
    refine (congrFun (accILast_eq V c t hf hl _ _ _ _) (ix2 r u)).trans ?_
    refine (stepI_apply (iblk V c 0 t) _ (iblk V c 2 t) r u).trans ?_
    exact congrArg (_ + ·) (blockSum_of (iblk V c 0 t) (iblk V c 2 t) (V c main_v2) (V c main_v4) r u _ _ _
      (iblk0_entry V c t r) (iblk2_entry V c t u))
  · have hl : ¬isLast (grid0.coords t) := fun h => h1 ((isLast_iff t).mp h)
    rw [outsAt_mid V c t h0 h1]
    dsimp only
    refine (congrFun (accIMid_eq V c t hf hl _ _ _ _) (ix2 r u)).trans ?_
    refine (stepI_apply (iblk V c 0 t) _ (iblk V c 2 t) r u).trans ?_
    exact congrArg (_ + ·) (blockSum_of (iblk V c 0 t) (iblk V c 2 t) (V c main_v2) (V c main_v4) r u _ _ _
      (iblk0_entry V c t r) (iblk2_entry V c t u))

/-- After any point: the partial contraction over the blocks swept so far. -/
theorem accI_eq (c : Dev nD) (t : Fin cfg0.N) (r : Fin 1024) (u : Fin 512) :
    (outsAt V c t.val t.isLt).2.2.1 (ix2 r u)
      = partialDot (V c main_v2) (V c main_v4) (1024 * (t.val / 64) + r.val) (512 * (t.val / 8 % 8) + u.val) (t.val % 8 + 1) :=
  sweep_eq (V c main_v2) (V c main_v4)
    (fun n h r u => (outsAt V c n (lt_of_lt_of_eq h (show 256 = cfg0.N from N_0.symm))).2.2.1 (ix2 r u))
    (fun n h h0 r u => accI_first V c ⟨n, lt_of_lt_of_eq h (show 256 = cfg0.N from N_0.symm)⟩ h0 r u)
    (fun n h h0 r u => accI_next V c ⟨n + 1, lt_of_lt_of_eq h (show 256 = cfg0.N from N_0.symm)⟩ h0 r u)
    t.val (point_lt t) r u

/-! ## The candidate -/

/-- At a first block: zero plus the block's sum. -/
theorem accC_first (c : Dev nD) (t : Fin cfg0.N) (h0 : t.val % 8 = 0) (r : Fin 1024) (u : Fin 512) :
    (outsAt V c t.val t.isLt).2.2.2.1 (ix2 r u)
      = 0 + blockDot (V c main_v2) (V c main_v5) (1024 * (t.val / 64) + r.val) (512 * (t.val / 8 % 8) + u.val) (t.val % 8) := by
  have hf : isFirst (grid0.coords t) := (isFirst_iff t).mpr h0
  have hl : ¬isLast (grid0.coords t) := fun h => by have := (isLast_iff t).mp h; omega
  rw [outsAt_first V c t h0]
  dsimp only
  refine (congrFun (accCFirst_eq V c t hf hl) (ix2 r u)).trans ?_
  refine (stepC_apply (iblk V c 0 t) (k0_pay5 (F := Ideal)) (iblk V c 3 t) r u).trans ?_
  rw [zeroC_apply]
  exact congrArg (0 + ·) (blockSum_of (iblk V c 0 t) (iblk V c 3 t) (V c main_v2) (V c main_v5) r u _ _ _
    (iblk0_entry V c t r) (iblk3_entry V c t u))

/-- At a later block: what the block before left plus the block's sum. -/
theorem accC_next (c : Dev nD) (t : Fin cfg0.N) (h0 : ¬t.val % 8 = 0) (r : Fin 1024) (u : Fin 512) :
    (outsAt V c t.val t.isLt).2.2.2.1 (ix2 r u)
      = (outsAt V c (t.val - 1) (Nat.lt_of_le_of_lt (Nat.sub_le _ _) t.isLt)).2.2.2.1 (ix2 r u)
        + blockDot (V c main_v2) (V c main_v5) (1024 * (t.val / 64) + r.val) (512 * (t.val / 8 % 8) + u.val) (t.val % 8) := by
  have hf : ¬isFirst (grid0.coords t) := fun h => h0 ((isFirst_iff t).mp h)
  by_cases h1 : t.val % 8 = 7
  · have hl : isLast (grid0.coords t) := (isLast_iff t).mpr h1
    rw [outsAt_last V c t h0 h1]
    dsimp only
    refine (congrFun (accCLast_eq V c t hf hl _ _ _ _) (ix2 r u)).trans ?_
    refine (stepC_apply (iblk V c 0 t) _ (iblk V c 3 t) r u).trans ?_
    exact congrArg (_ + ·) (blockSum_of (iblk V c 0 t) (iblk V c 3 t) (V c main_v2) (V c main_v5) r u _ _ _
      (iblk0_entry V c t r) (iblk3_entry V c t u))
  · have hl : ¬isLast (grid0.coords t) := fun h => h1 ((isLast_iff t).mp h)
    rw [outsAt_mid V c t h0 h1]
    dsimp only
    refine (congrFun (accCMid_eq V c t hf hl _ _ _ _) (ix2 r u)).trans ?_
    refine (stepC_apply (iblk V c 0 t) _ (iblk V c 3 t) r u).trans ?_
    exact congrArg (_ + ·) (blockSum_of (iblk V c 0 t) (iblk V c 3 t) (V c main_v2) (V c main_v5) r u _ _ _
      (iblk0_entry V c t r) (iblk3_entry V c t u))

/-- After any point: the partial contraction over the blocks swept so far. -/
theorem accC_eq (c : Dev nD) (t : Fin cfg0.N) (r : Fin 1024) (u : Fin 512) :
    (outsAt V c t.val t.isLt).2.2.2.1 (ix2 r u)
      = partialDot (V c main_v2) (V c main_v5) (1024 * (t.val / 64) + r.val) (512 * (t.val / 8 % 8) + u.val) (t.val % 8 + 1) :=
  sweep_eq (V c main_v2) (V c main_v5)
    (fun n h r u => (outsAt V c n (lt_of_lt_of_eq h (show 256 = cfg0.N from N_0.symm))).2.2.2.1 (ix2 r u))
    (fun n h h0 r u => accC_first V c ⟨n, lt_of_lt_of_eq h (show 256 = cfg0.N from N_0.symm)⟩ h0 r u)
    (fun n h h0 r u => accC_next V c ⟨n + 1, lt_of_lt_of_eq h (show 256 = cfg0.N from N_0.symm)⟩ h0 r u)
    t.val (point_lt t) r u

/-! ## The output gate -/

/-- At a first block: zero plus the block's sum. -/
theorem accO_first (c : Dev nD) (t : Fin cfg0.N) (h0 : t.val % 8 = 0) (r : Fin 1024) (u : Fin 512) :
    (outsAt V c t.val t.isLt).2.2.2.2 (ix2 r u)
      = 0 + blockDot (V c main_v2) (V c main_v6) (1024 * (t.val / 64) + r.val) (512 * (t.val / 8 % 8) + u.val) (t.val % 8) := by
  have hf : isFirst (grid0.coords t) := (isFirst_iff t).mpr h0
  have hl : ¬isLast (grid0.coords t) := fun h => by have := (isLast_iff t).mp h; omega
  rw [outsAt_first V c t h0]
  dsimp only
  refine (congrFun (accOFirst_eq V c t hf hl) (ix2 r u)).trans ?_
  refine (stepO_apply (iblk V c 0 t) (k0_pay6 (F := Ideal)) (iblk V c 4 t) r u).trans ?_
  rw [zeroO_apply]
  exact congrArg (0 + ·) (blockSum_of (iblk V c 0 t) (iblk V c 4 t) (V c main_v2) (V c main_v6) r u _ _ _
    (iblk0_entry V c t r) (iblk4_entry V c t u))

/-- At a later block: what the block before left plus the block's sum. -/
theorem accO_next (c : Dev nD) (t : Fin cfg0.N) (h0 : ¬t.val % 8 = 0) (r : Fin 1024) (u : Fin 512) :
    (outsAt V c t.val t.isLt).2.2.2.2 (ix2 r u)
      = (outsAt V c (t.val - 1) (Nat.lt_of_le_of_lt (Nat.sub_le _ _) t.isLt)).2.2.2.2 (ix2 r u)
        + blockDot (V c main_v2) (V c main_v6) (1024 * (t.val / 64) + r.val) (512 * (t.val / 8 % 8) + u.val) (t.val % 8) := by
  have hf : ¬isFirst (grid0.coords t) := fun h => h0 ((isFirst_iff t).mp h)
  by_cases h1 : t.val % 8 = 7
  · have hl : isLast (grid0.coords t) := (isLast_iff t).mpr h1
    rw [outsAt_last V c t h0 h1]
    dsimp only
    refine (congrFun (accOLast_eq V c t hf hl _ _ _ _) (ix2 r u)).trans ?_
    refine (stepO_apply (iblk V c 0 t) _ (iblk V c 4 t) r u).trans ?_
    exact congrArg (_ + ·) (blockSum_of (iblk V c 0 t) (iblk V c 4 t) (V c main_v2) (V c main_v6) r u _ _ _
      (iblk0_entry V c t r) (iblk4_entry V c t u))
  · have hl : ¬isLast (grid0.coords t) := fun h => h1 ((isLast_iff t).mp h)
    rw [outsAt_mid V c t h0 h1]
    dsimp only
    refine (congrFun (accOMid_eq V c t hf hl _ _ _ _) (ix2 r u)).trans ?_
    refine (stepO_apply (iblk V c 0 t) _ (iblk V c 4 t) r u).trans ?_
    exact congrArg (_ + ·) (blockSum_of (iblk V c 0 t) (iblk V c 4 t) (V c main_v2) (V c main_v6) r u _ _ _
      (iblk0_entry V c t r) (iblk4_entry V c t u))

/-- After any point: the partial contraction over the blocks swept so far. -/
theorem accO_eq (c : Dev nD) (t : Fin cfg0.N) (r : Fin 1024) (u : Fin 512) :
    (outsAt V c t.val t.isLt).2.2.2.2 (ix2 r u)
      = partialDot (V c main_v2) (V c main_v6) (1024 * (t.val / 64) + r.val) (512 * (t.val / 8 % 8) + u.val) (t.val % 8 + 1) :=
  sweep_eq (V c main_v2) (V c main_v6)
    (fun n h r u => (outsAt V c n (lt_of_lt_of_eq h (show 256 = cfg0.N from N_0.symm))).2.2.2.2 (ix2 r u))
    (fun n h h0 r u => accO_first V c ⟨n, lt_of_lt_of_eq h (show 256 = cfg0.N from N_0.symm)⟩ h0 r u)
    (fun n h h0 r u => accO_next V c ⟨n + 1, lt_of_lt_of_eq h (show 256 = cfg0.N from N_0.symm)⟩ h0 r u)
    t.val (point_lt t) r u

end Cert.KernelIdeal.GatesValue

end
-- ==== Proof.KernelIdeal.GatesValue.Final.lean ====
/-
  The gate kernel's result array on the extended reals: the specification's new hidden state of the concatenated input,
  the cell state, the four gates' weights and bias rows as the kernel's region finds them. The output window is written
  back at the last block of each sweep, the points ≡ 7 (mod 8). There the four accumulators hold the full contractions
  over all 8192 positions — the partial contraction over eight blocks is the whole one — so with the bias added each is
  the gate's pre-activation, and the body's pointwise epilogue is the specification's formula; the block written back at
  point t is rows 1024·(t/64) …, units 512·(t/8 mod 8) … of the specification's array. The 32 blocks written back tile
  the array — the entry (b, j) lies in the block of the point 64·(b / 1024) + 8·(j / 512) + 7 — so the array ends
  holding the specification's hidden state everywhere.
-/
import proofs.«176059_j79517024518378_2_alg».proof.Proof.KernelIdeal.GatesValue.Accum
import proofs.«176059_j79517024518378_2_alg».proof.Proof.Spec
import Idealize.ShloMosaic.Lib.Pipeline.Value

set_option maxRecDepth 16384

noncomputable section

namespace Cert.KernelIdeal.GatesValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Gates

/-! ## The epilogue is the specification's formula -/

/-- At row r and unit u of a tile the epilogue gives the specification's hidden state at (b, j), when the four
    accumulators hold there the full contractions of row b of the input with row j of each gate's weights, the bias
    rows read each gate's bias at j, and the cell-state block reads the cell state at (b, j). -/
theorem epilogue_hidden (aF : Vec Ideal S1024x512 .f32) (bF : Vec Ideal S1x512 .f32)
    (aI : Vec Ideal S1024x512 .f32) (bI : Vec Ideal S1x512 .f32)
    (aC : Vec Ideal S1024x512 .f32) (bC : Vec Ideal S1x512 .f32)
    (aO : Vec Ideal S1024x512 .f32) (bO : Vec Ideal S1x512 .f32) (cs : Vec Ideal S1024x512 .f32)
    (xh : Cert.Spec.Wide.Idx → EReal) (cst : Cert.Spec.Sq.Idx → EReal)
    (wF : Cert.Spec.Wide.Idx → EReal) (vF : Cert.Spec.Vec1.Idx → EReal)
    (wI : Cert.Spec.Wide.Idx → EReal) (vI : Cert.Spec.Vec1.Idx → EReal)
    (wC : Cert.Spec.Wide.Idx → EReal) (vC : Cert.Spec.Vec1.Idx → EReal)
    (wO : Cert.Spec.Wide.Idx → EReal) (vO : Cert.Spec.Vec1.Idx → EReal)
    (r : Fin 1024) (u : Fin 512) (b j : Fin 4096)
    (hF : aF (ix2 r u) = ∑ k : Fin 8192, xh (ix2 b k) * wF (ix2 j k))
    (hI : aI (ix2 r u) = ∑ k : Fin 8192, xh (ix2 b k) * wI (ix2 j k))
    (hC : aC (ix2 r u) = ∑ k : Fin 8192, xh (ix2 b k) * wC (ix2 j k))
    (hO : aO (ix2 r u) = ∑ k : Fin 8192, xh (ix2 b k) * wO (ix2 j k))
    (gF : bF (ix2 (0 : Fin 1) u) = vF (ix1 j)) (gI : bI (ix2 (0 : Fin 1) u) = vI (ix1 j))
    (gC : bC (ix2 (0 : Fin 1) u) = vC (ix1 j)) (gO : bO (ix2 (0 : Fin 1) u) = vO (ix1 j))
    (hc : cs (ix2 r u) = cst (ix2 b j)) :
    k0_pay2 aF bF aI bI aC bC aO bO cs (ix2 r u) = Cert.Spec.hidden xh cst wF vF wI vI wC vC wO vO b j := by
  rw [epilogue_apply, hF, hI, hC, hO, gF, gI, gC, gO, hc]
  rfl

variable (V : (c : Dev nD) → (b : Ref sig .tc) → Buf (Elt Ideal) ((c : Thread nD τ).loc b))

/-! ## The specification over the arrays the region finds -/

/-- A bias as a vector: the one row of its array. -/
abbrev biasF (c : Dev nD) : Cert.Spec.Vec1.Idx → EReal := fun i => V c main_v8 (ix2 (0 : Fin 1) (i 0))
abbrev biasI (c : Dev nD) : Cert.Spec.Vec1.Idx → EReal := fun i => V c main_v9 (ix2 (0 : Fin 1) (i 0))
abbrev biasC (c : Dev nD) : Cert.Spec.Vec1.Idx → EReal := fun i => V c main_v10 (ix2 (0 : Fin 1) (i 0))
abbrev biasO (c : Dev nD) : Cert.Spec.Vec1.Idx → EReal := fun i => V c main_v11 (ix2 (0 : Fin 1) (i 0))

/-- The specification's hidden state, entry by entry. -/
abbrev hiddenAt (c : Dev nD) : Fin 4096 → Fin 4096 → EReal :=
  Cert.Spec.hidden (V c main_v2) (V c main_arg2) (V c main_v3) (biasF V c) (V c main_v4) (biasI V c)
    (V c main_v5) (biasC V c) (V c main_v6) (biasO V c)

/-- The specification's hidden state as an array. -/
abbrev target (c : Dev nD) : S4096x4096.Idx → EReal :=
  Cert.Spec.hiddenArr (V c main_v2) (V c main_arg2) (V c main_v3) (biasF V c) (V c main_v4) (biasI V c)
    (V c main_v5) (biasC V c) (V c main_v6) (biasO V c)

/-! ## What a flushing point stores -/

/-- A finished accumulator holds the full contraction: eight blocks swept. -/
theorem full_of_partial (x W : (⟨2, ![4096, 8192]⟩ : Shape).Idx → EReal) (t : Fin cfg0.N) (h7 : t.val % 8 = 7)
    (r : Fin 1024) (u : Fin 512) (b j : Fin 4096)
    (hb : b.val = 1024 * (t.val / 64) + r.val) (hj : j.val = 512 * (t.val / 8 % 8) + u.val) :
    partialDot x W (1024 * (t.val / 64) + r.val) (512 * (t.val / 8 % 8) + u.val) (t.val % 8 + 1)
      = ∑ k : Fin 8192, x (ix2 b k) * W (ix2 j k) := by
  rw [← hb, ← hj, h7]
  exact partialDot_full x W b j

/-- At the last block of a sweep the output's buffer holds, at row r and unit u, the specification's hidden state at
    row b = 1024·(t/64) + r and unit j = 512·(t/8 mod 8) + u. -/
theorem out_entry (c : Dev nD) (t : Fin cfg0.N) (h7 : t.val % 8 = 7) (r : Fin 1024) (u : Fin 512) (b j : Fin 4096)
    (hb : b.val = 1024 * (t.val / 64) + r.val) (hj : j.val = 512 * (t.val / 8 % 8) + u.val) :
    (outsAt V c t.val t.isLt).1 (ix2 r u) = hiddenAt V c b j := by
  have h0 : ¬t.val % 8 = 0 := by omega
  have hf : ¬isFirst (grid0.coords t) := fun h => h0 ((isFirst_iff t).mp h)
  have hl : isLast (grid0.coords t) := (isLast_iff t).mpr h7
  have aF := (accF_eq V c t r u).trans (full_of_partial (V c main_v2) (V c main_v3) t h7 r u b j hb hj)
  have aI := (accI_eq V c t r u).trans (full_of_partial (V c main_v2) (V c main_v4) t h7 r u b j hb hj)
  have aC := (accC_eq V c t r u).trans (full_of_partial (V c main_v2) (V c main_v5) t h7 r u b j hb hj)
  have aO := (accO_eq V c t r u).trans (full_of_partial (V c main_v2) (V c main_v6) t h7 r u b j hb hj)
  rw [outsAt_last V c t h0 h7] at aF aI aC aO ⊢
  dsimp only at aF aI aC aO ⊢
  rw [accFLast_eq V c t hf hl] at aF
  rw [accILast_eq V c t hf hl] at aI
  rw [accCLast_eq V c t hf hl] at aC
  rw [accOLast_eq V c t hf hl] at aO
  refine (congrFun (outLast_eq V c t hf hl _ _ _ _) (ix2 r u)).trans ?_
  exact epilogue_hidden _ (iblk V c 5 t) _ (iblk V c 6 t) _ (iblk V c 7 t) _ (iblk V c 8 t) (iblk V c 9 t)
    (V c main_v2) (V c main_arg2) (V c main_v3) (biasF V c) (V c main_v4) (biasI V c)
    (V c main_v5) (biasC V c) (V c main_v6) (biasO V c) r u b j aF aI aC aO
    (iblk5_apply V c t u (ix2 (0 : Fin 1) j) rfl hj) (iblk6_apply V c t u (ix2 (0 : Fin 1) j) rfl hj)
    (iblk7_apply V c t u (ix2 (0 : Fin 1) j) rfl hj) (iblk8_apply V c t u (ix2 (0 : Fin 1) j) rfl hj)
    (iblk9_apply V c t r u (ix2 b j) hb hj)

/-- What a flushing point writes back is its block of the specification's hidden state. -/
theorem flushed_eq (c : Dev nD) (t : Fin cfg0.N) (hf : (cfg0.win 10).flush t = true) :
    (dat V c).flushed 10 t = ((cfg0.win 10).blk t).view.read (Elt Ideal) (target V c) := by
  have h7 : t.val % 8 = 7 := (flush0_10 t).mp hf
  have hN : t.val < 256 := point_lt t
  obtain ⟨e0, e1⟩ := index_out t
  show (cfg0.win 10).cut (grid0.coords t) ((dat V c).after 10 t) = _
  rw [after_10]
  funext y
  rw [View.read_apply]
  obtain ⟨r, u, rfl⟩ : ∃ (r : Fin 1024) (u : Fin 512), y = ix2 r u := ⟨y 0, y 1, eq_ix2 y⟩
  have hb : 1024 * (t.val / 64) + r.val < 4096 := by have := r.isLt; omega
  have hj : 512 * (t.val / 8 % 8) + u.val < 4096 := by have := u.isLt; omega
  refine (out_entry V c t h7 r u ⟨1024 * (t.val / 64) + r.val, hb⟩ ⟨512 * (t.val / 8 % 8) + u.val, hj⟩ rfl rfl).trans ?_
  show hiddenAt V c _ _
    = hiddenAt V c ((((cfg0.win 10).blk t).view.emb (ix2 r u)) 0) ((((cfg0.win 10).blk t).view.emb (ix2 r u)) 1)
  refine congrArg₂ (hiddenAt V c) (Fin.ext ?_) (Fin.ext ?_)
  · show 1024 * (t.val / 64) + r.val = win0_10.index t (0 : Fin 2) * 1024 + 1 * r.val
    rw [e0]; omega
  · show 512 * (t.val / 8 % 8) + u.val = win0_10.index t (1 : Fin 2) * 512 + 1 * u.val
    rw [e1]; omega

/-! ## The result array -/

/-- **The result array** after the region: the specification's hidden state of the concatenated input, the cell state
    and the four gates' weights and bias rows as the region finds them. -/
theorem final (c : Dev nD) :
    (dat (F := Ideal) V c).arrAt 10 cfg0.N
      = Cert.Spec.hiddenArr (V c main_v2) (V c main_arg2)
          (V c main_v3) (fun i => V c main_v8 (ix2 (0 : Fin 1) (i 0)))
          (V c main_v4) (fun i => V c main_v9 (ix2 (0 : Fin 1) (i 0)))
          (V c main_v5) (fun i => V c main_v10 (ix2 (0 : Fin 1) (i 0)))
          (V c main_v6) (fun i => V c main_v11 (ix2 (0 : Fin 1) (i 0))) :=
  (dat V c).arrAt_eq_of_cover 10 (target V c) (flushed_eq V c) fun i => by
    have hi0 : (i 0).val < 4096 := (i 0).isLt
    have hi1 : (i 1).val < 4096 := (i 1).isLt
    have hlt : 64 * ((i 0).val / 1024) + 8 * ((i 1).val / 512) + 7 < cfg0.N := by
      rw [show cfg0.N = 256 from N_0]; omega
    obtain ⟨e0, e1⟩ := index_out ⟨64 * ((i 0).val / 1024) + 8 * ((i 1).val / 512) + 7, hlt⟩
    refine ⟨⟨64 * ((i 0).val / 1024) + 8 * ((i 1).val / 512) + 7, hlt⟩, (flush0_10 _).mpr (by
      show (64 * ((i 0).val / 1024) + 8 * ((i 1).val / 512) + 7) % 8 = 7; omega), ?_⟩
    show i ∈ ((View.whole main_v13).slice (win0_10.rect ⟨64 * ((i 0).val / 1024) + 8 * ((i 1).val / 512) + 7, hlt⟩)).set
    rw [View.set_slice_whole, Rect.mem_set_unit]
    intro a
    match a with
    | ⟨0, _⟩ =>
      show win0_10.index ⟨64 * ((i 0).val / 1024) + 8 * ((i 1).val / 512) + 7, hlt⟩ (0 : Fin 2) * 1024 ≤ (i 0).val
        ∧ (i 0).val < win0_10.index ⟨64 * ((i 0).val / 1024) + 8 * ((i 1).val / 512) + 7, hlt⟩ (0 : Fin 2) * 1024 + 1024
      rw [e0]
      show (64 * ((i 0).val / 1024) + 8 * ((i 1).val / 512) + 7) / 64 * 1024 ≤ (i 0).val
        ∧ (i 0).val < (64 * ((i 0).val / 1024) + 8 * ((i 1).val / 512) + 7) / 64 * 1024 + 1024
      omega
    | ⟨1, _⟩ =>
      show win0_10.index ⟨64 * ((i 0).val / 1024) + 8 * ((i 1).val / 512) + 7, hlt⟩ (1 : Fin 2) * 512 ≤ (i 1).val
        ∧ (i 1).val < win0_10.index ⟨64 * ((i 0).val / 1024) + 8 * ((i 1).val / 512) + 7, hlt⟩ (1 : Fin 2) * 512 + 512
      rw [e1]
      show (64 * ((i 0).val / 1024) + 8 * ((i 1).val / 512) + 7) / 8 % 8 * 512 ≤ (i 1).val
        ∧ (i 1).val < (64 * ((i 0).val / 1024) + 8 * ((i 1).val / 512) + 7) / 8 % 8 * 512 + 512
      omega

end Cert.KernelIdeal.GatesValue

end
-- ==== Proof.KernelIdeal.Value.lean ====
/-
  The value of the program's result. At the last boundary the result buffer holds the softmax kernel's final array,
  which is the specification's softmax output of that kernel's three operands; the first of them is the gate kernel's
  final array, the specification's hidden state of the gate kernel's operands; and every operand is what the host
  operations left: the concatenated input, the weights and the cell state themselves, the biases as rows. Put together,
  the result is the specification's output at the thirteen arguments of the launch memory.
-/
import proofs.«176059_j79517024518378_2_alg».proof.Proof.KernelIdeal.HostReads
import proofs.«176059_j79517024518378_2_alg».proof.Proof.KernelIdeal.Frame
import proofs.«176059_j79517024518378_2_alg».proof.Proof.KernelIdeal.SoftmaxValue.Final
import proofs.«176059_j79517024518378_2_alg».proof.Proof.KernelIdeal.GatesValue.Final
import proofs.«176059_j79517024518378_2_alg».proof.Proof.Spec

set_option maxRecDepth 16384

noncomputable section

namespace Cert.KernelIdeal.Whole

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The program's result: the specification's output at the launch memory's thirteen arguments, the concatenated
    input being the concatenation of the first two. -/
def result (c : Dev nD) : S4096x4096.Idx → EReal :=
  Cert.Spec.probsArr (Cert.Spec.hiddenArr
      (concatenate S4096x8192 1 [⟨S4096x4096, m ((c : Thread nD τ).loc main_arg0)⟩, ⟨S4096x4096, m ((c : Thread nD τ).loc main_arg1)⟩] concatenates_S4096x4096_S4096x4096_S4096x8192_d1 : S4096x8192.Idx → EReal)
      (m ((c : Thread nD τ).loc main_arg2)) (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)))
    (m ((c : Thread nD τ).loc main_arg11)) (m ((c : Thread nD τ).loc main_arg12))

/-- The result buffer at the last boundary holds it: the softmax kernel's final array at the gate kernel's final array,
    each read at what the host operations left in its operand buffers. -/
theorem value (c : Dev nD) : W3 (F := Ideal) m ρ c (Proc.devRef .tc main_v14) = result m c := by
  rw [V3_v14, Cert.KernelIdeal.SoftmaxValue.final (V2 m ρ) c]
  rw [V2_v13, Cert.KernelIdeal.GatesValue.final (V1 m ρ) c, V2_v7, V2_v12]
  rw [V1_v2, V1_arg2, V1_v3, V1_v4, V1_v5, V1_v6, V1_v7, V1_v8_row, V1_v9_row, V1_v10_row, V1_v11_row, V1_v12_row]
  rfl

/-- Every weakly fair execution of the program terminates, nothing faulting, with the result buffer at the
    specification's output and every argument array as launched. -/
theorem run_value : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v14 (by decide))).trans (value m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c)⟩) (run m ρ)

end Cert.KernelIdeal.Whole

end
-- ==== Proof.Ref.Consts.lean ====
/-
  The three float words the reference's program writes as constants, as extended reals: the word of 1.0 is the real
  number one, the word of negative infinity is the bottom element, and (from the library) the zero word is zero.
-/
import Idealize.ShloMosaic.PureOps.Ideal.Laws

namespace Cert.RefSide

open Idealize.ShloMosaic

/-- The single-precision word `0x3F800000` (sign 0, exponent 127, fraction 0) denotes 1. -/
theorem ofBits_one : Ideal.ofBits .f32 0x3F800000#32 = 1 := by
  simp [Ideal.ofBits, Ideal.ieee, -EReal.coe_mul]; norm_num

/-- The single-precision word `0xFF800000` (sign 1, exponent all ones, fraction 0) denotes −∞. -/
theorem ofBits_negInf : Ideal.ofBits .f32 0xFF800000#32 = ⊥ := by
  simp [Ideal.ofBits, Ideal.ieee]

end Cert.RefSide
-- ==== Proof.Ref.Gate.lean ====
/-
  The four gates of the step, read entry by entry from the reference's program.
  Each gate multiplies the concatenated input `xh` (each row the row of `x` followed by the row of `h`) with the transpose of the gate's
  weight matrix and adds the bias broadcast along the rows, so its pre-activation at row `b`, unit `j` is
      Σ_k xh(b, k) · W(j, k) + bias(j).
  The forget, input and output gates then apply 1 / (1 + e^(−p)), written out by the program as a negation, an
  exponential, an addition to the constant one and a division of the constant one; that expression is the logistic
  function of the extended reals by definition. The candidate applies the hyperbolic tangent.
  The concatenated input is kept as one array and never read at a coordinate here.
-/
import proofs.«176059_j79517024518378_2_alg».proof.Proof.Gen.ReferenceIdeal.Read
import proofs.«176059_j79517024518378_2_alg».proof.Proof.Spec
import proofs.«176059_j79517024518378_2_alg».proof.Proof.Ref.Consts

noncomputable section

namespace Cert.RefSide

open Cert.ReferenceIdeal Cert.ReferenceIdeal.Gen Cert.ReferenceIdeal.Read Idealize.ShloMosaic Idealize.ShloMosaic.ValueIdx

/-- The reference's concatenation of `x` and `h` along the columns, as one array. -/
abbrev XH (x h : (⟨S4096x4096, .f32⟩ : BufTy).Contents (Elt Ideal)) : (⟨S4096x8192, .f32⟩ : BufTy).Contents (Elt Ideal) :=
  val_main_v0 (F := Ideal) x h

/-- The forget gate's pre-activation at `(b, j)`: the contraction index of the product runs over the columns of the
    concatenated input and, through the transpose, over the columns of row `j` of the weights; the doubly broadcast
    bias is read at `j`. -/
theorem pre_f (x h : (⟨S4096x4096, .f32⟩ : BufTy).Contents (Elt Ideal)) (Wf : (⟨S4096x8192, .f32⟩ : BufTy).Contents (Elt Ideal)) (bf : (⟨S4096, .f32⟩ : BufTy).Contents (Elt Ideal)) (b j : Fin 4096) :
    val_main_v5 (F := Ideal) x h Wf bf (ix2 b j) = Cert.Spec.preact (XH x h) Wf bf b j := by
  have el : ∀ k : Fin 8192, lidx_main_v2 (ix2 b j) k = ix2 b k :=
    fun k => funext fun a => match a with | ⟨0, _⟩ => rfl | ⟨1, _⟩ => rfl
  have er : ∀ k : Fin 8192, idx_main_v1 (ridx_main_v2 (ix2 b j) k) = ix2 j k :=
    fun k => funext fun a => match a with | ⟨0, _⟩ => rfl | ⟨1, _⟩ => rfl
  have eb : idx_main_v3 (idx_main_v4 (ix2 b j)) = ix1 j :=
    funext fun a => match a with | ⟨0, _⟩ => rfl
  rw [val_main_v5_apply, val_main_v2_apply, val_main_v4_apply, val_main_v3_apply, eb]
  simp only [val_main_v1_apply, el, er]
  rfl

/-- The forget gate at `(b, j)`: the logistic function of its pre-activation. -/
theorem gate_f (x h : (⟨S4096x4096, .f32⟩ : BufTy).Contents (Elt Ideal)) (Wf : (⟨S4096x8192, .f32⟩ : BufTy).Contents (Elt Ideal)) (bf : (⟨S4096, .f32⟩ : BufTy).Contents (Elt Ideal)) (b j : Fin 4096) :
    val_main_v11 (F := Ideal) x h Wf bf (ix2 b j) = Ideal.logistic (Cert.Spec.preact (XH x h) Wf bf b j) := by
  rw [val_main_v11_apply, val_main_v10_apply, val_main_cst_0_apply, val_main_v9_apply, val_main_v8_apply,
    val_main_cst_apply, val_main_v7_apply, val_main_v6_apply, pre_f]
  simp only [Ideal.ofBits_def, ofBits_one]
  rfl

/-- The candidate gate's pre-activation at `(b, j)`: the contraction index of the product runs over the columns of the
    concatenated input and, through the transpose, over the columns of row `j` of the weights; the doubly broadcast
    bias is read at `j`. -/
theorem pre_c (x h : (⟨S4096x4096, .f32⟩ : BufTy).Contents (Elt Ideal)) (Wc : (⟨S4096x8192, .f32⟩ : BufTy).Contents (Elt Ideal)) (bc : (⟨S4096, .f32⟩ : BufTy).Contents (Elt Ideal)) (b j : Fin 4096) :
    val_main_v16 (F := Ideal) x h Wc bc (ix2 b j) = Cert.Spec.preact (XH x h) Wc bc b j := by
  have el : ∀ k : Fin 8192, lidx_main_v13 (ix2 b j) k = ix2 b k :=
    fun k => funext fun a => match a with | ⟨0, _⟩ => rfl | ⟨1, _⟩ => rfl
  have er : ∀ k : Fin 8192, idx_main_v12 (ridx_main_v13 (ix2 b j) k) = ix2 j k :=
    fun k => funext fun a => match a with | ⟨0, _⟩ => rfl | ⟨1, _⟩ => rfl
  have eb : idx_main_v14 (idx_main_v15 (ix2 b j)) = ix1 j :=
    funext fun a => match a with | ⟨0, _⟩ => rfl
  rw [val_main_v16_apply, val_main_v13_apply, val_main_v15_apply, val_main_v14_apply, eb]
  simp only [val_main_v12_apply, el, er]
  rfl

/-- The candidate at `(b, j)`: the hyperbolic tangent of its pre-activation. -/
theorem gate_c (x h : (⟨S4096x4096, .f32⟩ : BufTy).Contents (Elt Ideal)) (Wc : (⟨S4096x8192, .f32⟩ : BufTy).Contents (Elt Ideal)) (bc : (⟨S4096, .f32⟩ : BufTy).Contents (Elt Ideal)) (b j : Fin 4096) :
    val_main_v17 (F := Ideal) x h Wc bc (ix2 b j) = Ideal.tanh (Cert.Spec.preact (XH x h) Wc bc b j) := by
  rw [val_main_v17_apply, pre_c]
  rfl

/-- The input gate's pre-activation at `(b, j)`: the contraction index of the product runs over the columns of the
    concatenated input and, through the transpose, over the columns of row `j` of the weights; the doubly broadcast
    bias is read at `j`. -/
theorem pre_i (x h : (⟨S4096x4096, .f32⟩ : BufTy).Contents (Elt Ideal)) (Wi : (⟨S4096x8192, .f32⟩ : BufTy).Contents (Elt Ideal)) (bi : (⟨S4096, .f32⟩ : BufTy).Contents (Elt Ideal)) (b j : Fin 4096) :
    val_main_v22 (F := Ideal) x h Wi bi (ix2 b j) = Cert.Spec.preact (XH x h) Wi bi b j := by
  have el : ∀ k : Fin 8192, lidx_main_v19 (ix2 b j) k = ix2 b k :=
    fun k => funext fun a => match a with | ⟨0, _⟩ => rfl | ⟨1, _⟩ => rfl
  have er : ∀ k : Fin 8192, idx_main_v18 (ridx_main_v19 (ix2 b j) k) = ix2 j k :=
    fun k => funext fun a => match a with | ⟨0, _⟩ => rfl | ⟨1, _⟩ => rfl
  have eb : idx_main_v20 (idx_main_v21 (ix2 b j)) = ix1 j :=
    funext fun a => match a with | ⟨0, _⟩ => rfl
  rw [val_main_v22_apply, val_main_v19_apply, val_main_v21_apply, val_main_v20_apply, eb]
  simp only [val_main_v18_apply, el, er]
  rfl

/-- The input gate at `(b, j)`: the logistic function of its pre-activation. -/
theorem gate_i (x h : (⟨S4096x4096, .f32⟩ : BufTy).Contents (Elt Ideal)) (Wi : (⟨S4096x8192, .f32⟩ : BufTy).Contents (Elt Ideal)) (bi : (⟨S4096, .f32⟩ : BufTy).Contents (Elt Ideal)) (b j : Fin 4096) :
    val_main_v28 (F := Ideal) x h Wi bi (ix2 b j) = Ideal.logistic (Cert.Spec.preact (XH x h) Wi bi b j) := by
  rw [val_main_v28_apply, val_main_v27_apply, val_main_cst_2_apply, val_main_v26_apply, val_main_v25_apply,
    val_main_cst_1_apply, val_main_v24_apply, val_main_v23_apply, pre_i]
  simp only [Ideal.ofBits_def, ofBits_one]
  rfl

/-- The output gate's pre-activation at `(b, j)`: the contraction index of the product runs over the columns of the
    concatenated input and, through the transpose, over the columns of row `j` of the weights; the doubly broadcast
    bias is read at `j`. -/
theorem pre_o (x h : (⟨S4096x4096, .f32⟩ : BufTy).Contents (Elt Ideal)) (Wo : (⟨S4096x8192, .f32⟩ : BufTy).Contents (Elt Ideal)) (bo : (⟨S4096, .f32⟩ : BufTy).Contents (Elt Ideal)) (b j : Fin 4096) :
    val_main_v33 (F := Ideal) x h Wo bo (ix2 b j) = Cert.Spec.preact (XH x h) Wo bo b j := by
  have el : ∀ k : Fin 8192, lidx_main_v30 (ix2 b j) k = ix2 b k :=
    fun k => funext fun a => match a with | ⟨0, _⟩ => rfl | ⟨1, _⟩ => rfl
  have er : ∀ k : Fin 8192, idx_main_v29 (ridx_main_v30 (ix2 b j) k) = ix2 j k :=
    fun k => funext fun a => match a with | ⟨0, _⟩ => rfl | ⟨1, _⟩ => rfl
  have eb : idx_main_v31 (idx_main_v32 (ix2 b j)) = ix1 j :=
    funext fun a => match a with | ⟨0, _⟩ => rfl
  rw [val_main_v33_apply, val_main_v30_apply, val_main_v32_apply, val_main_v31_apply, eb]
  simp only [val_main_v29_apply, el, er]
  rfl

/-- The output gate at `(b, j)`: the logistic function of its pre-activation. -/
theorem gate_o (x h : (⟨S4096x4096, .f32⟩ : BufTy).Contents (Elt Ideal)) (Wo : (⟨S4096x8192, .f32⟩ : BufTy).Contents (Elt Ideal)) (bo : (⟨S4096, .f32⟩ : BufTy).Contents (Elt Ideal)) (b j : Fin 4096) :
    val_main_v39 (F := Ideal) x h Wo bo (ix2 b j) = Ideal.logistic (Cert.Spec.preact (XH x h) Wo bo b j) := by
  rw [val_main_v39_apply, val_main_v38_apply, val_main_cst_4_apply, val_main_v37_apply, val_main_v36_apply,
    val_main_cst_3_apply, val_main_v35_apply, val_main_v34_apply, pre_o]
  simp only [Ideal.ofBits_def, ofBits_one]
  rfl

end Cert.RefSide

end
-- ==== Proof.Ref.Hidden.lean ====
/-
  The new hidden state, read entry by entry from the reference's program:
      h'(b, j) = tanh (c(b, j) · f(b, j) + g(b, j) · i(b, j)) · o(b, j)
  with f, i, o the forget, input and output gates and g the candidate, all pointwise operations on the four gate
  arrays. Entry by entry this is the specification's hidden state of the concatenated input.
-/
import proofs.«176059_j79517024518378_2_alg».proof.Proof.Ref.Gate

noncomputable section

namespace Cert.RefSide

open Cert.ReferenceIdeal Cert.ReferenceIdeal.Gen Cert.ReferenceIdeal.Read Idealize.ShloMosaic Idealize.ShloMosaic.ValueIdx

/-- The hidden state at `(b, j)`. -/
theorem hidden_apply (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (b j : Fin 4096) :
    val_main_v44 (F := Ideal) x h c Wf bf Wi bi Wc bc Wo bo (ix2 b j)
      = Cert.Spec.hidden (XH x h) c Wf bf Wi bi Wc bc Wo bo b j := by
  rw [val_main_v44_apply, val_main_v43_apply, val_main_v42_apply, val_main_v40_apply, val_main_v41_apply,
    gate_f, gate_c, gate_i, gate_o]
  rfl

/-- The hidden state as an array. -/
theorem hidden_eq (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) :
    val_main_v44 (F := Ideal) x h c Wf bf Wi bi Wc bc Wo bo = Cert.Spec.hiddenArr (XH x h) c Wf bf Wi bi Wc bc Wo bo := by
  funext i
  obtain ⟨b, j, rfl⟩ : ∃ (b j : Fin 4096), i = ix2 b j := ⟨i 0, i 1, eq_ix2 i⟩
  exact hidden_apply x h c Wf bf Wi bi Wc bc Wo bo b j

end Cert.RefSide

end
-- ==== Proof.Ref.Logits.lean ====
/-
  The logits, read entry by entry from the reference's program: the hidden state multiplied with the transpose of the
  output weights, plus the output bias broadcast along the rows,
      l(b, v) = Σ_k h'(b, k) · Wout(v, k) + bout(v).
-/
import proofs.«176059_j79517024518378_2_alg».proof.Proof.Ref.Hidden

noncomputable section

namespace Cert.RefSide

open Cert.ReferenceIdeal Cert.ReferenceIdeal.Gen Cert.ReferenceIdeal.Read Idealize.ShloMosaic Idealize.ShloMosaic.ValueIdx

/-- The specification's logits of the reference's arguments, as a function of row and class. -/
abbrev L (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (Wout : (⟨S4096x4096, .f32⟩ : BufTy).Contents (Elt Ideal)) (bout : (⟨S4096, .f32⟩ : BufTy).Contents (Elt Ideal)) : Fin 4096 → Fin 4096 → EReal :=
  Cert.Spec.logit (Cert.Spec.hiddenArr (XH x h) c Wf bf Wi bi Wc bc Wo bo) Wout bout

/-- The logit at `(b, v)`: the contraction runs over the columns of row `b` of the hidden state and, through the
    transpose, over the columns of row `v` of the output weights. -/
theorem logit_apply (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (Wout : (⟨S4096x4096, .f32⟩ : BufTy).Contents (Elt Ideal)) (bout : (⟨S4096, .f32⟩ : BufTy).Contents (Elt Ideal)) (b v : Fin 4096) :
    val_main_v49 (F := Ideal) x h c Wf bf Wi bi Wc bc Wo bo Wout bout (ix2 b v) = L x h c Wf bf Wi bi Wc bc Wo bo Wout bout b v := by
  have el : ∀ k : Fin 4096, lidx_main_v46 (ix2 b v) k = ix2 b k :=
    fun k => funext fun a => match a with | ⟨0, _⟩ => rfl | ⟨1, _⟩ => rfl
  have er : ∀ k : Fin 4096, idx_main_v45 (ridx_main_v46 (ix2 b v) k) = ix2 v k :=
    fun k => funext fun a => match a with | ⟨0, _⟩ => rfl | ⟨1, _⟩ => rfl
  have eb : idx_main_v47 (idx_main_v48 (ix2 b v)) = ix1 v :=
    funext fun a => match a with | ⟨0, _⟩ => rfl
  rw [val_main_v49_apply, val_main_v46_apply, val_main_v48_apply, val_main_v47_apply, eb, hidden_eq]
  simp only [val_main_v45_apply, el, er]
  rfl

end Cert.RefSide

end
-- ==== Proof.Ref.RowMax.lean ====
/-
  The row maxima of the logits, read from the reference's program. The program reduces the logits along each row
  by `maximum` starting from −∞ and then takes the maximum of the result with an array of −∞. A reduction by a
  commutative and associative operation along one axis is the fold of that operation over the axis's coordinates, and
  the maximum of −∞ with `m` is `m`; so the value at row `b` is the fold of `max` from −∞ over row `b`.
-/
import proofs.«176059_j79517024518378_2_alg».proof.Proof.Ref.Logits
import proofs.«176059_j79517024518378_2_alg».proof.Proof.LibLayout

noncomputable section

namespace Cert.RefSide

open Cert.ReferenceIdeal Cert.ReferenceIdeal.Gen Cert.ReferenceIdeal.Read Idealize.ShloMosaic Idealize.ShloMosaic.ValueIdx

/-- A reduction by `maximum` along the rows of a 4096 × 4096 array of extended reals, at row `b`: the fold of `max`
    from the initial value over the row's entries. -/
theorem hostRowMax (y : (⟨S4096x4096, .f32⟩ : BufTy).Contents (Elt Ideal)) (init : (⟨S_, .f32⟩ : BufTy).Contents (Elt Ideal))
    (h' : S4096x4096.ReducesTo [1] S4096) (hu : 0 < S_.numel) (b : Fin 4096) :
    Host.reduce (FloatOps.maximumf (F := Ideal) (φ := .f32)) y init h' hu (ix1 b)
      = (Finset.univ : Finset (Fin 4096)).fold max (init (Shape.Idx.first hu)) (fun k => y (ix2 b k)) := by
  have h : S4096x4096.Reduces [1] S4096 := by decide
  refine (Host.reduce_eq_fold_single _ y init h' h hu (ix1 b)).trans ?_
  exact congrArg (Finset.fold max (init (Shape.Idx.first hu)) · (Finset.univ : Finset (Fin 4096)))
    (funext fun k => congrArg y (Cert.Attn.Layout.lift_row h b k))

/-- The shift the reference subtracts in row `b`: the maximum of the row's logits. -/
theorem rowmax_apply (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (Wout : (⟨S4096x4096, .f32⟩ : BufTy).Contents (Elt Ideal)) (bout : (⟨S4096, .f32⟩ : BufTy).Contents (Elt Ideal)) (b : Fin 4096) :
    val_main_v52 (F := Ideal) x h c Wf bf Wi bi Wc bc Wo bo Wout bout (ix1 b) = Cert.Spec.rowMax (L x h c Wf bf Wi bi Wc bc Wo bo Wout bout) b := by
  rw [val_main_v52_apply, val_main_v51_apply, val_main_cst_6_apply]
  unfold val_main_v50
  rw [hostRowMax, val_main_cst_5_apply]
  simp only [logit_apply, Ideal.ofBits_def, ofBits_negInf]
  exact max_bot_left _

end Cert.RefSide

end
-- ==== Proof.Ref.Softmax.lean ====
/-
  The output, read entry by entry from the reference's program: each logit minus its row's maximum (broadcast back
  along the row), the exponential of that, the row sums of the exponentials starting from zero (broadcast back along
  the row), and the quotient. At `(b, v)`:
      exp (l(b, v) − M(b)) / Σ_v' exp (l(b, v') − M(b)).
-/
import proofs.«176059_j79517024518378_2_alg».proof.Proof.Ref.RowMax

noncomputable section

namespace Cert.RefSide

open Cert.ReferenceIdeal Cert.ReferenceIdeal.Gen Cert.ReferenceIdeal.Read Idealize.ShloMosaic Idealize.ShloMosaic.ValueIdx

/-- The shifted exponential at `(b, k)`. -/
theorem shiftedExp_apply (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (Wout : (⟨S4096x4096, .f32⟩ : BufTy).Contents (Elt Ideal)) (bout : (⟨S4096, .f32⟩ : BufTy).Contents (Elt Ideal)) (b k : Fin 4096) :
    val_main_v56 (F := Ideal) x h c Wf bf Wi bi Wc bc Wo bo Wout bout (ix2 b k)
      = Ideal.exp (L x h c Wf bf Wi bi Wc bc Wo bo Wout bout b k - Cert.Spec.rowMax (L x h c Wf bf Wi bi Wc bc Wo bo Wout bout) b) := by
  have e : idx_main_v53 (idx_main_v54 (ix2 b k)) = ix1 b := funext fun a => match a with | ⟨0, _⟩ => rfl
  rw [val_main_v56_apply, val_main_v55_apply, val_main_v54_apply, val_main_v53_apply, e, rowmax_apply, logit_apply]
  rfl

/-- The output at `(b, v)`: the specification's softmax of the logits. -/
theorem softmax_apply (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (Wout : (⟨S4096x4096, .f32⟩ : BufTy).Contents (Elt Ideal)) (bout : (⟨S4096, .f32⟩ : BufTy).Contents (Elt Ideal)) (b v : Fin 4096) :
    val_main_v60 (F := Ideal) x h c Wf bf Wi bi Wc bc Wo bo Wout bout (ix2 b v) = Cert.Spec.softmax (L x h c Wf bf Wi bi Wc bc Wo bo Wout bout) b v := by
  have e59 : idx_main_v58 (idx_main_v59 (ix2 b v)) = ix1 b := funext fun a => match a with | ⟨0, _⟩ => rfl
  have e57 : ∀ k : Fin 4096, idx_main_v57 (ix1 b) k = ix2 b k :=
    fun k => funext fun a => match a with | ⟨0, _⟩ => rfl | ⟨1, _⟩ => rfl
  rw [val_main_v60_apply, val_main_v59_apply, val_main_v58_apply, e59, val_main_v57_apply, val_main_cst_7_apply]
  simp only [e57, shiftedExp_apply, Ideal.ofBits_def, Ideal.ofBits_zero_f32, zero_add]
  rfl

end Cert.RefSide

end
-- ==== Proof.Ref.Result.lean ====
/-
  The reference's result is the specification's output of the hidden state of the concatenated input: the entrywise
  readings of the gates, the hidden state, the logits, the row maxima and the softmax, put together as one equation
  between arrays, and the same equation for the term the reference's run ends with.
-/
import proofs.«176059_j79517024518378_2_alg».proof.Proof.Ref.Softmax

noncomputable section

namespace Cert.RefSide

open Cert.ReferenceIdeal Cert.ReferenceIdeal.Gen Cert.ReferenceIdeal.Read Idealize.ShloMosaic Idealize.ShloMosaic.TcCoe Idealize.SL.Sem Idealize.ShloMosaic.ValueIdx

/-- The reference's last stage, as an array, is the specification's output; the concatenated input is the
    reference's own concatenation of `x` and `h`, which stays one opaque array. -/
theorem result_eq (x h c : (⟨S4096x4096, .f32⟩ : BufTy).Contents (Elt Ideal)) (Wf : (⟨S4096x8192, .f32⟩ : BufTy).Contents (Elt Ideal)) (bf : (⟨S4096, .f32⟩ : BufTy).Contents (Elt Ideal)) (Wi : (⟨S4096x8192, .f32⟩ : BufTy).Contents (Elt Ideal)) (bi : (⟨S4096, .f32⟩ : BufTy).Contents (Elt Ideal)) (Wc : (⟨S4096x8192, .f32⟩ : BufTy).Contents (Elt Ideal)) (bc : (⟨S4096, .f32⟩ : BufTy).Contents (Elt Ideal)) (Wo : (⟨S4096x8192, .f32⟩ : BufTy).Contents (Elt Ideal)) (bo : (⟨S4096, .f32⟩ : BufTy).Contents (Elt Ideal)) (Wout : (⟨S4096x4096, .f32⟩ : BufTy).Contents (Elt Ideal)) (bout : (⟨S4096, .f32⟩ : BufTy).Contents (Elt Ideal)) :
    val_main_v60 (F := Ideal) x h c Wf bf Wi bi Wc bc Wo bo Wout bout
      = Cert.Spec.probsArr (Cert.Spec.hiddenArr
          (concatenate S4096x8192 1 [⟨S4096x4096, x⟩, ⟨S4096x4096, h⟩] concatenates_S4096x4096_S4096x4096_S4096x8192_d1 :
            (⟨S4096x8192, .f32⟩ : BufTy).Contents (Elt Ideal))
          c Wf bf Wi bi Wc bc Wo bo) Wout bout := by
  funext i
  obtain ⟨b, v, rfl⟩ : ∃ (b v : Fin 4096), i = ix2 b v := ⟨i 0, i 1, eq_ix2 i⟩
  exact softmax_apply x h c Wf bf Wi bi Wc bc Wo bo Wout bout b v

/-- The term the reference's run states for its result, at the thirteen argument buffers of a memory `m` on device `d`. -/
theorem run_result_eq (m : (ℓ : Loc nD τ sig) → Buf (Elt Ideal) ℓ) (d : Dev nD) :
    Cert.ReferenceIdeal.Value.res_main_v60 (F := Ideal) m d
      = Cert.Spec.probsArr (Cert.Spec.hiddenArr
          (concatenate S4096x8192 1 [⟨S4096x4096, m ((d.tc : Thread nD τ).loc main_arg0)⟩, ⟨S4096x4096, m ((d.tc : Thread nD τ).loc main_arg1)⟩]
            concatenates_S4096x4096_S4096x4096_S4096x8192_d1 : (⟨S4096x8192, .f32⟩ : BufTy).Contents (Elt Ideal))
          (m ((d.tc : Thread nD τ).loc main_arg2))
          (m ((d.tc : Thread nD τ).loc main_arg3)) (m ((d.tc : Thread nD τ).loc main_arg4))
          (m ((d.tc : Thread nD τ).loc main_arg5)) (m ((d.tc : Thread nD τ).loc main_arg6))
          (m ((d.tc : Thread nD τ).loc main_arg7)) (m ((d.tc : Thread nD τ).loc main_arg8))
          (m ((d.tc : Thread nD τ).loc main_arg9)) (m ((d.tc : Thread nD τ).loc main_arg10)))
        (m ((d.tc : Thread nD τ).loc main_arg11)) (m ((d.tc : Thread nD τ).loc main_arg12)) :=
  (val_main_v60_eq (F := Ideal) m d).trans (result_eq _ _ _ _ _ _ _ _ _ _ _ _ _)

end Cert.RefSide

end
-- ==== Proof.Ref.Frame.lean ====
/-
  The reference runs to the end and leaves its thirteen argument arrays as they were: its run, which states the
  result and the arguments after it, with the statement about the result dropped.
-/
import proofs.«176059_j79517024518378_2_alg».proof.Defs
import proofs.«176059_j79517024518378_2_alg».proof.Proof.Gen.ReferenceIdeal
import proofs.«176059_j79517024518378_2_alg».proof.Proof.Gen.Pre_finite_inputs
import proofs.«176059_j79517024518378_2_alg».proof.Proof.Gen.ReferenceIdeal.Run

noncomputable section

namespace Cert.RefSide

open Idealize.ShloMosaic Idealize.ShloMosaic.TcCoe Idealize.SL.Sem

/-- Every weakly fair execution of the reference terminates with its arguments unchanged. -/
theorem frame : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/-
  One step of an LSTM cell followed by a softmax output layer, computed by two pipelined kernels, against its plain
  reference, on the extended reals.

  The kernel program casts its operands to the matmul format (the identity on the extended reals), concatenates the
  input with the previous hidden state, and runs two kernels. The first accumulates the four gates' pre-activations
  over eight blocks of the concatenated axis in four accumulators carried from one grid point to the next, and at the
  last block adds the biases, applies the logistic function and tanh, and writes the new hidden state
  tanh (c · σ(p_f) + tanh(p_c) · σ(p_i)) · σ(p_o). The second accumulates the logits over four blocks of the hidden axis
  in one accumulator and at the last block adds the bias and writes the row softmax, shifted by the row maximum.
  The reference computes the same quantities with whole matrix products. The two agree because a contraction cut into
  blocks and summed block by block is the whole contraction (addition of extended reals is commutative and
  associative; nothing has to be finite), the logistic function is by definition 1 / (1 + e^(−x)), and both softmaxes
  subtract the same row maximum, a fold of max from −∞.

  The frames of the two kernel programs (every execution ends, nothing faults, the arguments end unchanged) come from
  one run of the program as three segments — the host operations, the first kernel's region, the second kernel's —
  with each region's invariant carrying its accumulators' contents from point to point; the same run, read at the
  result buffer, gives the kernel's value. The reference's frame and value come from its run as a list of host
  operations. The idealized kernel program is the kernel program's own text read on the extended reals, so there is
  nothing to preserve.
-/
import proofs.«176059_j79517024518378_2_alg».proof.Defs
import proofs.«176059_j79517024518378_2_alg».proof.Proof.Gen.Kernel
import proofs.«176059_j79517024518378_2_alg».proof.Proof.Gen.KernelIdeal
import proofs.«176059_j79517024518378_2_alg».proof.Proof.Gen.ReferenceIdeal
import proofs.«176059_j79517024518378_2_alg».proof.Proof.Gen.Pre_finite_inputs
import proofs.«176059_j79517024518378_2_alg».proof.Proof.Gen.ReferenceIdeal.Run
import proofs.«176059_j79517024518378_2_alg».proof.Proof.Gen.ReferenceIdeal.Read
import proofs.«176059_j79517024518378_2_alg».proof.Proof.Kernel.Frame
import proofs.«176059_j79517024518378_2_alg».proof.Proof.KernelIdeal.Value
import proofs.«176059_j79517024518378_2_alg».proof.Proof.Ref.Result
import proofs.«176059_j79517024518378_2_alg».proof.Proof.Ref.Frame
import Idealize.ShloMosaic.Adequacy
import Idealize.ShloMosaic.Init

noncomputable section

namespace Cert.Proof

open Idealize.ShloMosaic Idealize.SL.Sem

/-- The kernel program, at the word level: it runs to the end and leaves its arguments unchanged. -/
theorem frame_kernel : Cert.frame_Kernel := fun m ρ _ => Cert.Kernel.Whole.frame m ρ

/-- The same program read on the extended reals. -/
theorem frame_ideal : Cert.frame_KernelIdeal := fun m ρ _ => Cert.KernelIdeal.Whole.frame m ρ

/-- On the extended reals, from memories that agree on the thirteen arguments, the kernel program and the reference
    both end with their result at the specification's output of those arguments. -/
theorem algebraic : Cert.algebraic_KernelIdeal_ReferenceIdeal := by
  intro m ρ m' ρ' _ hagree
  refine ⟨fun c => Cert.KernelIdeal.Whole.result m c, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.RefSide.run_result_eq m' c]
  obtain ⟨h0, h1, h2, h3, h4, h5, h6, h7, h8, h9, h10, h11, h12⟩ := hagree c
  rw [h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_kernel, frame_ideal, Cert.RefSide.frame, trivial, algebraic⟩

end Cert.Proof

end
